-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "pos_big" .f32 0x7149F2CA#32 ⊤
  ∧ IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big" .f32 0xF149F2CA#32 ⊥
  ∧ IdealRules.named_const.Statement Cert.KernelIdeal.κ "pos_big_2" .f32 0x7147EDCD#32 ⊤
  ∧ IdealRules.named_const.Statement Cert.KernelIdeal.κ "neg_big_2" .f32 0xF147EDCD#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩

abbrev nBuf : Space → Nat
  | .hbm => 10
  | .vmem => 12
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v45 : BitVec 1 := Scalar.cmpi .eq arg1 c7_i32
  let v46 : BitVec 32 := Scalar.extui v45
  let c0_i32_23 : BitVec 32 := 0#32
  let v47 : BitVec 1 := Scalar.cmpi .ne v46 c0_i32_23
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  shapeCasts_S8192x1_S8192 : S8192x1.ShapeCasts S8192
  reducesTo_S8192_S_d0 : S8192.ReducesTo [0] S_
  h_S_ : 0 < S_.numel
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128x8192, .f32⟩
  | .hbm, ⟨3, _⟩ => ⟨S8192x8192, .f32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .i32⟩
  | .hbm, ⟨10, _⟩ => ⟨S8192x8192, .i32⟩
  | .hbm, ⟨11, _⟩ => ⟨S_, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8192x8192, .i1⟩
  | .hbm, ⟨16, _⟩ => ⟨S8192x8192, .i1⟩
  | .hbm, ⟨17, _⟩ => ⟨S8192x8192, .i1⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S_, .i1⟩
  | .hbm, ⟨24, _⟩ => ⟨S8192, .i1⟩
  | .hbm, ⟨25, _⟩ => ⟨S_, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S_, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192, .f32⟩
  | .hbm, ⟨35, _⟩ => ⟨S_, .i1⟩
  | .hbm, ⟨36, _⟩ => ⟨S8192, .i1⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_call0_v0 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_cst_2 : Ref sig .tc := ⟨.hbm, 25, rfl⟩
abbrev main_call1_v0 : Ref sig .tc := ⟨.hbm, 26, rfl⟩
abbrev main_call1_v1 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_call2_v0 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_cst_6 : Ref sig .tc := ⟨.hbm, 37, rfl⟩
abbrev main_call3_v0 : Ref sig .tc := ⟨.hbm, 38, rfl⟩
abbrev main_call3_v1 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KernelRun.lean ====
/-
  The kernel body at a grid point (i, j), run once per control case.

  The body keeps, per row of its block of 1024 rows, a running minimum and a running maximum in two scratch columns. At j = 0 it first
  resets the two columns to the top and the bottom element; at every j it folds in the row minimum, over the block's positives, and the
  row maximum, over its negatives, of the similarities of the i-th block of rows to the j-th block of rows; at j = 7 it also turns the
  two columns into the block's losses and stores them in the output block. Three cases meet the grid: the first column of points
  (reset, no output), the middle ones (neither), the last (output, no reset). Each run leaves the four input blocks as they were and
  each buffer it stores into with its stores written over what was there; the stores are the pieces the run finds.
-/
import proofs.«167502_j24584392802985_1_alg».proof.Proof.Gen.Kernel.Launch
import proofs.«167502_j24584392802985_1_alg».proof.Proof.Gen.Kernel.Skeleton
import proofs.«167502_j24584392802985_1_alg».proof.Proof.Gen.Kernel.Points
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- "j = 0": the reset is taken. -/
abbrev isFirst (i : grid0.Coords) : Prop := (Scalar.cmpi .ne (Scalar.extui (Scalar.cmpi .eq (BitVec.ofNat 32 (i 1).val) 0#32)) 0#32) = 1#1
/-- "j = 7": the losses are stored. -/
abbrev isLast (i : grid0.Coords) : Prop := k0_cond2 i = 1#1

set_option maxHeartbeats 2000000 in
/-- The first case (j = 0): the two running columns, at anything, are reset and then updated; the output block is not touched. -/
noncomputable def runFirst (c : Dev nD) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (hc0 : isFirst i) (hc1 : ¬isLast i)
    (x2 : Vec F S1024x128 .f32) (x3 : Vec F S1024x128 .f32) (x4 : Vec F S1024x1 .i32) (x5 : Vec F S1x1024 .i32) :
    Σ' (L7 : List (View.Piece (Elt F) S1024x1 .f32)), { L8 : List (View.Piece (Elt F) S1024x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5
            ∗ (∃ d, owns (c : Thread nD τ) arg7 fullShare d) ∗ (∃ d, owns (c : Thread nD τ) arg8 fullShare d)
            ∗ (iprop(owns (c : Thread nD τ) arg2 fullShare x2 ∗ owns (c : Thread nD τ) arg3 fullShare x3 ∗ owns (c : Thread nD τ) arg4 fullShare x4
            ∗ owns (c : Thread nD τ) arg5 fullShare x5
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)) -∗ K ⟨⟩))
          ⊢ wp frame (wpE (defs₀ (F := F)) Variants.none c none) E (cc0__margin_kernel i arg2 harg2 arg3 harg3 arg4 harg4 arg5 harg5 arg6 harg6 arg7 harg7 arg8 harg8) K } := by
  refine ⟨?_, ?_, fun E K => ?run⟩
  case run =>
    simp only [cc0__margin_kernel_eq_skeleton, k0_part1_eq_skeleton]; unfold cc0__margin_kernel_skel
    unfold owns
    iintro ⟨⟨%f2, %hf2, H2⟩, ⟨%f3, %hf3, H3⟩, ⟨%f4, %hf4, H4⟩, ⟨%f5, %hf5, H5⟩, ⟨%d7, %f7, -, H7⟩, ⟨%d8, %f8, -, H8⟩, Hk⟩
    obtain rfl := harg2.eq_unread hf2; obtain rfl := harg3.eq_unread hf3; obtain rfl := harg4.eq_unread hf4; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H7]; · iexists _; iexact H7
    iexists _; iexact H8

set_option maxHeartbeats 2000000 in
/-- A middle case (0 < j < 7): the two running columns, at what the point before left, are updated; the output block is not touched. -/
noncomputable def runMid (c : Dev nD) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (hc0 : ¬isFirst i) (hc1 : ¬isLast i)
    (x2 : Vec F S1024x128 .f32) (x3 : Vec F S1024x128 .f32) (x4 : Vec F S1024x1 .i32) (x5 : Vec F S1x1024 .i32) (s7 : Vec F S1024x1 .f32) (s8 : Vec F S1024x1 .f32) :
    Σ' (L7 : List (View.Piece (Elt F) S1024x1 .f32)), { L8 : List (View.Piece (Elt F) S1024x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5
            ∗ owns (c : Thread nD τ) arg7 fullShare s7 ∗ owns (c : Thread nD τ) arg8 fullShare s8
            ∗ (iprop(owns (c : Thread nD τ) arg2 fullShare x2 ∗ owns (c : Thread nD τ) arg3 fullShare x3 ∗ owns (c : Thread nD τ) arg4 fullShare x4
            ∗ owns (c : Thread nD τ) arg5 fullShare x5
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)) -∗ K ⟨⟩))
          ⊢ wp frame (wpE (defs₀ (F := F)) Variants.none c none) E (cc0__margin_kernel i arg2 harg2 arg3 harg3 arg4 harg4 arg5 harg5 arg6 harg6 arg7 harg7 arg8 harg8) K } := by
  refine ⟨?_, ?_, fun E K => ?run⟩
  case run =>
    simp only [cc0__margin_kernel_eq_skeleton, k0_part1_eq_skeleton]; unfold cc0__margin_kernel_skel
    unfold owns
    iintro ⟨⟨%f2, %hf2, H2⟩, ⟨%f3, %hf3, H3⟩, ⟨%f4, %hf4, H4⟩, ⟨%f5, %hf5, H5⟩, ⟨%f7, %hf7, H7⟩, ⟨%f8, %hf8, H8⟩, Hk⟩
    obtain rfl := harg2.eq_unread hf2; obtain rfl := harg3.eq_unread hf3; obtain rfl := harg4.eq_unread hf4; obtain rfl := harg5.eq_unread hf5
    obtain rfl := harg7.eq_unread hf7; obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H7]; · iexists _; iexact H7
    iexists _; iexact H8

set_option maxHeartbeats 2000000 in
/-- The last case (j = 7): the two running columns are updated and the losses computed from them are stored in the output block, which
    was at anything. -/
noncomputable def runLast (c : Dev nD) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (hc0 : ¬isFirst i) (hc1 : isLast i)
    (x2 : Vec F S1024x128 .f32) (x3 : Vec F S1024x128 .f32) (x4 : Vec F S1024x1 .i32) (x5 : Vec F S1x1024 .i32) (s7 : Vec F S1024x1 .f32) (s8 : Vec F S1024x1 .f32) :
    Σ' (L6 : List (View.Piece (Elt F) S1024x1 .f32)) (L7 : List (View.Piece (Elt F) S1024x1 .f32)), { L8 : List (View.Piece (Elt F) S1024x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ (∃ d, owns (c : Thread nD τ) arg6 fullShare d)
            ∗ owns (c : Thread nD τ) arg7 fullShare s7 ∗ owns (c : Thread nD τ) arg8 fullShare s8
            ∗ (iprop(owns (c : Thread nD τ) arg2 fullShare x2 ∗ owns (c : Thread nD τ) arg3 fullShare x3 ∗ owns (c : Thread nD τ) arg4 fullShare x4
            ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)) -∗ K ⟨⟩))
          ⊢ wp frame (wpE (defs₀ (F := F)) Variants.none c none) E (cc0__margin_kernel i arg2 harg2 arg3 harg3 arg4 harg4 arg5 harg5 arg6 harg6 arg7 harg7 arg8 harg8) K } := by
  refine ⟨?_, ?_, ?_, fun E K => ?run⟩
  case run =>
    simp only [cc0__margin_kernel_eq_skeleton, k0_part1_eq_skeleton]; unfold cc0__margin_kernel_skel
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf2; obtain rfl := harg3.eq_unread hf3; obtain rfl := harg4.eq_unread hf4; obtain rfl := harg5.eq_unread hf5
    obtain rfl := harg7.eq_unread hf7; obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; iexact H8

end Cert.Kernel.Hand

end
-- ==== Proof.KernelData.lean ====
/-
  The proof data of the one pallas_call and its body obligation.

  Point t = 8·i + j of the 8 × 8 grid works on the i-th block of 1024 rows against the j-th block of 1024 rows. Windows 0 and 2 hold the
  i-th blocks of the table and of the labels (as a column), windows 1 and 3 the j-th blocks of the table and of the labels (as a row),
  window 4 the i-th block of the result. What the two running columns hold after each point is defined by recursion on the point: the
  first point of a row of the grid resets and updates them, every later point updates what the point before left; the last point of a
  row of the grid also stores the block of losses computed from them. The invariant between points names the two columns' contents.
  The table is handed to the kernel twice; each of its two windows holds one half of the array's share.
-/
import proofs.«167502_j24584392802985_1_alg».proof.Proof.KernelRun
import Idealize.ShloMosaic.Lib.Pipeline.FrameSuffix
import Idealize.ShloMosaic.Lib.Ring

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two conditions over the grid, and where the result's window is idle -/

/-- The reset is taken at the first point of each row of the grid. -/
theorem hFirst : ∀ t : Fin cfg0.N, isFirst (grid0.coords t) ↔ t.val % 8 = 0 :=
  (by decide +kernel : ∀ t : Fin grid0.N, isFirst (grid0.coords t) ↔ t.val % 8 = 0)
/-- The losses are stored at the last point of each row of the grid. -/
theorem hLast : ∀ t : Fin cfg0.N, isLast (grid0.coords t) ↔ t.val % 8 = 7 :=
  (by decide +kernel : ∀ t : Fin grid0.N, isLast (grid0.coords t) ↔ t.val % 8 = 7)

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Away from the last point of a row of the grid nothing is stored into the result's window, and its block is not written back. -/
theorem idleAt4 : ∀ t : Fin cfg0.N, ¬isLast (grid0.coords t) → cfg0.idle 4 (grid0.coords t) = true := by decide +kernel
theorem noFlush4 : ∀ t : Fin cfg0.N, ¬isLast (grid0.coords t) → (cfg0.win 4).flush t = false := by decide +kernel
theorem liveAt4 : ∀ t : Fin cfg0.N, isLast (grid0.coords t) → cfg0.idle 4 (grid0.coords t) = false := by decide +kernel

/-! ## The memrefs the body is called with -/

abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
/-- The two running columns: whole scoped buffers of the kernel's own. -/
abbrev sc7 : Memref sig .tc .vmem S1024x1 .f32 := Memref.whole cc0_scratch0
abbrev sc8 : Memref sig .tc .vmem S1024x1 .f32 := Memref.whole cc0_scratch1
/-- Views through which contents are stated. -/
abbrev VO4 : View sig .tc .vmem S1024x1 .f32 := (Memref.whole cc0_stg4_0 : Memref sig .tc .vmem S1024x1 .f32).view
abbrev VS7 : View sig .tc .vmem S1024x1 .f32 := sc7.view
abbrev VS8 : View sig .tc .vmem S1024x1 .f32 := sc8.view

/-- The scoped buffers no window stages are the two running columns, each at anything. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) sc7 fullShare d) ∗ (∃ d, owns (c : Thread nD τ) sc8 fullShare d)) := by
  rw [scopedRest0_eq]; simp only [sc7, sc8, owns_whole]; try rfl

/-! ## What each case leaves -/

/-- The first case at point `t`. -/
abbrev firstAt (c : Dev nD) (t : Fin cfg0.N) (h0 : isFirst (grid0.coords t)) (h1 : ¬isLast (grid0.coords t)) :=
  runFirst (F := F) c (grid0.coords t) (ms0 t) (hs0 t) (ms1 t) (hs1 t) (ms2 t) (hs2 t) (ms3 t) (hs3 t) (ms4 t) (hs4 t) sc7 (Memref.isWhole_whole _) sc8 (Memref.isWhole_whole _) h0 h1 (iblk V c 0 t) (iblk V c 1 t) (iblk V c 2 t) (iblk V c 3 t)
/-- A middle case at point `t`, over the columns' contents `s7`, `s8`. -/
abbrev midAt (c : Dev nD) (t : Fin cfg0.N) (h0 : ¬isFirst (grid0.coords t)) (h1 : ¬isLast (grid0.coords t)) (s7 s8 : Vec F S1024x1 .f32) :=
  runMid (F := F) c (grid0.coords t) (ms0 t) (hs0 t) (ms1 t) (hs1 t) (ms2 t) (hs2 t) (ms3 t) (hs3 t) (ms4 t) (hs4 t) sc7 (Memref.isWhole_whole _) sc8 (Memref.isWhole_whole _) h0 h1 (iblk V c 0 t) (iblk V c 1 t) (iblk V c 2 t) (iblk V c 3 t) s7 s8
/-- The last case at point `t`, over the columns' contents `s7`, `s8`. -/
abbrev lastAt (c : Dev nD) (t : Fin cfg0.N) (h0 : ¬isFirst (grid0.coords t)) (h1 : isLast (grid0.coords t)) (s7 s8 : Vec F S1024x1 .f32) :=
  runLast (F := F) c (grid0.coords t) (ms0 t) (hs0 t) (ms1 t) (hs1 t) (ms2 t) (hs2 t) (ms3 t) (hs3 t) (ms4 t) (hs4 t) sc7 (Memref.isWhole_whole _) sc8 (Memref.isWhole_whole _) h0 h1 (iblk V c 0 t) (iblk V c 1 t) (iblk V c 2 t) (iblk V c 3 t) s7 s8

/-- Each case's stores into a column, and the last case's into the result's block, tile the buffer. -/
theorem cov7First (c : Dev nD) (t : Fin cfg0.N) (h0) (h1) (y : S1024x1.Idx) : ∃ pc ∈ (firstAt V c t h0 h1).1, y ∈ pc.1.set :=
  View.cover_of_tiledL (firstAt V c t h0 h1).1 S1024x1.size (by sl_kernel_rfl) y
theorem cov8First (c : Dev nD) (t : Fin cfg0.N) (h0) (h1) (y : S1024x1.Idx) : ∃ pc ∈ (firstAt V c t h0 h1).2.1, y ∈ pc.1.set :=
  View.cover_of_tiledL (firstAt V c t h0 h1).2.1 S1024x1.size (by sl_kernel_rfl) y
theorem cov7Mid (c : Dev nD) (t : Fin cfg0.N) (h0) (h1) (s7 s8) (y : S1024x1.Idx) : ∃ pc ∈ (midAt V c t h0 h1 s7 s8).1, y ∈ pc.1.set :=
  View.cover_of_tiledL (midAt V c t h0 h1 s7 s8).1 S1024x1.size (by sl_kernel_rfl) y
theorem cov8Mid (c : Dev nD) (t : Fin cfg0.N) (h0) (h1) (s7 s8) (y : S1024x1.Idx) : ∃ pc ∈ (midAt V c t h0 h1 s7 s8).2.1, y ∈ pc.1.set :=
  View.cover_of_tiledL (midAt V c t h0 h1 s7 s8).2.1 S1024x1.size (by sl_kernel_rfl) y
theorem cov6Last (c : Dev nD) (t : Fin cfg0.N) (h0) (h1) (s7 s8) (y : S1024x1.Idx) : ∃ pc ∈ (lastAt V c t h0 h1 s7 s8).1, y ∈ pc.1.set :=
  View.cover_of_tiledL (lastAt V c t h0 h1 s7 s8).1 S1024x1.size (by sl_kernel_rfl) y
theorem cov7Last (c : Dev nD) (t : Fin cfg0.N) (h0) (h1) (s7 s8) (y : S1024x1.Idx) : ∃ pc ∈ (lastAt V c t h0 h1 s7 s8).2.1, y ∈ pc.1.set :=
  View.cover_of_tiledL (lastAt V c t h0 h1 s7 s8).2.1 S1024x1.size (by sl_kernel_rfl) y
theorem cov8Last (c : Dev nD) (t : Fin cfg0.N) (h0) (h1) (s7 s8) (y : S1024x1.Idx) : ∃ pc ∈ (lastAt V c t h0 h1 s7 s8).2.2.1, y ∈ pc.1.set :=
  View.cover_of_tiledL (lastAt V c t h0 h1 s7 s8).2.2.1 S1024x1.size (by sl_kernel_rfl) y

/-- What a case leaves in a buffer: its pieces read back. -/
def s7First (c : Dev nD) (t : Fin cfg0.N) (h0 : isFirst (grid0.coords t)) (h1 : ¬isLast (grid0.coords t)) : Vec F S1024x1 .f32 := VS7.read (Elt F) (VS7.writes (Elt F) VS7.junk (firstAt V c t h0 h1).1)
def s8First (c : Dev nD) (t : Fin cfg0.N) (h0 : isFirst (grid0.coords t)) (h1 : ¬isLast (grid0.coords t)) : Vec F S1024x1 .f32 := VS8.read (Elt F) (VS8.writes (Elt F) VS8.junk (firstAt V c t h0 h1).2.1)
def s7Mid (c : Dev nD) (t : Fin cfg0.N) (h0 : ¬isFirst (grid0.coords t)) (h1 : ¬isLast (grid0.coords t)) (s7 s8 : Vec F S1024x1 .f32) : Vec F S1024x1 .f32 := VS7.read (Elt F) (VS7.writes (Elt F) VS7.junk (midAt V c t h0 h1 s7 s8).1)
def s8Mid (c : Dev nD) (t : Fin cfg0.N) (h0 : ¬isFirst (grid0.coords t)) (h1 : ¬isLast (grid0.coords t)) (s7 s8 : Vec F S1024x1 .f32) : Vec F S1024x1 .f32 := VS8.read (Elt F) (VS8.writes (Elt F) VS8.junk (midAt V c t h0 h1 s7 s8).2.1)
def o6Last (c : Dev nD) (t : Fin cfg0.N) (h0 : ¬isFirst (grid0.coords t)) (h1 : isLast (grid0.coords t)) (s7 s8 : Vec F S1024x1 .f32) : Vec F S1024x1 .f32 := VO4.read (Elt F) (VO4.writes (Elt F) VO4.junk (lastAt V c t h0 h1 s7 s8).1)
def s7Last (c : Dev nD) (t : Fin cfg0.N) (h0 : ¬isFirst (grid0.coords t)) (h1 : isLast (grid0.coords t)) (s7 s8 : Vec F S1024x1 .f32) : Vec F S1024x1 .f32 := VS7.read (Elt F) (VS7.writes (Elt F) VS7.junk (lastAt V c t h0 h1 s7 s8).2.1)
def s8Last (c : Dev nD) (t : Fin cfg0.N) (h0 : ¬isFirst (grid0.coords t)) (h1 : isLast (grid0.coords t)) (s7 s8 : Vec F S1024x1 .f32) : Vec F S1024x1 .f32 := VS8.read (Elt F) (VS8.writes (Elt F) VS8.junk (lastAt V c t h0 h1 s7 s8).2.2.1)
/-- A placeholder for the result's window where nothing is stored into it (nothing consults it there). -/
def o6None : Vec F S1024x1 .f32 := VO4.read (Elt F) VO4.junk

/-! ## The accumulation over the points -/

/-- What the result's window and the two running columns hold after the body at position `n`. -/
def accAt (c : Dev nD) : (n : ℕ) → n < cfg0.N → Vec F S1024x1 .f32 × Vec F S1024x1 .f32 × Vec F S1024x1 .f32
  | 0, hn => (o6None, s7First V c ⟨0, hn⟩ ((hFirst ⟨0, hn⟩).mpr (Nat.zero_mod _)) (fun h => by have := (hLast ⟨0, hn⟩).mp h; (try dsimp only at this); omega),
      s8First V c ⟨0, hn⟩ ((hFirst ⟨0, hn⟩).mpr (Nat.zero_mod _)) (fun h => by have := (hLast ⟨0, hn⟩).mp h; (try dsimp only at this); omega))
  | n + 1, hn =>
    if h0 : (n + 1) % 8 = 0 then
      if h1 : (n + 1) % 8 = 7 then False.elim (by omega)
      else (o6None, s7First V c ⟨n + 1, hn⟩ ((hFirst ⟨n + 1, hn⟩).mpr h0) (fun h => h1 ((hLast ⟨n + 1, hn⟩).mp h)),
        s8First V c ⟨n + 1, hn⟩ ((hFirst ⟨n + 1, hn⟩).mpr h0) (fun h => h1 ((hLast ⟨n + 1, hn⟩).mp h)))
    else
      if h1 : (n + 1) % 8 = 7 then
        (o6Last V c ⟨n + 1, hn⟩ (fun h => h0 ((hFirst ⟨n + 1, hn⟩).mp h)) ((hLast ⟨n + 1, hn⟩).mpr h1) (accAt c n (Nat.lt_of_succ_lt hn)).2.1 (accAt c n (Nat.lt_of_succ_lt hn)).2.2,
         s7Last V c ⟨n + 1, hn⟩ (fun h => h0 ((hFirst ⟨n + 1, hn⟩).mp h)) ((hLast ⟨n + 1, hn⟩).mpr h1) (accAt c n (Nat.lt_of_succ_lt hn)).2.1 (accAt c n (Nat.lt_of_succ_lt hn)).2.2,
         s8Last V c ⟨n + 1, hn⟩ (fun h => h0 ((hFirst ⟨n + 1, hn⟩).mp h)) ((hLast ⟨n + 1, hn⟩).mpr h1) (accAt c n (Nat.lt_of_succ_lt hn)).2.1 (accAt c n (Nat.lt_of_succ_lt hn)).2.2)
      else
        (o6None,
         s7Mid V c ⟨n + 1, hn⟩ (fun h => h0 ((hFirst ⟨n + 1, hn⟩).mp h)) (fun h => h1 ((hLast ⟨n + 1, hn⟩).mp h)) (accAt c n (Nat.lt_of_succ_lt hn)).2.1 (accAt c n (Nat.lt_of_succ_lt hn)).2.2,
         s8Mid V c ⟨n + 1, hn⟩ (fun h => h0 ((hFirst ⟨n + 1, hn⟩).mp h)) (fun h => h1 ((hLast ⟨n + 1, hn⟩).mp h)) (accAt c n (Nat.lt_of_succ_lt hn)).2.1 (accAt c n (Nat.lt_of_succ_lt hn)).2.2)

/-- The columns before point `t`, for a point that is not the first of all. -/
abbrev prev7 (c : Dev nD) (t : Fin cfg0.N) : Vec F S1024x1 .f32 := (accAt V c (t.val - 1) (Nat.lt_of_le_of_lt (Nat.sub_le _ _) t.isLt)).2.1
abbrev prev8 (c : Dev nD) (t : Fin cfg0.N) : Vec F S1024x1 .f32 := (accAt V c (t.val - 1) (Nat.lt_of_le_of_lt (Nat.sub_le _ _) t.isLt)).2.2

theorem accAt_first (c : Dev nD) (t : Fin cfg0.N) (h0 : t.val % 8 = 0) (h1 : ¬t.val % 8 = 7) :
    accAt V c t.val t.isLt = (o6None, s7First V c t ((hFirst t).mpr h0) (fun h => h1 ((hLast t).mp h)), s8First V c t ((hFirst t).mpr h0) (fun h => h1 ((hLast t).mp h))) := by
  obtain ⟨n, hn⟩ := t
  cases n with
  | zero => exact rfl
  | succ n => exact (dif_pos h0).trans ((dif_neg h1).trans rfl)

theorem accAt_mid (c : Dev nD) (t : Fin cfg0.N) (h0 : ¬t.val % 8 = 0) (h1 : ¬t.val % 8 = 7) :
    accAt V c t.val t.isLt = (o6None,
      s7Mid V c t (fun h => h0 ((hFirst t).mp h)) (fun h => h1 ((hLast t).mp h)) (prev7 V c t) (prev8 V c t),
      s8Mid V c t (fun h => h0 ((hFirst t).mp h)) (fun h => h1 ((hLast t).mp h)) (prev7 V c t) (prev8 V c t)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 8 = 0) (h1 : t.val % 8 = 7) :
    accAt V c t.val t.isLt = (o6Last V c t (fun h => h0 ((hFirst t).mp h)) ((hLast t).mpr h1) (prev7 V c t) (prev8 V c t),
      s7Last V c t (fun h => h0 ((hFirst t).mp h)) ((hLast t).mpr h1) (prev7 V c t) (prev8 V c t),
      s8Last V c t (fun h => h0 ((hFirst t).mp h)) ((hLast t).mpr h1) (prev7 V c t) (prev8 V c t)) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the two columns at anything; afterwards each at what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) sc7 fullShare ((accAt V c n hn).2.1) ∗ owns (c : Thread nD τ) sc8 fullShare ((accAt V c n hn).2.2))

theorem PhiS_zero (c : Dev nD) (n : ℕ) (h : n ≤ cfg0.N) (hz : n = 0) :
    PhiS V c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS V c (n + 1) hn = iprop(owns (c : Thread nD τ) sc7 fullShare ((accAt V c n hn).2.1) ∗ owns (c : Thread nD τ) sc8 fullShare ((accAt V c n hn).2.2)) := rfl
theorem PhiS_pos (c : Dev nD) (n : ℕ) (h : n ≤ cfg0.N) (hz : n ≠ 0) :
    PhiS V c n h = iprop(owns (c : Thread nD τ) sc7 fullShare ((accAt V c (n - 1) (by omega)).2.1) ∗ owns (c : Thread nD τ) sc8 fullShare ((accAt V c (n - 1) (by omega)).2.2)) := by
  cases n with
  | zero => exact absurd rfl hz
  | succ n => rfl

/-! ## The proof data -/

/-- The proof data on core `c`: the arrays as the region finds them; after the body each input's buffer at its block and the result's
    at what the accumulation says; the invariant naming the two columns; nothing owed; the table's two windows each at one half of
    its array's share, every other window at the full share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (accAt V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat V c).A w = V c (Pipeline.arrRef spec0 w) := by dsimp only [dat]
theorem PhiS_castSucc (c : Dev nD) (t : Fin cfg0.N) : (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = (accAt V c t.val t.isLt).1 := by dsimp only [dat]
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t)

theorem leaves_in (c : Dev nD) (t : Fin cfg0.N) :
    (dat V c).leavesExact 0 t = owns (c : Thread nD τ) (ms0 t) fullShare (iblk V c 0 t)
    ∧ (dat V c).leavesExact 1 t = owns (c : Thread nD τ) (ms1 t) fullShare (iblk V c 1 t)
    ∧ (dat V c).leavesExact 2 t = owns (c : Thread nD τ) (ms2 t) fullShare (iblk V c 2 t)
    ∧ (dat V c).leavesExact 3 t = owns (c : Thread nD τ) (ms3 t) fullShare (iblk V c 3 t) := by
  refine ⟨?_, ?_, ?_, ?_⟩
  · unfold Dat.leavesExact; rw [liveAt0 t, after0]
  · unfold Dat.leavesExact; rw [liveAt1 t, after1]
  · unfold Dat.leavesExact; rw [liveAt2 t, after2]
  · unfold Dat.leavesExact; rw [liveAt3 t, after3]

set_option maxHeartbeats 4800000 in
/-- The body at any point: the inputs' memrefs hold their blocks; the closed forms say which case the point is in; the invariant hands
    the body the two columns at what the point before left (at anything at the very first point) and takes them back at this point's
    contents; away from the last point of a row of the grid the result's window passes through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl]
  rw [show (dat V c).Φ t.succ = PhiS V c (t.val + 1) t.isLt from rfl, PhiS_succ]
  rw [(leaves_in V c t).1, (leaves_in V c t).2.1, (leaves_in V c t).2.2.1, (leaves_in V c t).2.2.2]
  have hN : t.val < 64 := lt_of_lt_of_eq t.isLt (show cfg0.N = 64 from N_0)
  by_cases h0 : t.val % 8 = 0
  · have h1 : ¬t.val % 8 = 7 := by omega
    rw [Dat.leavesExact_idle (dat V c) 4 t (idleAt4 t (fun h => h1 ((hLast t).mp h))) (noFlush4 t (fun h => h1 ((hLast t).mp h)))]
    rw [accAt_first V c t h0 h1]
    unfold s7First s8First; (try dsimp only)
    have hstart : PhiS V c t.val (Nat.le_of_lt t.isLt) ⊢ iprop((∃ d, owns (c : Thread nD τ) sc7 fullShare d) ∗ (∃ d, owns (c : Thread nD τ) sc8 fullShare d)) := by
      by_cases hz : t.val = 0
      · rw [PhiS_zero V c _ _ hz, scoped_eq]
      · rw [PhiS_pos V c _ _ hz]
        iintro ⟨H7, H8⟩
        isplitl [H7]; · iexists _; iexact H7
        iexists _; iexact H8
    rw [PhiS_castSucc V c t]
    iintro ⟨HS, Ho, ⟨%d0, H0⟩, ⟨%d1, H1⟩, ⟨%d2, H2⟩, ⟨%d3, H3⟩, ⟨%d4, H4⟩⟩
    ihave HS' := hstart $$ HS
    icases HS' with ⟨H7, H8⟩
    iapply ((firstAt V c t ((hFirst t).mpr h0) (fun h => h1 ((hLast t).mp h))).2.2 Set.univ _)
    isplitl [H0]; · iexact H0
    isplitl [H1]; · iexact H1
    isplitl [H2]; · iexact H2
    isplitl [H3]; · iexact H3
    isplitl [H7]; · iexact H7
    isplitl [H8]; · iexact H8
    iintro ⟨H0, H1, H2, H3, ⟨%e7, H7⟩, ⟨%e8, H8⟩⟩
    isplitl [H7 H8]
    · isplitl [H7]
      · unfold owns; iexists _; isplitr
        swap; · iexact H7
        ipureintro; exact View.read_writes_of_cover _ _ _ _ _ (cov7First V c t _ _)
      · unfold owns; iexists _; isplitr
        swap; · iexact H8
        ipureintro; exact View.read_writes_of_cover _ _ _ _ _ (cov8First V c t _ _)
    isplitl [Ho]; · iexact Ho
    isplitl [H0]; · iexact H0
    isplitl [H1]; · iexact H1
    isplitl [H2]; · iexact H2
    isplitl [H3]; · iexact H3
    iexists _; iexact H4
  · have hz : t.val ≠ 0 := by omega
    by_cases h1 : t.val % 8 = 7
    · rw [show (dat V c).leavesExact 4 t = owns (c : Thread nD τ) (ms4 t) fullShare ((dat V c).after 4 t) from by
        unfold Dat.leavesExact; rw [liveAt4 t ((hLast t).mpr h1)], after4]
      rw [accAt_last V c t h0 h1]
      unfold o6Last s7Last s8Last; (try dsimp only)
      rw [PhiS_castSucc V c t, PhiS_pos V c _ _ hz]
      iintro ⟨⟨H7, H8⟩, Ho, ⟨%d0, H0⟩, ⟨%d1, H1⟩, ⟨%d2, H2⟩, ⟨%d3, H3⟩, ⟨%d4, H4⟩⟩
      iapply ((lastAt V c t (fun h => h0 ((hFirst t).mp h)) ((hLast t).mpr h1) _ _).2.2.2 Set.univ _)
      isplitl [H0]; · iexact H0
      isplitl [H1]; · iexact H1
      isplitl [H2]; · iexact H2
      isplitl [H3]; · iexact H3
      isplitl [H4]; · iexists _; iexact H4
      isplitl [H7]; · iexact H7
      isplitl [H8]; · iexact H8
      iintro ⟨H0, H1, H2, H3, ⟨%e6, H6⟩, ⟨%e7, H7⟩, ⟨%e8, H8⟩⟩
      isplitl [H7 H8]
      · isplitl [H7]
        · unfold owns; iexists _; isplitr
          swap; · iexact H7
          ipureintro; exact View.read_writes_of_cover _ _ _ _ _ (cov7Last V c t _ _ _ _)
        · unfold owns; iexists _; isplitr
          swap; · iexact H8
          ipureintro; exact View.read_writes_of_cover _ _ _ _ _ (cov8Last V c t _ _ _ _)
      isplitl [Ho]; · iexact Ho
      isplitl [H0]; · iexact H0
      isplitl [H1]; · iexact H1
      isplitl [H2]; · iexact H2
      isplitl [H3]; · iexact H3
      unfold owns; iexists _; isplitr
      swap; · iexact H6
      ipureintro; exact View.read_writes_of_cover _ _ _ _ _ (cov6Last V c t _ _ _ _)
    · rw [Dat.leavesExact_idle (dat V c) 4 t (idleAt4 t (fun h => h1 ((hLast t).mp h))) (noFlush4 t (fun h => h1 ((hLast t).mp h)))]
      rw [accAt_mid V c t h0 h1]
      unfold s7Mid s8Mid; (try dsimp only)
      rw [PhiS_castSucc V c t, PhiS_pos V c _ _ hz]
      iintro ⟨⟨H7, H8⟩, Ho, ⟨%d0, H0⟩, ⟨%d1, H1⟩, ⟨%d2, H2⟩, ⟨%d3, H3⟩, ⟨%d4, H4⟩⟩
      iapply ((midAt V c t (fun h => h0 ((hFirst t).mp h)) (fun h => h1 ((hLast t).mp h)) _ _).2.2 Set.univ _)
      isplitl [H0]; · iexact H0
      isplitl [H1]; · iexact H1
      isplitl [H2]; · iexact H2
      isplitl [H3]; · iexact H3
      isplitl [H7]; · iexact H7
      isplitl [H8]; · iexact H8
      iintro ⟨H0, H1, H2, H3, ⟨%e7, H7⟩, ⟨%e8, H8⟩⟩
      isplitl [H7 H8]
      · isplitl [H7]
        · unfold owns; iexists _; isplitr
          swap; · iexact H7
          ipureintro; exact View.read_writes_of_cover _ _ _ _ _ (cov7Mid V c t _ _ _ _)
        · unfold owns; iexists _; isplitr
          swap; · iexact H8
          ipureintro; exact View.read_writes_of_cover _ _ _ _ _ (cov8Mid V c t _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

end Region

end Cert.Kernel.Hand

end
-- ==== Proof.KernelFrame.lean ====
/-
  The launch: @main is two reshapes of the labels, the pallas_call, and five host operations (a reshape of the kernel's result, a
  constant, the sum of the 8192 losses, a constant, the division by 8192). Its run is stated over the contents of every unscoped buffer
  at each of the four boundaries: at launch, when the region is entered, when it is left — the kernel's result array then holding what
  its write-backs leave, every other buffer as entered —, and at the end.

  The table is handed to the kernel twice. When the region is entered its buffer, held whole, is split into two halves of its share, one
  per window; when the region is left the two halves — both at the contents the region found, the windows being inputs — are joined again.
-/
import proofs.«167502_j24584392802985_1_alg».proof.Proof.KernelData
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Shares
variable (V : (c : Dev nD) → (b : Ref sig .tc) → Buf (Elt F) ((c : Thread nD τ).loc b))

theorem share0 (c : Dev nD) : (dat V c).share 0 = fullShare.left := by unfold Dat.share; rfl
theorem share1 (c : Dev nD) : (dat V c).share 1 = fullShare.right := by unfold Dat.share; rfl
theorem share2 (c : Dev nD) : (dat V c).share 2 = fullShare := by unfold Dat.share; rfl
theorem share3 (c : Dev nD) : (dat V c).share 3 = fullShare := by unfold Dat.share; rfl
theorem share4 (c : Dev nD) : (dat V c).share 4 = fullShare := by unfold Dat.share; rfl

/-- The windows' arrays, each whole at its window's share. -/
theorem arrays_sh (c : Dev nD) (G : (w : Fin cfg0.W) → Buf (Elt F) ((cfg0.win w).arr.view.loc (c : Thread nD τ))) :
    (dat V c).arrays G = bigSep Finset.univ fun w => (((c : Thread nD τ).loc (Pipeline.arrRef spec0 w)) ↦{(dat V c).share w} G w : sProp 𝕄) := by
  unfold Dat.arrays
  exact bigSep_congr fun w _ => by rw [(arr_whole0 w).set_eq_univ]

/-- ENTRY: the four buffers behind the five windows' arrays, each held whole at the region's entry contents, are the proof data's
    arrays: the table's buffer split into the halves of its share. -/
theorem arr_split (c : Dev nD) :
    (Pipeline.arrBufs (Ix := Unit) (Name := ℕ) (U := UR sig nD τ) (Lvl := ℕ) spec0 c (V c) : sProp 𝕄) ⊢ (dat V c).arrays ((dat V c).arrAt · 0) := by
  rw [arrays_sh, bigSep_W0, share0, share1, share2, share3, share4]
  unfold Pipeline.arrBufs
  rw [bigSep_eq_bigSepL_of_eq [main_arg0, main_v0, main_v1, main_v2] (by decide) (by decide)]
  show iprop((((c : Thread nD τ).loc main_arg0) ↦{fullShare} V c main_arg0) ∗ (((c : Thread nD τ).loc main_v0) ↦{fullShare} V c main_v0)
    ∗ (((c : Thread nD τ).loc main_v1) ↦{fullShare} V c main_v1) ∗ (((c : Thread nD τ).loc main_v2) ↦{fullShare} V c main_v2)) ⊢ _
  iintro ⟨H0, Hv0, Hv1, Hv2⟩
  ihave H := (pointsTo_share (PosShare.mem_left_op_right fullShare)).1 $$ H0
  icases H with ⟨Hl, Hr⟩
  isplitl [Hl]; · iexact Hl
  isplitl [Hr]; · iexact Hr
  isplitl [Hv0]; · iexact Hv0
  isplitl [Hv1]; · iexact Hv1
  iexact Hv2

/-- EXIT: the proof data's arrays at their final contents are the four buffers held whole at any contents `V'` that has the kernel's
    result array at what the write-backs leave and the three input arrays as the region found them. -/
theorem arr_join (c : Dev nD) (V' : (b : Ref sig .tc) → Buf (Elt F) ((c : Thread nD τ).loc b))
    (h0 : V' main_arg0 = V c main_arg0) (h1 : V' main_v0 = V c main_v0) (h2 : V' main_v1 = V c main_v1)
    (h4 : V' main_v2 = (dat V c).arrAt 4 cfg0.N) :
    (dat V c).arrays ((dat V c).arrAt · cfg0.N) ⊢ (Pipeline.arrBufs (Ix := Unit) (Name := ℕ) (U := UR sig nD τ) (Lvl := ℕ) spec0 c V' : sProp 𝕄) := by
  rw [arrays_sh, bigSep_W0, share0, share1, share2, share3, share4]
  rw [(dat V c).arrAt_in 0 rfl cfg0.N, (dat V c).arrAt_in 1 rfl cfg0.N, (dat V c).arrAt_in 2 rfl cfg0.N, (dat V c).arrAt_in 3 rfl cfg0.N]
  unfold Pipeline.arrBufs
  rw [bigSep_eq_bigSepL_of_eq [main_arg0, main_v0, main_v1, main_v2] (by decide) (by decide)]
  show _ ⊢ iprop((((c : Thread nD τ).loc main_arg0) ↦{fullShare} V' main_arg0) ∗ (((c : Thread nD τ).loc main_v0) ↦{fullShare} V' main_v0)
    ∗ (((c : Thread nD τ).loc main_v1) ↦{fullShare} V' main_v1) ∗ (((c : Thread nD τ).loc main_v2) ↦{fullShare} V' main_v2))
  rw [h0, h1, h2, h4]
  iintro ⟨Hl, Hr, Hv0, Hv1, Hv2⟩
  isplitl [Hl Hr]
  · iapply (pointsTo_share (PosShare.mem_left_op_right fullShare)).2
    isplitl [Hl]; · iexact Hl
    iexact Hr
  isplitl [Hv0]; · iexact Hv0
  isplitl [Hv1]; · iexact Hv1
  iexact Hv2

end Shares

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two reshapes of the labels: the region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the kernel's result array at what its write-backs leave, every other buffer as entered. -/
def W2 (c : Dev nD) : Valuation τ sig (Elt F) :=
  Function.update (W1 m ρ c) (Proc.devRef .tc main_v2) ((dat (V1 m ρ) c).arrAt 4 cfg0.N)
abbrev V2 : (c : Dev nD) → (b : Ref sig .tc) → Buf (Elt F) ((c : Thread nD τ).loc b) := fun c b => W2 m ρ c b
theorem W2_v2 (c : Dev nD) : W2 m ρ c (Proc.devRef .tc main_v2) = (dat (V1 m ρ) c).arrAt 4 cfg0.N := by
  unfold W2; exact Function.update_self ..
theorem W2_of_ne (c : Dev nD) (b : Ref sig .tc) (hb : b ≠ main_v2) : W2 m ρ c (Proc.devRef .tc b) = W1 m ρ c (Proc.devRef .tc b) := by
  unfold W2; exact Function.update_of_ne (StableHlo.devRef_ne_of_ne hb) ..
/-- After the five host operations: the end. -/
abbrev W3 : Dev nD → Valuation τ sig (Elt F) := fun c => StableHlo.after hostOps1 (W2 m ρ c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- No host operation and no write-back touches an argument: each ends as launched. -/
theorem W3_arg (c : Dev nD) (b : Ref sig .tc) (hb : b = main_arg0 ∨ b = main_arg1) :
    W3 m ρ c (Proc.devRef .tc b) = m ((c : Thread nD τ).loc b) := by
  have hne : b ≠ main_v2 := by rcases hb with rfl | rfl <;> decide
  calc W3 m ρ c (Proc.devRef .tc b)
    _ = W2 m ρ c (Proc.devRef .tc b) := StableHlo.after_of_forall_not_mem (b := Proc.devRef .tc b) _ _ (List.forall_iff_forall_mem.mp (by
          simp only [hostOps1, List.Forall, StableHlo.nullary_writes, StableHlo.unary_writes, StableHlo.binary_writes, StableHlo.reshape_writes, Finset.mem_singleton]
          rcases hb with rfl | rfl <;> (repeat' apply And.intro) <;> exact StableHlo.devRef_ne_of_ne (by decide)))
    _ = W1 m ρ c (Proc.devRef .tc b) := W2_of_ne m ρ c b hne
    _ = W0 m ρ c (Proc.devRef .tc b) := StableHlo.after_of_forall_not_mem (b := Proc.devRef .tc b) _ _ (List.forall_iff_forall_mem.mp (by
          simp only [hostOps0, List.Forall, StableHlo.nullary_writes, StableHlo.unary_writes, StableHlo.binary_writes, StableHlo.reshape_writes, Finset.mem_singleton]
          rcases hb with rfl | rfl <;> (repeat' apply And.intro) <;> exact StableHlo.devRef_ne_of_ne (by decide)))
    _ = m ((c : Thread nD τ).loc b) := rfl

/-! ## The proof data family, the thread state, the segments -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers: the core owes nothing. -/
abbrev R (c : Dev nD) : sProp 𝕄 := iprop(∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := StableHlo.held (c : Thread nD τ) (Pipeline.ucRefs τ sig) (W3 m ρ c)

/-- The unscoped buffers that are no window's array are at the same contents when the region is left as when it was entered. -/
theorem rest_eq (c : Dev nD) :
    (Pipeline.unscopedRest (Ix := Unit) (Name := ℕ) (U := UR sig nD τ) (Lvl := ℕ) spec0 c (V1 m ρ c) : sProp 𝕄)
      = Pipeline.unscopedRest (Ix := Unit) (Name := ℕ) (U := UR sig nD τ) (Lvl := ℕ) spec0 c (V2 m ρ c) := by
  unfold Pipeline.unscopedRest
  refine bigSep_congr fun b hb => ?_
  have hb' : b ≠ main_v2 := fun e => (Finset.mem_sdiff.mp hb).2 (Finset.mem_image.mpr ⟨4, Finset.mem_univ _, e ▸ rfl⟩)
  rw [show V2 m ρ c b = V1 m ρ c b from W2_of_ne m ρ c b hb']

theorem V2_arg0 (c : Dev nD) : V2 m ρ c main_arg0 = V1 m ρ c main_arg0 := W2_of_ne m ρ c main_arg0 (by decide)
theorem V2_v0 (c : Dev nD) : V2 m ρ c main_v0 = V1 m ρ c main_v0 := W2_of_ne m ρ c main_v0 (by decide)
theorem V2_v1 (c : Dev nD) : V2 m ρ c main_v1 = V1 m ρ c main_v1 := W2_of_ne m ρ c main_v1 (by decide)
theorem V2_v2 (c : Dev nD) : V2 m ρ c main_v2 = (dat (V1 m ρ) c).arrAt 4 cfg0.N := W2_v2 m ρ c

/-- ENTRY: every unscoped buffer at the entry contents is the proof data's arrays at their entry contents and the other buffers. -/
theorem entry_split (c : Dev nD) :
    (StableHlo.held (c : Thread nD τ) (Pipeline.ucRefs τ sig) (W1 m ρ c) : sProp 𝕄)
      ⊢ iprop((dat (V1 m ρ) c).arrays ((dat (V1 m ρ) c).arrAt · 0) ∗ Pipeline.unscopedRest (Ix := Unit) (Name := ℕ) (U := UR sig nD τ) (Lvl := ℕ) spec0 c (V1 m ρ c)) := by
  rw [← Pipeline.unscopedBufs_held c (W1 m ρ c)]
  rw [show (unscopedBufs c (fun b => W1 m ρ c b) : sProp 𝕄) = iprop(Pipeline.arrBufs spec0 c (V1 m ρ c) ∗ Pipeline.unscopedRest spec0 c (V1 m ρ c))
    from Pipeline.unscopedBufs_split₀ cfgs 0 winFacts₀0.arr_unscoped c (V1 m ρ c)]
  exact sep_mono (arr_split (V1 m ρ) c) .rfl

/-- EXIT: the proof data's arrays at their final contents and the other buffers are every unscoped buffer at the exit contents. -/
theorem exit_join (c : Dev nD) :
    iprop((dat (V1 m ρ) c).arrays ((dat (V1 m ρ) c).arrAt · cfg0.N) ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  rw [← Pipeline.unscopedBufs_held c (W2 m ρ c)]
  rw [show (unscopedBufs c (fun b => W2 m ρ c b) : sProp 𝕄) = iprop(Pipeline.arrBufs spec0 c (V2 m ρ c) ∗ Pipeline.unscopedRest spec0 c (V2 m ρ c))
    from Pipeline.unscopedBufs_split₀ cfgs 0 winFacts₀0.arr_unscoped c (V2 m ρ c)]
  rw [← rest_eq m ρ c]
  exact sep_mono (arr_join (V1 m ρ) c (V2 m ρ c) (V2_arg0 m ρ c) (V2_v0 m ρ c) (V2_v1 m ρ c) (V2_v2 m ρ c)) .rfl

theorem Phi_first (c : Dev nD) : (dat (V1 m ρ) c).Φ 0
    = Pipeline.scopedRest (Ix := Unit) (Name := ℕ) (U := UR sig nD τ) (Lvl := ℕ) (Val := Elt F) spec0 c := by
  dsimp only [dat]; rfl
theorem Phi_last (c : Dev nD) : (dat (V1 m ρ) c).Φ (Fin.last cfg0.N) = PhiS (V1 m ρ) c cfg0.N (Nat.le_refl _) := by
  dsimp only [dat]; simp only [Fin.val_last]
/-- After the last point the two columns, at whatever they hold, are again the scoped buffers no window stages. -/
theorem last_out (c : Dev nD) : (dat (V1 m ρ) c).Φ (Fin.last cfg0.N)
    ⊢ (Pipeline.scopedRest (Ix := Unit) (Name := ℕ) (U := UR sig nD τ) (Lvl := ℕ) (Val := Elt F) spec0 c : sProp 𝕄) := by
  rw [Phi_last, PhiS_pos (V1 m ρ) c cfg0.N (Nat.le_refl _) (by rw [show cfg0.N = 64 from N_0]; decide), scoped_eq]
  iintro ⟨H7, H8⟩
  isplitl [H7]; · iexists _; iexact H7
  iexists _; iexact H8

set_option maxHeartbeats 1000000 in
set_option backward.isDefEq.respectTransparency.types false in
/-- THE REGION over the thread state: entered from every unscoped buffer at the entry contents, left with them at the exit contents. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X _ := iprop(emp)
  Y _ := iprop(emp)
  Z c := Pipeline.unscopedRest (Ix := Unit) (Name := ℕ) (U := UR sig nD τ) (Lvl := ℕ) spec0 c (V1 m ρ c)
  hentry c := by
    rw [Pipeline.ownSems0_none]
    iintro ⟨⟨Hub, HO⟩, -, -⟩
    ihave H := (entry_split m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 0 c).Φ 0 = (dat (V1 m ρ) c).Φ 0 from rfl, Phi_first]
    iintro ⟨-, -, Hr⟩
    iexact Hr
  hout c := by
    rw [Pipeline.ownSems0_none, show (pdats m ρ 0 c).Φ (Fin.last _) = (dat (V1 m ρ) c).Φ (Fin.last cfg0.N) from rfl]
    iintro H
    ihave Hr := (last_out m ρ c) $$ H
    isplitr; · iempintro
    isplitr; · iempintro
    iexact Hr
  hexit c := by
    iintro ⟨Ha, HO, -, Hrest⟩
    imodintro
    isplitl [Ha Hrest]
    · iapply (exit_join m ρ c)
      isplitl [Ha]; · iexact Ha
      iexact Hrest
    unfold Pipeline.Dat.owesAt Pipeline.owesWithin
    icases HO with ⟨%W, -, HO⟩; iexists W; iexact HO

/-- @main's three segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option maxHeartbeats 1000000 in
set_option backward.isDefEq.respectTransparency.types false in
/-- THE RUN: from any memory with zero counters every weakly fair execution of @main terminates, nothing faulting, and every final state
    has every unscoped buffer at the end contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = W3 m ρ c b)
    (hfin := fun c s' => by
      show iprop(StableHlo.held (c : Thread nD τ) (Pipeline.ucRefs τ sig) (W3 m ρ c) ∗ SI s') ⊢ _
      iintro ⟨Hh, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_arg m ρ c main_arg0 (.inl rfl)),
     (h c _ (mem_uc main_arg1 (by decide))).trans (W3_arg m ρ c main_arg1 (.inr rfl))⟩) (run_main m ρ)

end Cert.Kernel.Hand

end
-- ==== Proof.KernelIdealRun.lean ====
/-
  The kernel body at a grid point (i, j), run once per control case.

  The body keeps, per row of its block of 1024 rows, a running minimum and a running maximum in two scratch columns. At j = 0 it first
  resets the two columns to the top and the bottom element; at every j it folds in the row minimum, over the block's positives, and the
  row maximum, over its negatives, of the similarities of the i-th block of rows to the j-th block of rows; at j = 7 it also turns the
  two columns into the block's losses and stores them in the output block. Three cases meet the grid: the first column of points
  (reset, no output), the middle ones (neither), the last (output, no reset). Each run leaves the four input blocks as they were and
  each buffer it stores into with its stores written over what was there; the stores are the pieces the run finds.
-/
import proofs.«167502_j24584392802985_1_alg».proof.Proof.Gen.KernelIdeal.Launch
import proofs.«167502_j24584392802985_1_alg».proof.Proof.Gen.KernelIdeal.Skeleton
import proofs.«167502_j24584392802985_1_alg».proof.Proof.Gen.KernelIdeal.Points
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

/-- "j = 0": the reset is taken. -/
abbrev isFirst (i : grid0.Coords) : Prop := (Scalar.cmpi .ne (Scalar.extui (Scalar.cmpi .eq (BitVec.ofNat 32 (i 1).val) 0#32)) 0#32) = 1#1
/-- "j = 7": the losses are stored. -/
abbrev isLast (i : grid0.Coords) : Prop := k0_cond2 i = 1#1

set_option maxHeartbeats 2000000 in
/-- The first case (j = 0): the two running columns, at anything, are reset and then updated; the output block is not touched. -/
noncomputable def runFirst (c : Dev nD) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (hc0 : isFirst i) (hc1 : ¬isLast i)
    (x2 : Vec F S1024x128 .f32) (x3 : Vec F S1024x128 .f32) (x4 : Vec F S1024x1 .i32) (x5 : Vec F S1x1024 .i32) :
    Σ' (L7 : List (View.Piece (Elt F) S1024x1 .f32)), { L8 : List (View.Piece (Elt F) S1024x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5
            ∗ (∃ d, owns (c : Thread nD τ) arg7 fullShare d) ∗ (∃ d, owns (c : Thread nD τ) arg8 fullShare d)
            ∗ (iprop(owns (c : Thread nD τ) arg2 fullShare x2 ∗ owns (c : Thread nD τ) arg3 fullShare x3 ∗ owns (c : Thread nD τ) arg4 fullShare x4
            ∗ owns (c : Thread nD τ) arg5 fullShare x5
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)) -∗ K ⟨⟩))
          ⊢ wp frame (wpE (defs₀ (F := F)) Variants.none c none) E (cc0__margin_kernel i arg2 harg2 arg3 harg3 arg4 harg4 arg5 harg5 arg6 harg6 arg7 harg7 arg8 harg8) K } := by
  refine ⟨?_, ?_, fun E K => ?run⟩
  case run =>
    simp only [cc0__margin_kernel_eq_skeleton, k0_part1_eq_skeleton]; unfold cc0__margin_kernel_skel
    unfold owns
    iintro ⟨⟨%f2, %hf2, H2⟩, ⟨%f3, %hf3, H3⟩, ⟨%f4, %hf4, H4⟩, ⟨%f5, %hf5, H5⟩, ⟨%d7, %f7, -, H7⟩, ⟨%d8, %f8, -, H8⟩, Hk⟩
    obtain rfl := harg2.eq_unread hf2; obtain rfl := harg3.eq_unread hf3; obtain rfl := harg4.eq_unread hf4; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H7]; · iexists _; iexact H7
    iexists _; iexact H8

set_option maxHeartbeats 2000000 in
/-- A middle case (0 < j < 7): the two running columns, at what the point before left, are updated; the output block is not touched. -/
noncomputable def runMid (c : Dev nD) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (hc0 : ¬isFirst i) (hc1 : ¬isLast i)
    (x2 : Vec F S1024x128 .f32) (x3 : Vec F S1024x128 .f32) (x4 : Vec F S1024x1 .i32) (x5 : Vec F S1x1024 .i32) (s7 : Vec F S1024x1 .f32) (s8 : Vec F S1024x1 .f32) :
    Σ' (L7 : List (View.Piece (Elt F) S1024x1 .f32)), { L8 : List (View.Piece (Elt F) S1024x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5
            ∗ owns (c : Thread nD τ) arg7 fullShare s7 ∗ owns (c : Thread nD τ) arg8 fullShare s8
            ∗ (iprop(owns (c : Thread nD τ) arg2 fullShare x2 ∗ owns (c : Thread nD τ) arg3 fullShare x3 ∗ owns (c : Thread nD τ) arg4 fullShare x4
            ∗ owns (c : Thread nD τ) arg5 fullShare x5
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)) -∗ K ⟨⟩))
          ⊢ wp frame (wpE (defs₀ (F := F)) Variants.none c none) E (cc0__margin_kernel i arg2 harg2 arg3 harg3 arg4 harg4 arg5 harg5 arg6 harg6 arg7 harg7 arg8 harg8) K } := by
  refine ⟨?_, ?_, fun E K => ?run⟩
  case run =>
    simp only [cc0__margin_kernel_eq_skeleton, k0_part1_eq_skeleton]; unfold cc0__margin_kernel_skel
    unfold owns
    iintro ⟨⟨%f2, %hf2, H2⟩, ⟨%f3, %hf3, H3⟩, ⟨%f4, %hf4, H4⟩, ⟨%f5, %hf5, H5⟩, ⟨%f7, %hf7, H7⟩, ⟨%f8, %hf8, H8⟩, Hk⟩
    obtain rfl := harg2.eq_unread hf2; obtain rfl := harg3.eq_unread hf3; obtain rfl := harg4.eq_unread hf4; obtain rfl := harg5.eq_unread hf5
    obtain rfl := harg7.eq_unread hf7; obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H7]; · iexists _; iexact H7
    iexists _; iexact H8

set_option maxHeartbeats 2000000 in
/-- The last case (j = 7): the two running columns are updated and the losses computed from them are stored in the output block, which
    was at anything. -/
noncomputable def runLast (c : Dev nD) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (hc0 : ¬isFirst i) (hc1 : isLast i)
    (x2 : Vec F S1024x128 .f32) (x3 : Vec F S1024x128 .f32) (x4 : Vec F S1024x1 .i32) (x5 : Vec F S1x1024 .i32) (s7 : Vec F S1024x1 .f32) (s8 : Vec F S1024x1 .f32) :
    Σ' (L6 : List (View.Piece (Elt F) S1024x1 .f32)) (L7 : List (View.Piece (Elt F) S1024x1 .f32)), { L8 : List (View.Piece (Elt F) S1024x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ (∃ d, owns (c : Thread nD τ) arg6 fullShare d)
            ∗ owns (c : Thread nD τ) arg7 fullShare s7 ∗ owns (c : Thread nD τ) arg8 fullShare s8
            ∗ (iprop(owns (c : Thread nD τ) arg2 fullShare x2 ∗ owns (c : Thread nD τ) arg3 fullShare x3 ∗ owns (c : Thread nD τ) arg4 fullShare x4
            ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)) -∗ K ⟨⟩))
          ⊢ wp frame (wpE (defs₀ (F := F)) Variants.none c none) E (cc0__margin_kernel i arg2 harg2 arg3 harg3 arg4 harg4 arg5 harg5 arg6 harg6 arg7 harg7 arg8 harg8) K } := by
  refine ⟨?_, ?_, ?_, fun E K => ?run⟩
  case run =>
    simp only [cc0__margin_kernel_eq_skeleton, k0_part1_eq_skeleton]; unfold cc0__margin_kernel_skel
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf2; obtain rfl := harg3.eq_unread hf3; obtain rfl := harg4.eq_unread hf4; obtain rfl := harg5.eq_unread hf5
    obtain rfl := harg7.eq_unread hf7; obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; iexact H8

end Cert.KernelIdeal.Hand

end
-- ==== Proof.KernelIdealData.lean ====
/-
  The proof data of the one pallas_call and its body obligation.

  Point t = 8·i + j of the 8 × 8 grid works on the i-th block of 1024 rows against the j-th block of 1024 rows. Windows 0 and 2 hold the
  i-th blocks of the table and of the labels (as a column), windows 1 and 3 the j-th blocks of the table and of the labels (as a row),
  window 4 the i-th block of the result. What the two running columns hold after each point is defined by recursion on the point: the
  first point of a row of the grid resets and updates them, every later point updates what the point before left; the last point of a
  row of the grid also stores the block of losses computed from them. The invariant between points names the two columns' contents.
  The table is handed to the kernel twice; each of its two windows holds one half of the array's share.
-/
import proofs.«167502_j24584392802985_1_alg».proof.Proof.KernelIdealRun
import Idealize.ShloMosaic.Lib.Pipeline.FrameSuffix
import Idealize.ShloMosaic.Lib.Ring

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two conditions over the grid, and where the result's window is idle -/

/-- The reset is taken at the first point of each row of the grid. -/
theorem hFirst : ∀ t : Fin cfg0.N, isFirst (grid0.coords t) ↔ t.val % 8 = 0 :=
  (by decide +kernel : ∀ t : Fin grid0.N, isFirst (grid0.coords t) ↔ t.val % 8 = 0)
/-- The losses are stored at the last point of each row of the grid. -/
theorem hLast : ∀ t : Fin cfg0.N, isLast (grid0.coords t) ↔ t.val % 8 = 7 :=
  (by decide +kernel : ∀ t : Fin grid0.N, isLast (grid0.coords t) ↔ t.val % 8 = 7)

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Away from the last point of a row of the grid nothing is stored into the result's window, and its block is not written back. -/
theorem idleAt4 : ∀ t : Fin cfg0.N, ¬isLast (grid0.coords t) → cfg0.idle 4 (grid0.coords t) = true := by decide +kernel
theorem noFlush4 : ∀ t : Fin cfg0.N, ¬isLast (grid0.coords t) → (cfg0.win 4).flush t = false := by decide +kernel
theorem liveAt4 : ∀ t : Fin cfg0.N, isLast (grid0.coords t) → cfg0.idle 4 (grid0.coords t) = false := by decide +kernel

/-! ## The memrefs the body is called with -/

abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
/-- The two running columns: whole scoped buffers of the kernel's own. -/
abbrev sc7 : Memref sig .tc .vmem S1024x1 .f32 := Memref.whole cc0_scratch0
abbrev sc8 : Memref sig .tc .vmem S1024x1 .f32 := Memref.whole cc0_scratch1
/-- Views through which contents are stated. -/
abbrev VO4 : View sig .tc .vmem S1024x1 .f32 := (Memref.whole cc0_stg4_0 : Memref sig .tc .vmem S1024x1 .f32).view
abbrev VS7 : View sig .tc .vmem S1024x1 .f32 := sc7.view
abbrev VS8 : View sig .tc .vmem S1024x1 .f32 := sc8.view

/-- The scoped buffers no window stages are the two running columns, each at anything. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) sc7 fullShare d) ∗ (∃ d, owns (c : Thread nD τ) sc8 fullShare d)) := by
  rw [scopedRest0_eq]; simp only [sc7, sc8, owns_whole]; try rfl

/-! ## What each case leaves -/

/-- The first case at point `t`. -/
abbrev firstAt (c : Dev nD) (t : Fin cfg0.N) (h0 : isFirst (grid0.coords t)) (h1 : ¬isLast (grid0.coords t)) :=
  runFirst (F := F) c (grid0.coords t) (ms0 t) (hs0 t) (ms1 t) (hs1 t) (ms2 t) (hs2 t) (ms3 t) (hs3 t) (ms4 t) (hs4 t) sc7 (Memref.isWhole_whole _) sc8 (Memref.isWhole_whole _) h0 h1 (iblk V c 0 t) (iblk V c 1 t) (iblk V c 2 t) (iblk V c 3 t)
/-- A middle case at point `t`, over the columns' contents `s7`, `s8`. -/
abbrev midAt (c : Dev nD) (t : Fin cfg0.N) (h0 : ¬isFirst (grid0.coords t)) (h1 : ¬isLast (grid0.coords t)) (s7 s8 : Vec F S1024x1 .f32) :=
  runMid (F := F) c (grid0.coords t) (ms0 t) (hs0 t) (ms1 t) (hs1 t) (ms2 t) (hs2 t) (ms3 t) (hs3 t) (ms4 t) (hs4 t) sc7 (Memref.isWhole_whole _) sc8 (Memref.isWhole_whole _) h0 h1 (iblk V c 0 t) (iblk V c 1 t) (iblk V c 2 t) (iblk V c 3 t) s7 s8
/-- The last case at point `t`, over the columns' contents `s7`, `s8`. -/
abbrev lastAt (c : Dev nD) (t : Fin cfg0.N) (h0 : ¬isFirst (grid0.coords t)) (h1 : isLast (grid0.coords t)) (s7 s8 : Vec F S1024x1 .f32) :=
  runLast (F := F) c (grid0.coords t) (ms0 t) (hs0 t) (ms1 t) (hs1 t) (ms2 t) (hs2 t) (ms3 t) (hs3 t) (ms4 t) (hs4 t) sc7 (Memref.isWhole_whole _) sc8 (Memref.isWhole_whole _) h0 h1 (iblk V c 0 t) (iblk V c 1 t) (iblk V c 2 t) (iblk V c 3 t) s7 s8

/-- Each case's stores into a column, and the last case's into the result's block, tile the buffer. -/
theorem cov7First (c : Dev nD) (t : Fin cfg0.N) (h0) (h1) (y : S1024x1.Idx) : ∃ pc ∈ (firstAt V c t h0 h1).1, y ∈ pc.1.set :=
  View.cover_of_tiledL (firstAt V c t h0 h1).1 S1024x1.size (by sl_kernel_rfl) y
theorem cov8First (c : Dev nD) (t : Fin cfg0.N) (h0) (h1) (y : S1024x1.Idx) : ∃ pc ∈ (firstAt V c t h0 h1).2.1, y ∈ pc.1.set :=
  View.cover_of_tiledL (firstAt V c t h0 h1).2.1 S1024x1.size (by sl_kernel_rfl) y
theorem cov7Mid (c : Dev nD) (t : Fin cfg0.N) (h0) (h1) (s7 s8) (y : S1024x1.Idx) : ∃ pc ∈ (midAt V c t h0 h1 s7 s8).1, y ∈ pc.1.set :=
  View.cover_of_tiledL (midAt V c t h0 h1 s7 s8).1 S1024x1.size (by sl_kernel_rfl) y
theorem cov8Mid (c : Dev nD) (t : Fin cfg0.N) (h0) (h1) (s7 s8) (y : S1024x1.Idx) : ∃ pc ∈ (midAt V c t h0 h1 s7 s8).2.1, y ∈ pc.1.set :=
  View.cover_of_tiledL (midAt V c t h0 h1 s7 s8).2.1 S1024x1.size (by sl_kernel_rfl) y
theorem cov6Last (c : Dev nD) (t : Fin cfg0.N) (h0) (h1) (s7 s8) (y : S1024x1.Idx) : ∃ pc ∈ (lastAt V c t h0 h1 s7 s8).1, y ∈ pc.1.set :=
  View.cover_of_tiledL (lastAt V c t h0 h1 s7 s8).1 S1024x1.size (by sl_kernel_rfl) y
theorem cov7Last (c : Dev nD) (t : Fin cfg0.N) (h0) (h1) (s7 s8) (y : S1024x1.Idx) : ∃ pc ∈ (lastAt V c t h0 h1 s7 s8).2.1, y ∈ pc.1.set :=
  View.cover_of_tiledL (lastAt V c t h0 h1 s7 s8).2.1 S1024x1.size (by sl_kernel_rfl) y
theorem cov8Last (c : Dev nD) (t : Fin cfg0.N) (h0) (h1) (s7 s8) (y : S1024x1.Idx) : ∃ pc ∈ (lastAt V c t h0 h1 s7 s8).2.2.1, y ∈ pc.1.set :=
  View.cover_of_tiledL (lastAt V c t h0 h1 s7 s8).2.2.1 S1024x1.size (by sl_kernel_rfl) y

/-- What a case leaves in a buffer: its pieces read back. -/
def s7First (c : Dev nD) (t : Fin cfg0.N) (h0 : isFirst (grid0.coords t)) (h1 : ¬isLast (grid0.coords t)) : Vec F S1024x1 .f32 := VS7.read (Elt F) (VS7.writes (Elt F) VS7.junk (firstAt V c t h0 h1).1)
def s8First (c : Dev nD) (t : Fin cfg0.N) (h0 : isFirst (grid0.coords t)) (h1 : ¬isLast (grid0.coords t)) : Vec F S1024x1 .f32 := VS8.read (Elt F) (VS8.writes (Elt F) VS8.junk (firstAt V c t h0 h1).2.1)
def s7Mid (c : Dev nD) (t : Fin cfg0.N) (h0 : ¬isFirst (grid0.coords t)) (h1 : ¬isLast (grid0.coords t)) (s7 s8 : Vec F S1024x1 .f32) : Vec F S1024x1 .f32 := VS7.read (Elt F) (VS7.writes (Elt F) VS7.junk (midAt V c t h0 h1 s7 s8).1)
def s8Mid (c : Dev nD) (t : Fin cfg0.N) (h0 : ¬isFirst (grid0.coords t)) (h1 : ¬isLast (grid0.coords t)) (s7 s8 : Vec F S1024x1 .f32) : Vec F S1024x1 .f32 := VS8.read (Elt F) (VS8.writes (Elt F) VS8.junk (midAt V c t h0 h1 s7 s8).2.1)
def o6Last (c : Dev nD) (t : Fin cfg0.N) (h0 : ¬isFirst (grid0.coords t)) (h1 : isLast (grid0.coords t)) (s7 s8 : Vec F S1024x1 .f32) : Vec F S1024x1 .f32 := VO4.read (Elt F) (VO4.writes (Elt F) VO4.junk (lastAt V c t h0 h1 s7 s8).1)
def s7Last (c : Dev nD) (t : Fin cfg0.N) (h0 : ¬isFirst (grid0.coords t)) (h1 : isLast (grid0.coords t)) (s7 s8 : Vec F S1024x1 .f32) : Vec F S1024x1 .f32 := VS7.read (Elt F) (VS7.writes (Elt F) VS7.junk (lastAt V c t h0 h1 s7 s8).2.1)
def s8Last (c : Dev nD) (t : Fin cfg0.N) (h0 : ¬isFirst (grid0.coords t)) (h1 : isLast (grid0.coords t)) (s7 s8 : Vec F S1024x1 .f32) : Vec F S1024x1 .f32 := VS8.read (Elt F) (VS8.writes (Elt F) VS8.junk (lastAt V c t h0 h1 s7 s8).2.2.1)
/-- A placeholder for the result's window where nothing is stored into it (nothing consults it there). -/
def o6None : Vec F S1024x1 .f32 := VO4.read (Elt F) VO4.junk

/-! ## The accumulation over the points -/

/-- What the result's window and the two running columns hold after the body at position `n`. -/
def accAt (c : Dev nD) : (n : ℕ) → n < cfg0.N → Vec F S1024x1 .f32 × Vec F S1024x1 .f32 × Vec F S1024x1 .f32
  | 0, hn => (o6None, s7First V c ⟨0, hn⟩ ((hFirst ⟨0, hn⟩).mpr (Nat.zero_mod _)) (fun h => by have := (hLast ⟨0, hn⟩).mp h; (try dsimp only at this); omega),
      s8First V c ⟨0, hn⟩ ((hFirst ⟨0, hn⟩).mpr (Nat.zero_mod _)) (fun h => by have := (hLast ⟨0, hn⟩).mp h; (try dsimp only at this); omega))
  | n + 1, hn =>
    if h0 : (n + 1) % 8 = 0 then
      if h1 : (n + 1) % 8 = 7 then False.elim (by omega)
      else (o6None, s7First V c ⟨n + 1, hn⟩ ((hFirst ⟨n + 1, hn⟩).mpr h0) (fun h => h1 ((hLast ⟨n + 1, hn⟩).mp h)),
        s8First V c ⟨n + 1, hn⟩ ((hFirst ⟨n + 1, hn⟩).mpr h0) (fun h => h1 ((hLast ⟨n + 1, hn⟩).mp h)))
    else
      if h1 : (n + 1) % 8 = 7 then
        (o6Last V c ⟨n + 1, hn⟩ (fun h => h0 ((hFirst ⟨n + 1, hn⟩).mp h)) ((hLast ⟨n + 1, hn⟩).mpr h1) (accAt c n (Nat.lt_of_succ_lt hn)).2.1 (accAt c n (Nat.lt_of_succ_lt hn)).2.2,
         s7Last V c ⟨n + 1, hn⟩ (fun h => h0 ((hFirst ⟨n + 1, hn⟩).mp h)) ((hLast ⟨n + 1, hn⟩).mpr h1) (accAt c n (Nat.lt_of_succ_lt hn)).2.1 (accAt c n (Nat.lt_of_succ_lt hn)).2.2,
         s8Last V c ⟨n + 1, hn⟩ (fun h => h0 ((hFirst ⟨n + 1, hn⟩).mp h)) ((hLast ⟨n + 1, hn⟩).mpr h1) (accAt c n (Nat.lt_of_succ_lt hn)).2.1 (accAt c n (Nat.lt_of_succ_lt hn)).2.2)
      else
        (o6None,
         s7Mid V c ⟨n + 1, hn⟩ (fun h => h0 ((hFirst ⟨n + 1, hn⟩).mp h)) (fun h => h1 ((hLast ⟨n + 1, hn⟩).mp h)) (accAt c n (Nat.lt_of_succ_lt hn)).2.1 (accAt c n (Nat.lt_of_succ_lt hn)).2.2,
         s8Mid V c ⟨n + 1, hn⟩ (fun h => h0 ((hFirst ⟨n + 1, hn⟩).mp h)) (fun h => h1 ((hLast ⟨n + 1, hn⟩).mp h)) (accAt c n (Nat.lt_of_succ_lt hn)).2.1 (accAt c n (Nat.lt_of_succ_lt hn)).2.2)

/-- The columns before point `t`, for a point that is not the first of all. -/
abbrev prev7 (c : Dev nD) (t : Fin cfg0.N) : Vec F S1024x1 .f32 := (accAt V c (t.val - 1) (Nat.lt_of_le_of_lt (Nat.sub_le _ _) t.isLt)).2.1
abbrev prev8 (c : Dev nD) (t : Fin cfg0.N) : Vec F S1024x1 .f32 := (accAt V c (t.val - 1) (Nat.lt_of_le_of_lt (Nat.sub_le _ _) t.isLt)).2.2

theorem accAt_first (c : Dev nD) (t : Fin cfg0.N) (h0 : t.val % 8 = 0) (h1 : ¬t.val % 8 = 7) :
    accAt V c t.val t.isLt = (o6None, s7First V c t ((hFirst t).mpr h0) (fun h => h1 ((hLast t).mp h)), s8First V c t ((hFirst t).mpr h0) (fun h => h1 ((hLast t).mp h))) := by
  obtain ⟨n, hn⟩ := t
  cases n with
  | zero => exact rfl
  | succ n => exact (dif_pos h0).trans ((dif_neg h1).trans rfl)

theorem accAt_mid (c : Dev nD) (t : Fin cfg0.N) (h0 : ¬t.val % 8 = 0) (h1 : ¬t.val % 8 = 7) :
    accAt V c t.val t.isLt = (o6None,
      s7Mid V c t (fun h => h0 ((hFirst t).mp h)) (fun h => h1 ((hLast t).mp h)) (prev7 V c t) (prev8 V c t),
      s8Mid V c t (fun h => h0 ((hFirst t).mp h)) (fun h => h1 ((hLast t).mp h)) (prev7 V c t) (prev8 V c t)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 8 = 0) (h1 : t.val % 8 = 7) :
    accAt V c t.val t.isLt = (o6Last V c t (fun h => h0 ((hFirst t).mp h)) ((hLast t).mpr h1) (prev7 V c t) (prev8 V c t),
      s7Last V c t (fun h => h0 ((hFirst t).mp h)) ((hLast t).mpr h1) (prev7 V c t) (prev8 V c t),
      s8Last V c t (fun h => h0 ((hFirst t).mp h)) ((hLast t).mpr h1) (prev7 V c t) (prev8 V c t)) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the two columns at anything; afterwards each at what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) sc7 fullShare ((accAt V c n hn).2.1) ∗ owns (c : Thread nD τ) sc8 fullShare ((accAt V c n hn).2.2))

theorem PhiS_zero (c : Dev nD) (n : ℕ) (h : n ≤ cfg0.N) (hz : n = 0) :
    PhiS V c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS V c (n + 1) hn = iprop(owns (c : Thread nD τ) sc7 fullShare ((accAt V c n hn).2.1) ∗ owns (c : Thread nD τ) sc8 fullShare ((accAt V c n hn).2.2)) := rfl
theorem PhiS_pos (c : Dev nD) (n : ℕ) (h : n ≤ cfg0.N) (hz : n ≠ 0) :
    PhiS V c n h = iprop(owns (c : Thread nD τ) sc7 fullShare ((accAt V c (n - 1) (by omega)).2.1) ∗ owns (c : Thread nD τ) sc8 fullShare ((accAt V c (n - 1) (by omega)).2.2)) := by
  cases n with
  | zero => exact absurd rfl hz
  | succ n => rfl

/-! ## The proof data -/

/-- The proof data on core `c`: the arrays as the region finds them; after the body each input's buffer at its block and the result's
    at what the accumulation says; the invariant naming the two columns; nothing owed; the table's two windows each at one half of
    its array's share, every other window at the full share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (accAt V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat V c).A w = V c (Pipeline.arrRef spec0 w) := by dsimp only [dat]
theorem PhiS_castSucc (c : Dev nD) (t : Fin cfg0.N) : (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = (accAt V c t.val t.isLt).1 := by dsimp only [dat]
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t)

theorem leaves_in (c : Dev nD) (t : Fin cfg0.N) :
    (dat V c).leavesExact 0 t = owns (c : Thread nD τ) (ms0 t) fullShare (iblk V c 0 t)
    ∧ (dat V c).leavesExact 1 t = owns (c : Thread nD τ) (ms1 t) fullShare (iblk V c 1 t)
    ∧ (dat V c).leavesExact 2 t = owns (c : Thread nD τ) (ms2 t) fullShare (iblk V c 2 t)
    ∧ (dat V c).leavesExact 3 t = owns (c : Thread nD τ) (ms3 t) fullShare (iblk V c 3 t) := by
  refine ⟨?_, ?_, ?_, ?_⟩
  · unfold Dat.leavesExact; rw [liveAt0 t, after0]
  · unfold Dat.leavesExact; rw [liveAt1 t, after1]
  · unfold Dat.leavesExact; rw [liveAt2 t, after2]
  · unfold Dat.leavesExact; rw [liveAt3 t, after3]

set_option maxHeartbeats 4800000 in
/-- The body at any point: the inputs' memrefs hold their blocks; the closed forms say which case the point is in; the invariant hands
    the body the two columns at what the point before left (at anything at the very first point) and takes them back at this point's
    contents; away from the last point of a row of the grid the result's window passes through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl]
  rw [show (dat V c).Φ t.succ = PhiS V c (t.val + 1) t.isLt from rfl, PhiS_succ]
  rw [(leaves_in V c t).1, (leaves_in V c t).2.1, (leaves_in V c t).2.2.1, (leaves_in V c t).2.2.2]
  have hN : t.val < 64 := lt_of_lt_of_eq t.isLt (show cfg0.N = 64 from N_0)
  by_cases h0 : t.val % 8 = 0
  · have h1 : ¬t.val % 8 = 7 := by omega
    rw [Dat.leavesExact_idle (dat V c) 4 t (idleAt4 t (fun h => h1 ((hLast t).mp h))) (noFlush4 t (fun h => h1 ((hLast t).mp h)))]
    rw [accAt_first V c t h0 h1]
    unfold s7First s8First; (try dsimp only)
    have hstart : PhiS V c t.val (Nat.le_of_lt t.isLt) ⊢ iprop((∃ d, owns (c : Thread nD τ) sc7 fullShare d) ∗ (∃ d, owns (c : Thread nD τ) sc8 fullShare d)) := by
      by_cases hz : t.val = 0
      · rw [PhiS_zero V c _ _ hz, scoped_eq]
      · rw [PhiS_pos V c _ _ hz]
        iintro ⟨H7, H8⟩
        isplitl [H7]; · iexists _; iexact H7
        iexists _; iexact H8
    rw [PhiS_castSucc V c t]
    iintro ⟨HS, Ho, ⟨%d0, H0⟩, ⟨%d1, H1⟩, ⟨%d2, H2⟩, ⟨%d3, H3⟩, ⟨%d4, H4⟩⟩
    ihave HS' := hstart $$ HS
    icases HS' with ⟨H7, H8⟩
    iapply ((firstAt V c t ((hFirst t).mpr h0) (fun h => h1 ((hLast t).mp h))).2.2 Set.univ _)
    isplitl [H0]; · iexact H0
    isplitl [H1]; · iexact H1
    isplitl [H2]; · iexact H2
    isplitl [H3]; · iexact H3
    isplitl [H7]; · iexact H7
    isplitl [H8]; · iexact H8
    iintro ⟨H0, H1, H2, H3, ⟨%e7, H7⟩, ⟨%e8, H8⟩⟩
    isplitl [H7 H8]
    · isplitl [H7]
      · unfold owns; iexists _; isplitr
        swap; · iexact H7
        ipureintro; exact View.read_writes_of_cover _ _ _ _ _ (cov7First V c t _ _)
      · unfold owns; iexists _; isplitr
        swap; · iexact H8
        ipureintro; exact View.read_writes_of_cover _ _ _ _ _ (cov8First V c t _ _)
    isplitl [Ho]; · iexact Ho
    isplitl [H0]; · iexact H0
    isplitl [H1]; · iexact H1
    isplitl [H2]; · iexact H2
    isplitl [H3]; · iexact H3
    iexists _; iexact H4
  · have hz : t.val ≠ 0 := by omega
    by_cases h1 : t.val % 8 = 7
    · rw [show (dat V c).leavesExact 4 t = owns (c : Thread nD τ) (ms4 t) fullShare ((dat V c).after 4 t) from by
        unfold Dat.leavesExact; rw [liveAt4 t ((hLast t).mpr h1)], after4]
      rw [accAt_last V c t h0 h1]
      unfold o6Last s7Last s8Last; (try dsimp only)
      rw [PhiS_castSucc V c t, PhiS_pos V c _ _ hz]
      iintro ⟨⟨H7, H8⟩, Ho, ⟨%d0, H0⟩, ⟨%d1, H1⟩, ⟨%d2, H2⟩, ⟨%d3, H3⟩, ⟨%d4, H4⟩⟩
      iapply ((lastAt V c t (fun h => h0 ((hFirst t).mp h)) ((hLast t).mpr h1) _ _).2.2.2 Set.univ _)
      isplitl [H0]; · iexact H0
      isplitl [H1]; · iexact H1
      isplitl [H2]; · iexact H2
      isplitl [H3]; · iexact H3
      isplitl [H4]; · iexists _; iexact H4
      isplitl [H7]; · iexact H7
      isplitl [H8]; · iexact H8
      iintro ⟨H0, H1, H2, H3, ⟨%e6, H6⟩, ⟨%e7, H7⟩, ⟨%e8, H8⟩⟩
      isplitl [H7 H8]
      · isplitl [H7]
        · unfold owns; iexists _; isplitr
          swap; · iexact H7
          ipureintro; exact View.read_writes_of_cover _ _ _ _ _ (cov7Last V c t _ _ _ _)
        · unfold owns; iexists _; isplitr
          swap; · iexact H8
          ipureintro; exact View.read_writes_of_cover _ _ _ _ _ (cov8Last V c t _ _ _ _)
      isplitl [Ho]; · iexact Ho
      isplitl [H0]; · iexact H0
      isplitl [H1]; · iexact H1
      isplitl [H2]; · iexact H2
      isplitl [H3]; · iexact H3
      unfold owns; iexists _; isplitr
      swap; · iexact H6
      ipureintro; exact View.read_writes_of_cover _ _ _ _ _ (cov6Last V c t _ _ _ _)
    · rw [Dat.leavesExact_idle (dat V c) 4 t (idleAt4 t (fun h => h1 ((hLast t).mp h))) (noFlush4 t (fun h => h1 ((hLast t).mp h)))]
      rw [accAt_mid V c t h0 h1]
      unfold s7Mid s8Mid; (try dsimp only)
      rw [PhiS_castSucc V c t, PhiS_pos V c _ _ hz]
      iintro ⟨⟨H7, H8⟩, Ho, ⟨%d0, H0⟩, ⟨%d1, H1⟩, ⟨%d2, H2⟩, ⟨%d3, H3⟩, ⟨%d4, H4⟩⟩
      iapply ((midAt V c t (fun h => h0 ((hFirst t).mp h)) (fun h => h1 ((hLast t).mp h)) _ _).2.2 Set.univ _)
      isplitl [H0]; · iexact H0
      isplitl [H1]; · iexact H1
      isplitl [H2]; · iexact H2
      isplitl [H3]; · iexact H3
      isplitl [H7]; · iexact H7
      isplitl [H8]; · iexact H8
      iintro ⟨H0, H1, H2, H3, ⟨%e7, H7⟩, ⟨%e8, H8⟩⟩
      isplitl [H7 H8]
      · isplitl [H7]
        · unfold owns; iexists _; isplitr
          swap; · iexact H7
          ipureintro; exact View.read_writes_of_cover _ _ _ _ _ (cov7Mid V c t _ _ _ _)
        · unfold owns; iexists _; isplitr
          swap; · iexact H8
          ipureintro; exact View.read_writes_of_cover _ _ _ _ _ (cov8Mid V c t _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

end Region

end Cert.KernelIdeal.Hand

end
-- ==== Proof.KernelIdealFrame.lean ====
/-
  The launch: @main is two reshapes of the labels, the pallas_call, and five host operations (a reshape of the kernel's result, a
  constant, the sum of the 8192 losses, a constant, the division by 8192). Its run is stated over the contents of every unscoped buffer
  at each of the four boundaries: at launch, when the region is entered, when it is left — the kernel's result array then holding what
  its write-backs leave, every other buffer as entered —, and at the end.

  The table is handed to the kernel twice. When the region is entered its buffer, held whole, is split into two halves of its share, one
  per window; when the region is left the two halves — both at the contents the region found, the windows being inputs — are joined again.
-/
import proofs.«167502_j24584392802985_1_alg».proof.Proof.KernelIdealData
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

section Shares
variable (V : (c : Dev nD) → (b : Ref sig .tc) → Buf (Elt F) ((c : Thread nD τ).loc b))

theorem share0 (c : Dev nD) : (dat V c).share 0 = fullShare.left := by unfold Dat.share; rfl
theorem share1 (c : Dev nD) : (dat V c).share 1 = fullShare.right := by unfold Dat.share; rfl
theorem share2 (c : Dev nD) : (dat V c).share 2 = fullShare := by unfold Dat.share; rfl
theorem share3 (c : Dev nD) : (dat V c).share 3 = fullShare := by unfold Dat.share; rfl
theorem share4 (c : Dev nD) : (dat V c).share 4 = fullShare := by unfold Dat.share; rfl

/-- The windows' arrays, each whole at its window's share. -/
theorem arrays_sh (c : Dev nD) (G : (w : Fin cfg0.W) → Buf (Elt F) ((cfg0.win w).arr.view.loc (c : Thread nD τ))) :
    (dat V c).arrays G = bigSep Finset.univ fun w => (((c : Thread nD τ).loc (Pipeline.arrRef spec0 w)) ↦{(dat V c).share w} G w : sProp 𝕄) := by
  unfold Dat.arrays
  exact bigSep_congr fun w _ => by rw [(arr_whole0 w).set_eq_univ]

/-- ENTRY: the four buffers behind the five windows' arrays, each held whole at the region's entry contents, are the proof data's
    arrays: the table's buffer split into the halves of its share. -/
theorem arr_split (c : Dev nD) :
    (Pipeline.arrBufs (Ix := Unit) (Name := ℕ) (U := UR sig nD τ) (Lvl := ℕ) spec0 c (V c) : sProp 𝕄) ⊢ (dat V c).arrays ((dat V c).arrAt · 0) := by
  rw [arrays_sh, bigSep_W0, share0, share1, share2, share3, share4]
  unfold Pipeline.arrBufs
  rw [bigSep_eq_bigSepL_of_eq [main_arg0, main_v0, main_v1, main_v2] (by decide) (by decide)]
  show iprop((((c : Thread nD τ).loc main_arg0) ↦{fullShare} V c main_arg0) ∗ (((c : Thread nD τ).loc main_v0) ↦{fullShare} V c main_v0)
    ∗ (((c : Thread nD τ).loc main_v1) ↦{fullShare} V c main_v1) ∗ (((c : Thread nD τ).loc main_v2) ↦{fullShare} V c main_v2)) ⊢ _
  iintro ⟨H0, Hv0, Hv1, Hv2⟩
  ihave H := (pointsTo_share (PosShare.mem_left_op_right fullShare)).1 $$ H0
  icases H with ⟨Hl, Hr⟩
  isplitl [Hl]; · iexact Hl
  isplitl [Hr]; · iexact Hr
  isplitl [Hv0]; · iexact Hv0
  isplitl [Hv1]; · iexact Hv1
  iexact Hv2

/-- EXIT: the proof data's arrays at their final contents are the four buffers held whole at any contents `V'` that has the kernel's
    result array at what the write-backs leave and the three input arrays as the region found them. -/
theorem arr_join (c : Dev nD) (V' : (b : Ref sig .tc) → Buf (Elt F) ((c : Thread nD τ).loc b))
    (h0 : V' main_arg0 = V c main_arg0) (h1 : V' main_v0 = V c main_v0) (h2 : V' main_v1 = V c main_v1)
    (h4 : V' main_v2 = (dat V c).arrAt 4 cfg0.N) :
    (dat V c).arrays ((dat V c).arrAt · cfg0.N) ⊢ (Pipeline.arrBufs (Ix := Unit) (Name := ℕ) (U := UR sig nD τ) (Lvl := ℕ) spec0 c V' : sProp 𝕄) := by
  rw [arrays_sh, bigSep_W0, share0, share1, share2, share3, share4]
  rw [(dat V c).arrAt_in 0 rfl cfg0.N, (dat V c).arrAt_in 1 rfl cfg0.N, (dat V c).arrAt_in 2 rfl cfg0.N, (dat V c).arrAt_in 3 rfl cfg0.N]
  unfold Pipeline.arrBufs
  rw [bigSep_eq_bigSepL_of_eq [main_arg0, main_v0, main_v1, main_v2] (by decide) (by decide)]
  show _ ⊢ iprop((((c : Thread nD τ).loc main_arg0) ↦{fullShare} V' main_arg0) ∗ (((c : Thread nD τ).loc main_v0) ↦{fullShare} V' main_v0)
    ∗ (((c : Thread nD τ).loc main_v1) ↦{fullShare} V' main_v1) ∗ (((c : Thread nD τ).loc main_v2) ↦{fullShare} V' main_v2))
  rw [h0, h1, h2, h4]
  iintro ⟨Hl, Hr, Hv0, Hv1, Hv2⟩
  isplitl [Hl Hr]
  · iapply (pointsTo_share (PosShare.mem_left_op_right fullShare)).2
    isplitl [Hl]; · iexact Hl
    iexact Hr
  isplitl [Hv0]; · iexact Hv0
  isplitl [Hv1]; · iexact Hv1
  iexact Hv2

end Shares

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two reshapes of the labels: the region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the kernel's result array at what its write-backs leave, every other buffer as entered. -/
def W2 (c : Dev nD) : Valuation τ sig (Elt F) :=
  Function.update (W1 m ρ c) (Proc.devRef .tc main_v2) ((dat (V1 m ρ) c).arrAt 4 cfg0.N)
abbrev V2 : (c : Dev nD) → (b : Ref sig .tc) → Buf (Elt F) ((c : Thread nD τ).loc b) := fun c b => W2 m ρ c b
theorem W2_v2 (c : Dev nD) : W2 m ρ c (Proc.devRef .tc main_v2) = (dat (V1 m ρ) c).arrAt 4 cfg0.N := by
  unfold W2; exact Function.update_self ..
theorem W2_of_ne (c : Dev nD) (b : Ref sig .tc) (hb : b ≠ main_v2) : W2 m ρ c (Proc.devRef .tc b) = W1 m ρ c (Proc.devRef .tc b) := by
  unfold W2; exact Function.update_of_ne (StableHlo.devRef_ne_of_ne hb) ..
/-- After the five host operations: the end. -/
abbrev W3 : Dev nD → Valuation τ sig (Elt F) := fun c => StableHlo.after hostOps1 (W2 m ρ c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- No host operation and no write-back touches an argument: each ends as launched. -/
theorem W3_arg (c : Dev nD) (b : Ref sig .tc) (hb : b = main_arg0 ∨ b = main_arg1) :
    W3 m ρ c (Proc.devRef .tc b) = m ((c : Thread nD τ).loc b) := by
  have hne : b ≠ main_v2 := by rcases hb with rfl | rfl <;> decide
  calc W3 m ρ c (Proc.devRef .tc b)
    _ = W2 m ρ c (Proc.devRef .tc b) := StableHlo.after_of_forall_not_mem (b := Proc.devRef .tc b) _ _ (List.forall_iff_forall_mem.mp (by
          simp only [hostOps1, List.Forall, StableHlo.nullary_writes, StableHlo.unary_writes, StableHlo.binary_writes, StableHlo.reshape_writes, Finset.mem_singleton]
          rcases hb with rfl | rfl <;> (repeat' apply And.intro) <;> exact StableHlo.devRef_ne_of_ne (by decide)))
    _ = W1 m ρ c (Proc.devRef .tc b) := W2_of_ne m ρ c b hne
    _ = W0 m ρ c (Proc.devRef .tc b) := StableHlo.after_of_forall_not_mem (b := Proc.devRef .tc b) _ _ (List.forall_iff_forall_mem.mp (by
          simp only [hostOps0, List.Forall, StableHlo.nullary_writes, StableHlo.unary_writes, StableHlo.binary_writes, StableHlo.reshape_writes, Finset.mem_singleton]
          rcases hb with rfl | rfl <;> (repeat' apply And.intro) <;> exact StableHlo.devRef_ne_of_ne (by decide)))
    _ = m ((c : Thread nD τ).loc b) := rfl

/-! ## The proof data family, the thread state, the segments -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers: the core owes nothing. -/
abbrev R (c : Dev nD) : sProp 𝕄 := iprop(∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := StableHlo.held (c : Thread nD τ) (Pipeline.ucRefs τ sig) (W3 m ρ c)

/-- The unscoped buffers that are no window's array are at the same contents when the region is left as when it was entered. -/
theorem rest_eq (c : Dev nD) :
    (Pipeline.unscopedRest (Ix := Unit) (Name := ℕ) (U := UR sig nD τ) (Lvl := ℕ) spec0 c (V1 m ρ c) : sProp 𝕄)
      = Pipeline.unscopedRest (Ix := Unit) (Name := ℕ) (U := UR sig nD τ) (Lvl := ℕ) spec0 c (V2 m ρ c) := by
  unfold Pipeline.unscopedRest
  refine bigSep_congr fun b hb => ?_
  have hb' : b ≠ main_v2 := fun e => (Finset.mem_sdiff.mp hb).2 (Finset.mem_image.mpr ⟨4, Finset.mem_univ _, e ▸ rfl⟩)
  rw [show V2 m ρ c b = V1 m ρ c b from W2_of_ne m ρ c b hb']

theorem V2_arg0 (c : Dev nD) : V2 m ρ c main_arg0 = V1 m ρ c main_arg0 := W2_of_ne m ρ c main_arg0 (by decide)
theorem V2_v0 (c : Dev nD) : V2 m ρ c main_v0 = V1 m ρ c main_v0 := W2_of_ne m ρ c main_v0 (by decide)
theorem V2_v1 (c : Dev nD) : V2 m ρ c main_v1 = V1 m ρ c main_v1 := W2_of_ne m ρ c main_v1 (by decide)
theorem V2_v2 (c : Dev nD) : V2 m ρ c main_v2 = (dat (V1 m ρ) c).arrAt 4 cfg0.N := W2_v2 m ρ c

/-- ENTRY: every unscoped buffer at the entry contents is the proof data's arrays at their entry contents and the other buffers. -/
theorem entry_split (c : Dev nD) :
    (StableHlo.held (c : Thread nD τ) (Pipeline.ucRefs τ sig) (W1 m ρ c) : sProp 𝕄)
      ⊢ iprop((dat (V1 m ρ) c).arrays ((dat (V1 m ρ) c).arrAt · 0) ∗ Pipeline.unscopedRest (Ix := Unit) (Name := ℕ) (U := UR sig nD τ) (Lvl := ℕ) spec0 c (V1 m ρ c)) := by
  rw [← Pipeline.unscopedBufs_held c (W1 m ρ c)]
  rw [show (unscopedBufs c (fun b => W1 m ρ c b) : sProp 𝕄) = iprop(Pipeline.arrBufs spec0 c (V1 m ρ c) ∗ Pipeline.unscopedRest spec0 c (V1 m ρ c))
    from Pipeline.unscopedBufs_split₀ cfgs 0 winFacts₀0.arr_unscoped c (V1 m ρ c)]
  exact sep_mono (arr_split (V1 m ρ) c) .rfl

/-- EXIT: the proof data's arrays at their final contents and the other buffers are every unscoped buffer at the exit contents. -/
theorem exit_join (c : Dev nD) :
    iprop((dat (V1 m ρ) c).arrays ((dat (V1 m ρ) c).arrAt · cfg0.N) ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  rw [← Pipeline.unscopedBufs_held c (W2 m ρ c)]
  rw [show (unscopedBufs c (fun b => W2 m ρ c b) : sProp 𝕄) = iprop(Pipeline.arrBufs spec0 c (V2 m ρ c) ∗ Pipeline.unscopedRest spec0 c (V2 m ρ c))
    from Pipeline.unscopedBufs_split₀ cfgs 0 winFacts₀0.arr_unscoped c (V2 m ρ c)]
  rw [← rest_eq m ρ c]
  exact sep_mono (arr_join (V1 m ρ) c (V2 m ρ c) (V2_arg0 m ρ c) (V2_v0 m ρ c) (V2_v1 m ρ c) (V2_v2 m ρ c)) .rfl

theorem Phi_first (c : Dev nD) : (dat (V1 m ρ) c).Φ 0
    = Pipeline.scopedRest (Ix := Unit) (Name := ℕ) (U := UR sig nD τ) (Lvl := ℕ) (Val := Elt F) spec0 c := by
  dsimp only [dat]; rfl
theorem Phi_last (c : Dev nD) : (dat (V1 m ρ) c).Φ (Fin.last cfg0.N) = PhiS (V1 m ρ) c cfg0.N (Nat.le_refl _) := by
  dsimp only [dat]; simp only [Fin.val_last]
/-- After the last point the two columns, at whatever they hold, are again the scoped buffers no window stages. -/
theorem last_out (c : Dev nD) : (dat (V1 m ρ) c).Φ (Fin.last cfg0.N)
    ⊢ (Pipeline.scopedRest (Ix := Unit) (Name := ℕ) (U := UR sig nD τ) (Lvl := ℕ) (Val := Elt F) spec0 c : sProp 𝕄) := by
  rw [Phi_last, PhiS_pos (V1 m ρ) c cfg0.N (Nat.le_refl _) (by rw [show cfg0.N = 64 from N_0]; decide), scoped_eq]
  iintro ⟨H7, H8⟩
  isplitl [H7]; · iexists _; iexact H7
  iexists _; iexact H8

set_option maxHeartbeats 1000000 in
set_option backward.isDefEq.respectTransparency.types false in
/-- THE REGION over the thread state: entered from every unscoped buffer at the entry contents, left with them at the exit contents. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X _ := iprop(emp)
  Y _ := iprop(emp)
  Z c := Pipeline.unscopedRest (Ix := Unit) (Name := ℕ) (U := UR sig nD τ) (Lvl := ℕ) spec0 c (V1 m ρ c)
  hentry c := by
    rw [Pipeline.ownSems0_none]
    iintro ⟨⟨Hub, HO⟩, -, -⟩
    ihave H := (entry_split m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 0 c).Φ 0 = (dat (V1 m ρ) c).Φ 0 from rfl, Phi_first]
    iintro ⟨-, -, Hr⟩
    iexact Hr
  hout c := by
    rw [Pipeline.ownSems0_none, show (pdats m ρ 0 c).Φ (Fin.last _) = (dat (V1 m ρ) c).Φ (Fin.last cfg0.N) from rfl]
    iintro H
    ihave Hr := (last_out m ρ c) $$ H
    isplitr; · iempintro
    isplitr; · iempintro
    iexact Hr
  hexit c := by
    iintro ⟨Ha, HO, -, Hrest⟩
    imodintro
    isplitl [Ha Hrest]
    · iapply (exit_join m ρ c)
      isplitl [Ha]; · iexact Ha
      iexact Hrest
    unfold Pipeline.Dat.owesAt Pipeline.owesWithin
    icases HO with ⟨%W, -, HO⟩; iexists W; iexact HO

/-- @main's three segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option maxHeartbeats 1000000 in
set_option backward.isDefEq.respectTransparency.types false in
/-- THE RUN: from any memory with zero counters every weakly fair execution of @main terminates, nothing faulting, and every final state
    has every unscoped buffer at the end contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = W3 m ρ c b)
    (hfin := fun c s' => by
      show iprop(StableHlo.held (c : Thread nD τ) (Pipeline.ucRefs τ sig) (W3 m ρ c) ∗ SI s') ⊢ _
      iintro ⟨Hh, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_arg m ρ c main_arg0 (.inl rfl)),
     (h c _ (mem_uc main_arg1 (by decide))).trans (W3_arg m ρ c main_arg1 (.inr rfl))⟩) (run_main m ρ)

end Cert.KernelIdeal.Hand

end
-- ==== Proof.Margin.lean ====
/-
  The mathematics both programs compute, stated once, over plain coordinates.

  For a table `P` of 8192 rows of 128 extended reals and a label `y r` per row:
  * `sim P r c = ∑ k, P r k * P c k`, the inner product of rows `r` and `c`;
  * row `c` is a POSITIVE for row `r` when it carries the same label and is another row, a NEGATIVE when it carries another label;
  * `minPos P y r` is the least similarity of `r` to a positive (the infimum over all rows of the similarity where the row is a positive
    and of `⊤` where it is not: `⊤` when `r` has no positive), `maxNeg P y r` the greatest similarity to a negative (`⊥` when there is none);
  * the row's loss is `max 0 (a + b + 1)` with `a` the least positive similarity, or `0` when the row has no positive, and `b` the greatest
    negative similarity, or `0` when it has no negative.
  The result of either program is the sum of the 8192 row losses (from `0`) divided by 8192.
-/
import Idealize.ShloMosaic.PureOps.Ideal
import Idealize.ShloMosaic.Lib.ValueIdx

noncomputable section

namespace Cert.Margin

open scoped BigOperators

/-- The inner product of rows `r` and `c`. -/
def sim (P : Fin 8192 → Fin 128 → EReal) (r c : Fin 8192) : EReal := ∑ k : Fin 128, P r k * P c k

/-- Row `c` is a positive for row `r`: the same label, another row. -/
def IsPos (y : Fin 8192 → BitVec 32) (r c : Fin 8192) : Prop := y r = y c ∧ r ≠ c
/-- Row `c` is a negative for row `r`: another label. -/
def IsNeg (y : Fin 8192 → BitVec 32) (r c : Fin 8192) : Prop := y r ≠ y c

instance (y : Fin 8192 → BitVec 32) (r c : Fin 8192) : Decidable (IsPos y r c) := by unfold IsPos; infer_instance
instance (y : Fin 8192 → BitVec 32) (r c : Fin 8192) : Decidable (IsNeg y r c) := by unfold IsNeg; infer_instance

/-- The similarity to row `c` where it is a positive, `⊤` where it is not. -/
def posTerm (P : Fin 8192 → Fin 128 → EReal) (y : Fin 8192 → BitVec 32) (r c : Fin 8192) : EReal :=
  if IsPos y r c then sim P r c else ⊤
/-- The similarity to row `c` where it is a negative, `⊥` where it is not. -/
def negTerm (P : Fin 8192 → Fin 128 → EReal) (y : Fin 8192 → BitVec 32) (r c : Fin 8192) : EReal :=
  if IsNeg y r c then sim P r c else ⊥

/-- The least similarity of row `r` to a positive (`⊤` when it has none). -/
def minPos (P : Fin 8192 → Fin 128 → EReal) (y : Fin 8192 → BitVec 32) (r : Fin 8192) : EReal :=
  Finset.univ.inf (posTerm P y r)
/-- The greatest similarity of row `r` to a negative (`⊥` when it has none). -/
def maxNeg (P : Fin 8192 → Fin 128 → EReal) (y : Fin 8192 → BitVec 32) (r : Fin 8192) : EReal :=
  Finset.univ.sup (negTerm P y r)

/-- The loss of row `r`. -/
def rowLoss (P : Fin 8192 → Fin 128 → EReal) (y : Fin 8192 → BitVec 32) (r : Fin 8192) : EReal :=
  max 0 ((if ∃ c, IsPos y r c then minPos P y r else 0) + (if ∃ c, IsNeg y r c then maxNeg P y r else 0) + 1)

/-! ## The same, read off arrays

The table as an array of shape [8192, 128], the labels as an array of shape [8192], and the vector of the 8192 row losses. -/

open Idealize.ShloMosaic

/-- The table's entry (r, k), read off an array of shape [8192, 128]. -/
def tab (x0 : (⟨2, ![8192, 128]⟩ : Shape).Idx → EReal) : Fin 8192 → Fin 128 → EReal := fun r k => x0 (ValueIdx.ix2 r k)
/-- Row r's label, read off an array of shape [8192]. -/
def lab (x1 : (⟨1, ![8192]⟩ : Shape).Idx → BitVec 32) : Fin 8192 → BitVec 32 := fun r => x1 (ValueIdx.ix1 r)
/-- The vector of row losses, of shape [8192]. -/
def lossVec (x0 : (⟨2, ![8192, 128]⟩ : Shape).Idx → EReal) (x1 : (⟨1, ![8192]⟩ : Shape).Idx → BitVec 32) :
    (⟨1, ![8192]⟩ : Shape).Idx → EReal := fun i => rowLoss (tab x0) (lab x1) (i 0)

theorem lossVec_ix1 (x0 : (⟨2, ![8192, 128]⟩ : Shape).Idx → EReal) (x1 : (⟨1, ![8192]⟩ : Shape).Idx → BitVec 32) (r : Fin 8192) :
    lossVec x0 x1 (ValueIdx.ix1 r) = rowLoss (tab x0) (lab x1) r := rfl

end Cert.Margin

end
-- ==== Proof.MarginLaws.lean ====
/-
  Order and arithmetic facts about the margin loss, over the extended reals.

  * A table of real numbers has real similarities, so the least positive similarity is below `⊤` exactly when the row has a positive, and
    the greatest negative similarity is above `⊥` exactly when the row has a negative: the row loss can test the extremum itself instead of
    the existence of a positive or a negative.
  * An infimum (supremum) over the 8192 columns is the infimum (supremum) over the 8 blocks of the infima (suprema) over the 1024 columns
    of each block.
  * A running minimum (maximum) over 8 values, started at `⊤` (`⊥`), ends at their infimum (supremum).
  * A fold of `min` from `⊤` is an infimum, a fold of `max` from `⊥` a supremum, and a fold of "or" on one-bit words from `0` is `1`
    exactly when some word is `1`.
-/
import proofs.«167502_j24584392802985_1_alg».proof.Proof.Margin

noncomputable section

namespace Cert.Margin

open scoped BigOperators

/-! ## Real tables -/

/-- Every entry of the table is a real number. -/
def Finite (P : Fin 8192 → Fin 128 → EReal) : Prop := ∀ r k, ∃ x : ℝ, P r k = (x : EReal)

/-- A finite sum of real numbers is a real number. -/
private theorem sum_real {ι : Type} (s : Finset ι) (f : ι → EReal) (h : ∀ i ∈ s, ∃ x : ℝ, f i = (x : EReal)) :
    ∃ x : ℝ, ∑ i ∈ s, f i = (x : EReal) := by
  classical
  revert h
  refine Finset.induction_on s ?_ ?_
  · intro _
    exact ⟨0, by simp⟩
  · intro a s ha ih h
    obtain ⟨x, hx⟩ := h a (Finset.mem_insert_self a s)
    obtain ⟨z, hz⟩ := ih (fun i hi => h i (Finset.mem_insert_of_mem hi))
    exact ⟨x + z, by rw [Finset.sum_insert ha, hx, hz, EReal.coe_add]⟩

/-- The similarity of two rows of a real table is a real number: a finite sum of products of reals. -/
theorem sim_real {P : Fin 8192 → Fin 128 → EReal} (hP : Finite P) (r c : Fin 8192) : ∃ x : ℝ, sim P r c = (x : EReal) := by
  unfold sim
  apply sum_real
  intro k _
  obtain ⟨a, ha⟩ := hP r k
  obtain ⟨b, hb⟩ := hP c k
  exact ⟨a * b, by rw [ha, hb, EReal.coe_mul]⟩

/-- The least positive similarity is below `⊤` exactly when there is a positive: a term of the infimum is below `⊤` exactly when it is a
similarity, which is real. -/
theorem minPos_lt_top_iff {P : Fin 8192 → Fin 128 → EReal} (hP : Finite P) (y : Fin 8192 → BitVec 32) (r : Fin 8192) :
    minPos P y r < ⊤ ↔ ∃ c, IsPos y r c := by
  unfold minPos
  rw [Finset.inf_lt_iff]
  constructor
  · rintro ⟨c, _, hc⟩
    refine ⟨c, ?_⟩
    by_contra h
    rw [posTerm, if_neg h] at hc
    exact lt_irrefl _ hc
  · rintro ⟨c, hc⟩
    refine ⟨c, Finset.mem_univ c, ?_⟩
    obtain ⟨x, hx⟩ := sim_real hP r c
    rw [posTerm, if_pos hc, hx]
    exact EReal.coe_lt_top x

/-- The greatest negative similarity is above `⊥` exactly when there is a negative. -/
theorem bot_lt_maxNeg_iff {P : Fin 8192 → Fin 128 → EReal} (hP : Finite P) (y : Fin 8192 → BitVec 32) (r : Fin 8192) :
    ⊥ < maxNeg P y r ↔ ∃ c, IsNeg y r c := by
  unfold maxNeg
  rw [Finset.lt_sup_iff]
  constructor
  · rintro ⟨c, _, hc⟩
    refine ⟨c, ?_⟩
    by_contra h
    rw [negTerm, if_neg h] at hc
    exact lt_irrefl _ hc
  · rintro ⟨c, hc⟩
    refine ⟨c, Finset.mem_univ c, ?_⟩
    obtain ⟨x, hx⟩ := sim_real hP r c
    rw [negTerm, if_pos hc, hx]
    exact EReal.bot_lt_coe x

/-- The row loss, with the existence of a positive (negative) tested on the extremum itself; whichever way the two comparisons are
decided. -/
theorem rowLoss_eq_guarded_of_decidable {P : Fin 8192 → Fin 128 → EReal} (hP : Finite P) (y : Fin 8192 → BitVec 32) (r : Fin 8192)
    [Decidable (minPos P y r < ⊤)] [Decidable (⊥ < maxNeg P y r)] :
    max 0 ((if minPos P y r < ⊤ then minPos P y r else 0) + (if ⊥ < maxNeg P y r then maxNeg P y r else 0) + 1) = rowLoss P y r := by
  have h1 : (if minPos P y r < ⊤ then minPos P y r else 0) = (if ∃ c, IsPos y r c then minPos P y r else 0) := by
    by_cases h : ∃ c, IsPos y r c
    · rw [if_pos h, if_pos ((minPos_lt_top_iff hP y r).mpr h)]
    · rw [if_neg h, if_neg (fun h' => h ((minPos_lt_top_iff hP y r).mp h'))]
  have h2 : (if ⊥ < maxNeg P y r then maxNeg P y r else 0) = (if ∃ c, IsNeg y r c then maxNeg P y r else 0) := by
    by_cases h : ∃ c, IsNeg y r c
    · rw [if_pos h, if_pos ((bot_lt_maxNeg_iff hP y r).mpr h)]
    · rw [if_neg h, if_neg (fun h' => h ((bot_lt_maxNeg_iff hP y r).mp h'))]
  rw [h1, h2]
  rfl

/-- The row loss, with the existence of a positive (negative) tested on the extremum itself. -/
theorem rowLoss_eq_guarded {P : Fin 8192 → Fin 128 → EReal} (hP : Finite P) (y : Fin 8192 → BitVec 32) (r : Fin 8192) :
    max 0 ((if minPos P y r < ⊤ then minPos P y r else 0) + (if ⊥ < maxNeg P y r then maxNeg P y r else 0) + 1) = rowLoss P y r :=
  rowLoss_eq_guarded_of_decidable hP y r

/-! ## Folds as lattice operations -/

/-- A fold of `min` started at `⊤` is the infimum. -/
theorem fold_min_eq_inf {ι : Type} (s : Finset ι) (f : ι → EReal) : s.fold min ⊤ f = s.inf f := by
  classical
  refine Finset.induction_on s ?_ ?_
  · rw [Finset.fold_empty, Finset.inf_empty]
  · intro a s ha ih
    rw [Finset.fold_insert ha, Finset.inf_insert, ih]

/-- A fold of `max` started at `⊥` is the supremum. -/
theorem fold_max_eq_sup {ι : Type} (s : Finset ι) (f : ι → EReal) : s.fold max ⊥ f = s.sup f := by
  classical
  refine Finset.induction_on s ?_ ?_
  · rw [Finset.fold_empty, Finset.sup_empty]
  · intro a s ha ih
    rw [Finset.fold_insert ha, Finset.sup_insert, ih]

/-- A one-bit word is `0` or `1`. -/
private theorem bv1_cases (x : BitVec 1) : x = 0#1 ∨ x = 1#1 := by
  have h := x.isLt
  rcases (by omega : x.toNat = 0 ∨ x.toNat = 1) with h0 | h1
  · left
    exact BitVec.eq_of_toNat_eq (by simpa using h0)
  · right
    exact BitVec.eq_of_toNat_eq (by simpa using h1)

/-- The "or" of two one-bit words is `1` exactly when one of them is. -/
private theorem bv1_or_eq_one (x y : BitVec 1) : x ||| y = 1#1 ↔ x = 1#1 ∨ y = 1#1 := by
  rcases bv1_cases x with rfl | rfl <;> rcases bv1_cases y with rfl | rfl <;> decide

/-- A fold of "or" on one-bit words started at `0` is `1` exactly when some word is `1`. -/
theorem fold_or_eq_one_iff {ι : Type} (s : Finset ι) (f : ι → BitVec 1) :
    s.fold (fun x y : BitVec 1 => x ||| y) 0#1 f = 1#1 ↔ ∃ i ∈ s, f i = 1#1 := by
  classical
  refine Finset.induction_on s ?_ ?_
  · rw [Finset.fold_empty]
    constructor
    · intro h
      exact absurd h (by decide)
    · rintro ⟨i, hi, _⟩
      exact absurd hi (Finset.notMem_empty i)
  · intro a s ha ih
    rw [Finset.fold_insert ha, bv1_or_eq_one, ih]
    constructor
    · rintro (h | ⟨i, hi, h⟩)
      · exact ⟨a, Finset.mem_insert_self a s, h⟩
      · exact ⟨i, Finset.mem_insert_of_mem hi, h⟩
    · rintro ⟨i, hi, h⟩
      rcases Finset.mem_insert.mp hi with rfl | hi'
      · exact Or.inl h
      · exact Or.inr ⟨i, hi', h⟩

/-! ## Running extrema over 8 values -/

/-- A running minimum started at ⊤: after step n it has absorbed g 0 … g n. -/
def runMin (g : Fin 8 → EReal) : Nat → EReal
  | 0 => min ⊤ (g 0)
  | n + 1 => min (runMin g n) (g ⟨(n + 1) % 8, Nat.mod_lt _ (by decide)⟩)

/-- The running minimum after step `n` is below each of the values absorbed so far. -/
private theorem runMin_le (g : Fin 8 → EReal) (n : Nat) (hn : n < 8) (i : Fin 8) (hi : i.val ≤ n) : runMin g n ≤ g i := by
  induction n with
  | zero =>
    have : i = 0 := Fin.ext (by simpa using hi)
    rw [this, runMin]
    exact min_le_right _ _
  | succ n ih =>
    rw [runMin]
    by_cases h : i.val ≤ n
    · exact le_trans (min_le_left _ _) (ih (by omega) h)
    · have : (⟨(n + 1) % 8, Nat.mod_lt _ (by decide)⟩ : Fin 8) = i := Fin.ext (by simp only; omega)
      rw [this]
      exact min_le_right _ _

/-- A lower bound of all the values is a lower bound of the running minimum. -/
private theorem le_runMin (g : Fin 8 → EReal) (a : EReal) (h : ∀ i, a ≤ g i) (n : Nat) : a ≤ runMin g n := by
  induction n with
  | zero =>
    rw [runMin]
    exact le_min le_top (h 0)
  | succ n ih =>
    rw [runMin]
    exact le_min ih (h _)

theorem runMin_seven (g : Fin 8 → EReal) : runMin g 7 = Finset.univ.inf g :=
  le_antisymm (Finset.le_inf fun i _ => runMin_le g 7 (by decide) i (by omega))
    (le_runMin g _ (fun i => Finset.inf_le (Finset.mem_univ i)) 7)

/-- The same with the maximum, started at ⊥. -/
def runMax (g : Fin 8 → EReal) : Nat → EReal
  | 0 => max ⊥ (g 0)
  | n + 1 => max (runMax g n) (g ⟨(n + 1) % 8, Nat.mod_lt _ (by decide)⟩)

/-- The running maximum after step `n` is above each of the values absorbed so far. -/
private theorem le_runMax (g : Fin 8 → EReal) (n : Nat) (hn : n < 8) (i : Fin 8) (hi : i.val ≤ n) : g i ≤ runMax g n := by
  induction n with
  | zero =>
    have : i = 0 := Fin.ext (by simpa using hi)
    rw [this, runMax]
    exact le_max_right _ _
  | succ n ih =>
    rw [runMax]
    by_cases h : i.val ≤ n
    · exact le_trans (ih (by omega) h) (le_max_left _ _)
    · have : (⟨(n + 1) % 8, Nat.mod_lt _ (by decide)⟩ : Fin 8) = i := Fin.ext (by simp only; omega)
      rw [this]
      exact le_max_right _ _

/-- An upper bound of all the values is an upper bound of the running maximum. -/
private theorem runMax_le (g : Fin 8 → EReal) (a : EReal) (h : ∀ i, g i ≤ a) (n : Nat) : runMax g n ≤ a := by
  induction n with
  | zero =>
    rw [runMax]
    exact max_le bot_le (h 0)
  | succ n ih =>
    rw [runMax]
    exact max_le ih (h _)

theorem runMax_seven (g : Fin 8 → EReal) : runMax g 7 = Finset.univ.sup g :=
  le_antisymm (runMax_le g _ (fun i => Finset.le_sup (Finset.mem_univ i)) 7)
    (Finset.sup_le fun i _ => le_runMax g 7 (by decide) i (by omega))

/-! ## Blocks of columns -/

/-- Column 1024·j + k: column k of the j-th block of 1024 columns. -/
def col (j : Fin 8) (k : Fin 1024) : Fin 8192 := ⟨1024 * j.val + k.val, by omega⟩

/-- Every column is column `c % 1024` of block `c / 1024`. -/
private theorem col_div_mod (c : Fin 8192) :
    col ⟨c.val / 1024, by omega⟩ ⟨c.val % 1024, Nat.mod_lt _ (by decide)⟩ = c := by
  apply Fin.ext
  simp only [col]
  omega

theorem inf_blocks (f : Fin 8192 → EReal) :
    (Finset.univ.inf fun j : Fin 8 => Finset.univ.inf fun k : Fin 1024 => f (col j k)) = Finset.univ.inf f := by
  apply le_antisymm
  · apply Finset.le_inf
    intro c _
    have h1 : (Finset.univ.inf fun j : Fin 8 => Finset.univ.inf fun k : Fin 1024 => f (col j k))
        ≤ Finset.univ.inf fun k : Fin 1024 => f (col ⟨c.val / 1024, by omega⟩ k) :=
      Finset.inf_le (f := fun j : Fin 8 => Finset.univ.inf fun k : Fin 1024 => f (col j k)) (Finset.mem_univ _)
    have h2 : (Finset.univ.inf fun k : Fin 1024 => f (col ⟨c.val / 1024, by omega⟩ k))
        ≤ f (col ⟨c.val / 1024, by omega⟩ ⟨c.val % 1024, Nat.mod_lt _ (by decide)⟩) :=
      Finset.inf_le (f := fun k : Fin 1024 => f (col ⟨c.val / 1024, by omega⟩ k)) (Finset.mem_univ _)
    rw [col_div_mod c] at h2
    exact le_trans h1 h2
  · apply Finset.le_inf
    intro j _
    apply Finset.le_inf
    intro k _
    exact Finset.inf_le (Finset.mem_univ _)

theorem sup_blocks (f : Fin 8192 → EReal) :
    (Finset.univ.sup fun j : Fin 8 => Finset.univ.sup fun k : Fin 1024 => f (col j k)) = Finset.univ.sup f := by
  apply le_antisymm
  · apply Finset.sup_le
    intro j _
    apply Finset.sup_le
    intro k _
    exact Finset.le_sup (Finset.mem_univ _)
  · apply Finset.sup_le
    intro c _
    have h1 : (Finset.univ.sup fun k : Fin 1024 => f (col ⟨c.val / 1024, by omega⟩ k))
        ≤ Finset.univ.sup fun j : Fin 8 => Finset.univ.sup fun k : Fin 1024 => f (col j k) :=
      Finset.le_sup (f := fun j : Fin 8 => Finset.univ.sup fun k : Fin 1024 => f (col j k)) (Finset.mem_univ _)
    have h2 : f (col ⟨c.val / 1024, by omega⟩ ⟨c.val % 1024, Nat.mod_lt _ (by decide)⟩)
        ≤ Finset.univ.sup fun k : Fin 1024 => f (col ⟨c.val / 1024, by omega⟩ k) :=
      Finset.le_sup (f := fun k : Fin 1024 => f (col ⟨c.val / 1024, by omega⟩ k)) (Finset.mem_univ _)
    rw [col_div_mod c] at h2
    exact le_trans h2 h1

end Cert.Margin

end
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.KernelIdealPieces.lean ====
/-
  What each case of the kernel body leaves in the buffers it writes, as the body's arithmetic, and that arithmetic read at one row.

  Part 1, for every float instance: each store of the body writes a whole column and each load reads a whole buffer, so the contents a
  case leaves in a buffer are the payload of its last store there. The running minimum column is left at the elementwise minimum of what
  it held (the reset column, in the first case) and the block's row minima over the positives; the running maximum column likewise with
  the row maxima over the negatives; the last case also leaves the block of losses computed from the two columns it has just updated.

  Part 2, over the extended reals: each of those payloads at row r. The updates are min and max; the reset columns are the top and the
  bottom element; the block's row minimum over the positives is the infimum over the block's 1024 columns k of the inner product of row
  r of the first table block and row k of the second where the two rows carry the same label and are different rows of the whole table
  (global row numbers 1024·i + r and 1024·j + k), and the top element elsewhere; the row maximum over the negatives is the supremum of
  the inner product where the labels differ and the bottom element elsewhere; the loss is max 0 (a + b + 1) with a column's value
  replaced by 0 where it is still at its reset value.
-/
import proofs.«167502_j24584392802985_1_alg».proof.Proof.KernelIdealData
import proofs.«167502_j24584392802985_1_alg».proof.Proof.MarginLaws
import proofs.«167502_j24584392802985_1_alg».proof.Proof.LibKeepdims
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws
import Idealize.ShloMosaic.PureOps.IdealRules

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

/-- The offsets of a load or store of a whole column or tile: zero on both axes. -/
theorem hz2 : (![0, 0] : Fin 2 → Nat) = fun _ => 0 := funext fun a => by fin_cases a <;> rfl

section Region
-- the TensorCore's buffer contents when the region is entered
variable (V : (c : Dev nD) → (b : Ref sig .tc) → Buf (Elt F) ((c : Thread nD τ).loc b))

/-! ## What each case leaves, as the body's arithmetic

Every store of the body writes a whole column and every load reads a whole buffer, so what a case leaves in a buffer is the
payload of its last store there, with each loaded value replaced by what the buffer held at that moment. -/

/-- The first case leaves in the minimum column the update of the reset column (the top element everywhere) by the block's row minima. -/
theorem s7First_eq (c : Dev nD) (t : Fin cfg0.N) (h0) (h1) :
    s7First V c t h0 h1 = k0_pay1 (F := F) (k0_pay8 (grid0.coords t) (iblk V c 0 t) (iblk V c 1 t) (iblk V c 2 t) (iblk V c 3 t)) (k0_pay4 (F := F)) := by
  unfold s7First
  rw [View.read_writes_eq_canon _ _ _ (cov7First V c t h0 h1)]
  unfold firstAt runFirst
  dsimp only
  sl_unfold_words
  rw [View.canon_cons_unit_zero (S := S1024x1) hz2, View.readCov_unit_zero (S := S1024x1) _ hz2]
  simp only [View.readAt_eq_ld, Memref.IsWhole.read_unread, View.ld_unit_zero (S := S1024x128) hz2, View.ld_unit_zero (S := S1024x1) hz2, View.ld_unit_zero (S := S1x1024) hz2]

/-- The first case leaves in the maximum column the update of the reset column (the bottom element everywhere) by the block's row maxima. -/
theorem s8First_eq (c : Dev nD) (t : Fin cfg0.N) (h0) (h1) :
    s8First V c t h0 h1 = k0_pay2 (F := F) (k0_pay9 (iblk V c 0 t) (iblk V c 1 t) (iblk V c 2 t) (iblk V c 3 t)) (k0_pay5 (F := F)) := by
  unfold s8First
  rw [View.read_writes_eq_canon _ _ _ (cov8First V c t h0 h1)]
  unfold firstAt runFirst
  dsimp only
  sl_unfold_words
  rw [View.canon_cons_unit_zero (S := S1024x1) hz2, View.readCov_unit_zero (S := S1024x1) _ hz2]
  simp only [View.readAt_eq_ld, Memref.IsWhole.read_unread, View.ld_unit_zero (S := S1024x128) hz2, View.ld_unit_zero (S := S1024x1) hz2, View.ld_unit_zero (S := S1x1024) hz2]

/-- A middle case leaves in the minimum column its contents updated by the block's row minima. -/
theorem s7Mid_eq (c : Dev nD) (t : Fin cfg0.N) (h0) (h1) (s7 s8 : Vec F S1024x1 .f32) :
    s7Mid V c t h0 h1 s7 s8 = k0_pay1 (F := F) (k0_pay8 (grid0.coords t) (iblk V c 0 t) (iblk V c 1 t) (iblk V c 2 t) (iblk V c 3 t)) s7 := by
  unfold s7Mid
  rw [View.read_writes_eq_canon _ _ _ (cov7Mid V c t h0 h1 s7 s8)]
  unfold midAt runMid
  dsimp only
  sl_unfold_words
  rw [View.canon_unit_zero hz2]
  simp only [View.readAt_eq_ld, Memref.IsWhole.read_unread, View.ld_unit_zero (S := S1024x128) hz2, View.ld_unit_zero (S := S1024x1) hz2, View.ld_unit_zero (S := S1x1024) hz2]
  exact congrArg (k0_pay1 (F := F) _) (Memref.IsWhole.read_unread (Memref.isWhole_whole cc0_scratch0) s7)

/-- A middle case leaves in the maximum column its contents updated by the block's row maxima. -/
theorem s8Mid_eq (c : Dev nD) (t : Fin cfg0.N) (h0) (h1) (s7 s8 : Vec F S1024x1 .f32) :
    s8Mid V c t h0 h1 s7 s8 = k0_pay2 (F := F) (k0_pay9 (iblk V c 0 t) (iblk V c 1 t) (iblk V c 2 t) (iblk V c 3 t)) s8 := by
  unfold s8Mid
  rw [View.read_writes_eq_canon _ _ _ (cov8Mid V c t h0 h1 s7 s8)]
  unfold midAt runMid
  dsimp only
  sl_unfold_words
  rw [View.canon_unit_zero hz2]
  simp only [View.readAt_eq_ld, Memref.IsWhole.read_unread, View.ld_unit_zero (S := S1024x128) hz2, View.ld_unit_zero (S := S1024x1) hz2, View.ld_unit_zero (S := S1x1024) hz2]
  exact congrArg (k0_pay2 (F := F) _) (Memref.IsWhole.read_unread (Memref.isWhole_whole cc0_scratch1) s8)

/-- The last case updates the minimum column as a middle case does. -/
theorem s7Last_eq (c : Dev nD) (t : Fin cfg0.N) (h0) (h1) (s7 s8 : Vec F S1024x1 .f32) :
    s7Last V c t h0 h1 s7 s8 = k0_pay1 (F := F) (k0_pay8 (grid0.coords t) (iblk V c 0 t) (iblk V c 1 t) (iblk V c 2 t) (iblk V c 3 t)) s7 := by
  unfold s7Last
  rw [View.read_writes_eq_canon _ _ _ (cov7Last V c t h0 h1 s7 s8)]
  unfold lastAt runLast
  dsimp only
  sl_unfold_words
  rw [View.canon_unit_zero hz2]
  simp only [View.readAt_eq_ld, Memref.IsWhole.read_unread, View.ld_unit_zero (S := S1024x128) hz2, View.ld_unit_zero (S := S1024x1) hz2, View.ld_unit_zero (S := S1x1024) hz2]
  exact congrArg (k0_pay1 (F := F) _) (Memref.IsWhole.read_unread (Memref.isWhole_whole cc0_scratch0) s7)

/-- The last case updates the maximum column as a middle case does. -/
theorem s8Last_eq (c : Dev nD) (t : Fin cfg0.N) (h0) (h1) (s7 s8 : Vec F S1024x1 .f32) :
    s8Last V c t h0 h1 s7 s8 = k0_pay2 (F := F) (k0_pay9 (iblk V c 0 t) (iblk V c 1 t) (iblk V c 2 t) (iblk V c 3 t)) s8 := by
  unfold s8Last
  rw [View.read_writes_eq_canon _ _ _ (cov8Last V c t h0 h1 s7 s8)]
  unfold lastAt runLast
  dsimp only
  sl_unfold_words
  rw [View.canon_unit_zero hz2]
  simp only [View.readAt_eq_ld, Memref.IsWhole.read_unread, View.ld_unit_zero (S := S1024x128) hz2, View.ld_unit_zero (S := S1024x1) hz2, View.ld_unit_zero (S := S1x1024) hz2]
  exact congrArg (k0_pay2 (F := F) _) (Memref.IsWhole.read_unread (Memref.isWhole_whole cc0_scratch1) s8)

/-- The last case leaves in the result's block the losses computed from the two columns it has just updated. -/
theorem o6Last_eq (c : Dev nD) (t : Fin cfg0.N) (h0) (h1) (s7 s8 : Vec F S1024x1 .f32) :
    o6Last V c t h0 h1 s7 s8 = k0_pay3 (F := F) (k0_pay1 (F := F) (k0_pay8 (grid0.coords t) (iblk V c 0 t) (iblk V c 1 t) (iblk V c 2 t) (iblk V c 3 t)) s7) (k0_pay1 (F := F) (k0_pay8 (grid0.coords t) (iblk V c 0 t) (iblk V c 1 t) (iblk V c 2 t) (iblk V c 3 t)) s7) (k0_pay2 (F := F) (k0_pay9 (iblk V c 0 t) (iblk V c 1 t) (iblk V c 2 t) (iblk V c 3 t)) s8) (k0_pay2 (F := F) (k0_pay9 (iblk V c 0 t) (iblk V c 1 t) (iblk V c 2 t) (iblk V c 3 t)) s8) := by
  unfold o6Last
  rw [View.read_writes_eq_canon _ _ _ (cov6Last V c t h0 h1 s7 s8)]
  unfold lastAt runLast
  dsimp only
  sl_unfold_words
  rw [View.canon_unit_zero hz2, View.readCov_unit_zero (S := S1024x1) _ hz2, View.readCov_unit_zero (S := S1024x1) _ hz2]
  simp only [View.readAt_eq_ld, Memref.IsWhole.read_unread, View.ld_unit_zero (S := S1024x128) hz2, View.ld_unit_zero (S := S1024x1) hz2, View.ld_unit_zero (S := S1x1024) hz2]
  exact congrArg₂ (fun a b => k0_pay3 (F := F) a a b b)
    (congrArg (k0_pay1 (F := F) _) (Memref.IsWhole.read_unread (Memref.isWhole_whole cc0_scratch0) s7))
    (congrArg (k0_pay2 (F := F) _) (Memref.IsWhole.read_unread (Memref.isWhole_whole cc0_scratch1) s8))

end Region

open Idealize.ShloMosaic.ValueIdx
open scoped BigOperators

/-! ## The payloads at a row, over the extended reals -/

/-- The four named constants are the top and the bottom element. -/
theorem named_pos_big : Named.named (F := Ideal) κ "pos_big" (φ := .f32) 0x7149F2CA#32 = (⊤ : EReal) :=
  IdealRules.named_const.ideal_named_scalar _ _ _ _ rfl
theorem named_neg_big : Named.named (F := Ideal) κ "neg_big" (φ := .f32) 0xF149F2CA#32 = (⊥ : EReal) :=
  IdealRules.named_const.ideal_named_scalar _ _ _ _ rfl
theorem named_pos_big_2 : Named.named (F := Ideal) κ "pos_big_2" (φ := .f32) 0x7147EDCD#32 = (⊤ : EReal) :=
  IdealRules.named_const.ideal_named_scalar _ _ _ _ rfl
theorem named_neg_big_2 : Named.named (F := Ideal) κ "neg_big_2" (φ := .f32) 0xF147EDCD#32 = (⊥ : EReal) :=
  IdealRules.named_const.ideal_named_scalar _ _ _ _ rfl

/-- The pattern of 1.0 denotes 1. -/
theorem ofBits_one_f32 : Ideal.ofBits .f32 0x3F800000#32 = 1 := by
  simp [Ideal.ofBits, Ideal.ieee, -EReal.coe_mul]; norm_num

/-- A select on "x < y" is the if-then-else on it; likewise on "y < x". -/
theorem select_olt (x y a b : EReal) : Scalar.select (Ideal.cmp .olt x y) a b = if x < y then a else b := by
  unfold Ideal.cmp Scalar.select
  by_cases h : x < y <;> simp [h]
theorem select_ogt (x y a b : EReal) : Scalar.select (Ideal.cmp .ogt x y) a b = if y < x then a else b := by
  unfold Ideal.cmp Scalar.select
  by_cases h : y < x <;> simp [h]

/-- The running minimum's update at row r: the minimum of the column and the block's row minimum. -/
theorem pay1_apply (v30 v35 : Vec Ideal S1024x1 .f32) (r : Fin 1024) :
    k0_pay1 (F := Ideal) v30 v35 (ix2 r 0) = min (v35 (ix2 r 0)) (v30 (ix2 r 0)) :=
  (congrFun (shapeCast_self (minimumf (F := Ideal) v35 v30) shapeCasts_S1024x1_S1024x1) (ix2 r 0)).trans rfl

/-- The running maximum's update at row r. -/
theorem pay2_apply (v34 v40 : Vec Ideal S1024x1 .f32) (r : Fin 1024) :
    k0_pay2 (F := Ideal) v34 v40 (ix2 r 0) = max (v40 (ix2 r 0)) (v34 (ix2 r 0)) :=
  (congrFun (shapeCast_self (maximumf (F := Ideal) v40 v34) shapeCasts_S1024x1_S1024x1) (ix2 r 0)).trans rfl

/-- The minimum column's reset value: the top element. -/
theorem pay4_apply (r : Fin 1024) : k0_pay4 (F := Ideal) (ix2 r 0) = ⊤ :=
  (congrFun (shapeCast_self (broadcast S1024x1 (Named.named (F := Ideal) κ "pos_big" (φ := .f32) 0x7149F2CA#32)) shapeCasts_S1024x1_S1024x1) (ix2 r 0)).trans named_pos_big

/-- The maximum column's reset value: the bottom element. -/
theorem pay5_apply (r : Fin 1024) : k0_pay5 (F := Ideal) (ix2 r 0) = ⊥ :=
  (congrFun (shapeCast_self (broadcast S1024x1 (Named.named (F := Ideal) κ "neg_big" (φ := .f32) 0xF149F2CA#32)) shapeCasts_S1024x1_S1024x1) (ix2 r 0)).trans named_neg_big

/-- The loss at row r from the two columns: a column still at its reset value counts as 0. -/
theorem pay3_apply (a7 a8 : Vec Ideal S1024x1 .f32) (r : Fin 1024) :
    k0_pay3 (F := Ideal) a7 a7 a8 a8 (ix2 r 0)
      = max 0 ((if a7 (ix2 r 0) < ⊤ then a7 (ix2 r 0) else 0) + (if ⊥ < a8 (ix2 r 0) then a8 (ix2 r 0) else 0) + 1) := by
  have e : k0_pay3 (F := Ideal) a7 a7 a8 a8 (ix2 r 0)
      = max (Ideal.ofBits .f32 0x00000000#32)
          ((Scalar.select (Ideal.cmp .olt (a7 (ix2 r 0)) (Named.named (F := Ideal) κ "pos_big_2" (φ := .f32) 0x7147EDCD#32)) (a7 (ix2 r 0)) (Ideal.ofBits .f32 0x00000000#32)
            + Scalar.select (Ideal.cmp .ogt (a8 (ix2 r 0)) (Named.named (F := Ideal) κ "neg_big_2" (φ := .f32) 0xF147EDCD#32)) (a8 (ix2 r 0)) (Ideal.ofBits .f32 0x00000000#32))
            + Ideal.ofBits .f32 0x3F800000#32) := rfl
  rw [e, named_pos_big_2, named_neg_big_2, Ideal.ofBits_zero_f32, ofBits_one_f32, select_olt, select_ogt]

/-! ### Words -/

/-- An integer equality test is the one-bit word 1 exactly when its operands are equal. -/
theorem cmpi_eq_one_iff {w : Nat} (x y : BitVec w) : IntOp.cmpi .eq x y = 1#1 ↔ x = y := by
  unfold IntOp.cmpi
  by_cases h : x = y
  · subst h; simp
  · have hb : (x == y) = false := by simpa using h
    simp [hb, h]

/-- On one-bit words: the exclusive or with 1 is 1 exactly off 1, and a conjunction is 1 exactly when both are. -/
theorem xori_one_eq_one_iff (c : BitVec 1) : IntOp.xori c 1#1 = 1#1 ↔ ¬c = 1#1 := by
  revert c; decide
theorem andi_eq_one_iff (a b : BitVec 1) : IntOp.andi a b = 1#1 ↔ a = 1#1 ∧ b = 1#1 := by
  revert a b; decide

/-- A select on a one-bit word that is 1 exactly when P holds is the if-then-else on P. -/
theorem select_of_iff {α : Type} (c : BitVec 1) (P : Prop) [Decidable P] (h : c = 1#1 ↔ P) (a b : α) :
    Scalar.select c a b = if P then a else b := by
  by_cases hP : P
  · rw [h.mpr hP, if_pos hP]; exact select_one a b
  · rw [eq_zero_of_ne_one (fun hc => hP (h.mp hc)), if_neg hP]; exact select_zero a b

/-- A global row number below 8192 as a 32-bit word: the local row plus 1024 times the block number, computed on words. -/
theorem rowWord (m : Nat) (hm : m < 8) (r : Fin 1024) :
    IntOp.addi (BitVec.ofNat 32 r.val) (Scalar.muli (BitVec.ofNat 32 m) 1024#32) = BitVec.ofNat 32 (1024 * m + r.val) := by
  have hr := r.isLt
  unfold IntOp.addi Scalar.muli IntOp.muli
  apply BitVec.eq_of_toNat_eq
  simp only [BitVec.toNat_add, BitVec.toNat_mul, BitVec.toNat_ofNat]
  omega

/-- Two global row numbers below 8192 are equal as 32-bit words exactly when they are equal. -/
theorem diagWord_iff (m n : Nat) (hm : m < 8) (hn : n < 8) (r k : Fin 1024) :
    IntOp.cmpi .eq (IntOp.addi (BitVec.ofNat 32 r.val) (Scalar.muli (BitVec.ofNat 32 m) 1024#32))
        (IntOp.addi (BitVec.ofNat 32 k.val) (Scalar.muli (BitVec.ofNat 32 n) 1024#32)) = 1#1
      ↔ 1024 * m + r.val = 1024 * n + k.val := by
  have hr := r.isLt
  have hk := k.isLt
  rw [rowWord m hm r, rowWord n hn k, cmpi_eq_one_iff]
  constructor
  · intro h
    have h' := congrArg BitVec.toNat h
    simp only [BitVec.toNat_ofNat] at h'
    omega
  · intro h; rw [h]

/-! ### The label-equality tile and the similarity tile at (r, k) -/

/-- The label-equality tile at (r, k): the test of row r's label against column k's. -/
theorem pay7_apply (x4 : Vec Ideal S1024x1 .i32) (x5 : Vec Ideal S1x1024 .i32) (r k : Fin 1024) :
    k0_pay7 (F := Ideal) x4 x5 (ix2 r k) = IntOp.cmpi .eq (x4 (ix2 r 0)) (x5 (ix2 0 k)) := by
  have e1 : broadcastTo S1024x1024 (shapeCast S1024x1 x4 shapeCasts_S1024x1_S1024x1) broadcasts_S1024x1_S1024x1024 (ix2 r k) = x4 (ix2 r 0) :=
    (Keepdims.broadcastTo_a1_ab_apply _ _ r k).trans (congrFun (shapeCast_self x4 _) _)
  have e2 : broadcastTo S1024x1024 (shapeCast S1x1024 x5 shapeCasts_S1x1024_S1x1024) broadcasts_S1x1024_S1024x1024 (ix2 r k) = x5 (ix2 0 k) :=
    (broadcastTo_1b_ab_apply _ _ r k).trans (congrFun (shapeCast_self x5 _) _)
  exact congrArg₂ (IntOp.cmpi .eq) e1 e2

theorem pay7_eq_one_iff (x4 : Vec Ideal S1024x1 .i32) (x5 : Vec Ideal S1x1024 .i32) (r k : Fin 1024) :
    k0_pay7 (F := Ideal) x4 x5 (ix2 r k) = 1#1 ↔ x4 (ix2 r 0) = x5 (ix2 0 k) := by
  rw [pay7_apply, cmpi_eq_one_iff]

/-- The matmul's left operand index at (j, q): row j₀, lane q. -/
theorem dotL0 (j : S1024x1024.Idx) (q : dot_S1024x128_S1024x128_S1024x1024_1_1_0_0_n_n.contr.Idx) : (dot_S1024x128_S1024x128_S1024x1024_1_1_0_0_n_n.lhsIdx j q 0).val = (j 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
/-- The matmul's right operand index at (j, q): row j₁, lane q. -/
theorem dotR0 (j : S1024x1024.Idx) (q : dot_S1024x128_S1024x128_S1024x1024_1_1_0_0_n_n.contr.Idx) : (dot_S1024x128_S1024x128_S1024x1024_1_1_0_0_n_n.rhsIdx j q 0).val = (j 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl

/-- The similarity tile at (r, k): the inner product of row r of the first block and row k of the second. -/
theorem pay6_apply (x2 x3 : Vec Ideal S1024x128 .f32) (r k : Fin 1024) :
    k0_pay6 (F := Ideal) x2 x3 (ix2 r k) = ∑ d : Fin 128, x2 (ix2 r d) * x3 (ix2 k d) := by
  unfold k0_pay6
  refine (Ideal.matmul_constant_zero_apply dot_S1024x128_S1024x128_S1024x1024_1_1_0_0_n_n none _ _ (ix2 r k)).trans ?_
  rw [← Equiv.sum_comp (contrEquiv1 dot_S1024x128_S1024x128_S1024x1024_1_1_0_0_n_n 128 rfl rfl).symm]
  refine Finset.sum_congr rfl fun d _ => ?_
  have hd := contrEquiv1_symm_val dot_S1024x128_S1024x128_S1024x1024_1_1_0_0_n_n 128 rfl rfl d
  have el : dot_S1024x128_S1024x128_S1024x1024_1_1_0_0_n_n.lhsIdx (ix2 r k) ((contrEquiv1 dot_S1024x128_S1024x128_S1024x1024_1_1_0_0_n_n 128 rfl rfl).symm d) = ix2 r d := funext fun a => Fin.ext (by
    match a with
    | ⟨0, _⟩ => exact dotL0 _ _
    | ⟨1, _⟩ => exact (dot_S1024x128_S1024x128_S1024x1024_1_1_0_0_n_n.lhsIdx_val_of_single rfl _ _).trans hd)
  have er : dot_S1024x128_S1024x128_S1024x1024_1_1_0_0_n_n.rhsIdx (ix2 r k) ((contrEquiv1 dot_S1024x128_S1024x128_S1024x1024_1_1_0_0_n_n 128 rfl rfl).symm d) = ix2 k d := funext fun a => Fin.ext (by
    match a with
    | ⟨0, _⟩ => exact dotR0 _ _
    | ⟨1, _⟩ => exact (dot_S1024x128_S1024x128_S1024x1024_1_1_0_0_n_n.rhsIdx_val_of_single rfl _ _).trans hd)
  rw [el, er]
  rfl

/-! ### The row reductions -/

/-- A minimum reduction over one axis, over the extended reals: the fold of min from the accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The patterns of the two infinities denote the top and the bottom element. -/
theorem ofBits_posInf_f32 : Ideal.ofBits .f32 0x7F800000#32 = ⊤ := by simp [Ideal.ofBits, Ideal.ieee]
theorem ofBits_negInf_f32 : Ideal.ofBits .f32 0xFF800000#32 = ⊥ := by simp [Ideal.ofBits, Ideal.ieee]

/-- The minimum over the columns of a 1024 × 1024 tile, at row r, is the infimum over the columns k of the entry (r, k). -/
theorem rowMin_apply (v : FVec Ideal S1024x1024 .f32) (r : Fin 1024) :
    multiReduction .minimumf [1] S1024 v 0x7F800000#32 reduces_S1024x1024_S1024 (.inl rfl) rfl (ix1 r)
      = Finset.univ.inf fun k : Fin 1024 => v (ix2 r k) := by
  refine (multiReduction_minimumf_single v 0x7F800000#32 reduces_S1024x1024_S1024 (.inl rfl) rfl (ix1 r)).trans ?_
  refine (congrArg (fun z => (Finset.univ : Finset (Fin 1024)).fold min z (v ∘ reduces_S1024x1024_S1024.lift (ix1 r))) ofBits_posInf_f32).trans ?_
  refine (Cert.Margin.fold_min_eq_inf _ _).trans ?_
  refine Finset.inf_congr rfl fun k _ => congrArg v (funext fun d => Fin.ext ?_)
  match d with
  | ⟨0, _⟩ => rfl
  | ⟨1, _⟩ => rfl

/-- The maximum over the columns of a 1024 × 1024 tile, at row r, is the supremum over the columns k of the entry (r, k). -/
theorem rowMax_apply (v : FVec Ideal S1024x1024 .f32) (r : Fin 1024) :
    multiReduction .maximumf [1] S1024 v 0xFF800000#32 reduces_S1024x1024_S1024 (.inl rfl) rfl (ix1 r)
      = Finset.univ.sup fun k : Fin 1024 => v (ix2 r k) := by
  refine (Ideal.multiReduction_maximumf_single v 0xFF800000#32 reduces_S1024x1024_S1024 (.inl rfl) rfl (ix1 r)).trans ?_
  refine (congrArg (fun z => (Finset.univ : Finset (Fin 1024)).fold max z (v ∘ reduces_S1024x1024_S1024.lift (ix1 r))) ofBits_negInf_f32).trans ?_
  refine (Cert.Margin.fold_max_eq_sup _ _).trans ?_
  refine Finset.sup_congr rfl fun k _ => congrArg v (funext fun d => Fin.ext ?_)
  match d with
  | ⟨0, _⟩ => rfl
  | ⟨1, _⟩ => rfl

/-! ### The block's row minimum over the positives and row maximum over the negatives -/

/-- The block's row minimum over the positives at row r: over the block's columns k, the inner product of row r of the first table
    block and row k of the second where the two rows carry the same label and are different rows of the whole table, the top element
    elsewhere. -/
theorem pay8_apply (i : grid0.Coords) (x2 x3 : Vec Ideal S1024x128 .f32) (x4 : Vec Ideal S1024x1 .i32) (x5 : Vec Ideal S1x1024 .i32) (r : Fin 1024) :
    k0_pay8 (F := Ideal) i x2 x3 x4 x5 (ix2 r 0)
      = Finset.univ.inf fun k : Fin 1024 => if x4 (ix2 r 0) = x5 (ix2 0 k) ∧ 1024 * (i 0).val + r.val ≠ 1024 * (i 1).val + k.val then ∑ d : Fin 128, x2 (ix2 r d) * x3 (ix2 k d) else ⊤ := by
  have h0 : (i 0).val < 8 := (i 0).isLt
  have h1 : (i 1).val < 8 := (i 1).isLt
  unfold k0_pay8
  refine (Keepdims.shapeCast_a_a1_apply _ shapeCasts_S1024_S1024x1 r 0).trans ?_
  refine (rowMin_apply _ r).trans ?_
  refine Finset.inf_congr rfl fun k _ => ?_
  refine (select_apply _ _ _ _).trans ?_
  refine (select_of_iff _ (x4 (ix2 r 0) = x5 (ix2 0 k) ∧ 1024 * (i 0).val + r.val ≠ 1024 * (i 1).val + k.val) ?_ _ _).trans ?_
  · refine (andi_eq_one_iff _ _).trans (and_congr (pay7_eq_one_iff x4 x5 r k) ?_)
    refine (xori_one_eq_one_iff _).trans (not_congr ?_)
    have ei0 : iota .tc S1024x1024 32 [0] iota_S1024x1024_d0_w32 (ix2 r k) = BitVec.ofNat 32 r.val := iota_single_apply _ _ _ _ _ _
    have ei1 : iota .tc S1024x1024 32 [1] iota_S1024x1024_d1_w32 (ix2 r k) = BitVec.ofNat 32 k.val := iota_single_apply _ _ _ _ _ _
    show IntOp.cmpi .eq (IntOp.addi (iota .tc S1024x1024 32 [0] iota_S1024x1024_d0_w32 (ix2 r k)) (Scalar.muli (BitVec.ofNat 32 (i 0).val) 1024#32))
      (IntOp.addi (iota .tc S1024x1024 32 [1] iota_S1024x1024_d1_w32 (ix2 r k)) (Scalar.muli (BitVec.ofNat 32 (i 1).val) 1024#32)) = 1#1 ↔ _
    rw [ei0, ei1]
    exact diagWord_iff _ _ h0 h1 r k
  · exact if_congr Iff.rfl (pay6_apply x2 x3 r k) named_pos_big

/-- The block's row maximum over the negatives at row r: over the block's columns k, the inner product where the two rows carry
    different labels, the bottom element elsewhere. -/
theorem pay9_apply (x2 x3 : Vec Ideal S1024x128 .f32) (x4 : Vec Ideal S1024x1 .i32) (x5 : Vec Ideal S1x1024 .i32) (r : Fin 1024) :
    k0_pay9 (F := Ideal) x2 x3 x4 x5 (ix2 r 0)
      = Finset.univ.sup fun k : Fin 1024 => if x4 (ix2 r 0) ≠ x5 (ix2 0 k) then ∑ d : Fin 128, x2 (ix2 r d) * x3 (ix2 k d) else ⊥ := by
  unfold k0_pay9
  refine (Keepdims.shapeCast_a_a1_apply _ shapeCasts_S1024_S1024x1 r 0).trans ?_
  refine (rowMax_apply _ r).trans ?_
  refine Finset.sup_congr rfl fun k _ => ?_
  refine (select_apply _ _ _ _).trans ?_
  refine (select_of_iff _ (x4 (ix2 r 0) ≠ x5 (ix2 0 k)) ?_ _ _).trans ?_
  · exact (xori_one_eq_one_iff _).trans (not_congr (pay7_eq_one_iff x4 x5 r k))
  · exact if_congr Iff.rfl (pay6_apply x2 x3 r k) named_neg_big

end Cert.KernelIdeal.Hand

end
-- ==== Proof.KernelIdealValue.lean ====
/-
  The kernel's result array is the vector of row losses.

  Point t = 8·i + j of the 8 × 8 grid holds the i-th block of 1024 rows of the table and of the labels against the j-th block. Read off
  the arrays, the block's row minimum over the positives at row r is the infimum, over the 1024 columns of block j, of the similarity of
  row 1024·i + r to the column where the column is a positive and of ⊤ where it is not; likewise the row maximum over the negatives.
  Along the i-th row of the grid the two running columns therefore hold, after position j, the running minimum (from ⊤) and the running
  maximum (from ⊥) of these block extrema over blocks 0 … j; after position 7 they hold the infimum and the supremum over all 8192
  columns, the least similarity to a positive and the greatest similarity to a negative. The last point of the row of the grid turns the
  two columns into the block of losses, testing each extremum against ⊤ (⊥) where the specification tests the existence of a positive
  (a negative): on a table of real numbers the two tests agree. The eight blocks of losses written back tile the result array.
-/
import proofs.«167502_j24584392802985_1_alg».proof.Proof.KernelIdealPieces
import proofs.«167502_j24584392802985_1_alg».proof.Proof.MarginLaws
import Idealize.ShloMosaic.Lib.Pipeline.Value
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Idealize.ShloMosaic.ValueIdx
open Cert.KernelIdeal Cert.KernelIdeal.Gen
open scoped BigOperators

/-! ## The printed index maps over the grid -/

/-- Point t = 8 i + j: the windows of the i-th blocks sit at block i, those of the j-th blocks at block j. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0 :=
  (by decide +kernel : ∀ t : Fin grid0.N, _)

theorem coords_facts : ∀ t : Fin cfg0.N, (grid0.coords t 0).val = t.val / 8 ∧ (grid0.coords t 1).val = t.val % 8 :=
  (by decide +kernel : ∀ t : Fin grid0.N, _)

section Region
variable {F : FTy → Type} [FloatOps F] [Named F]
variable (V : (c : Dev nD) → (b : Ref sig .tc) → Buf (Elt F) ((c : Thread nD τ).loc b))

/-! ## The windows' blocks as entries of the arrays -/

theorem iblk0_apply (c : Dev nD) (t : Fin cfg0.N) (r : Fin 1024) (d : Fin 128) (h : 1024 * (t.val / 8) + r.val < 8192) :
    (iblk V c 0 t : S1024x128.Idx → Elt F .f32) (ix2 r d) = (V c main_arg0 : S8192x128.Idx → Elt F .f32) (ix2 ⟨1024 * (t.val / 8) + r.val, h⟩ d) := by
  obtain ⟨e0, e1, -⟩ := idx_facts t
  unfold iblk
  rw [View.read_apply]
  show V c main_arg0 _ = V c main_arg0 _
  congr 1
  funext a
  apply Fin.ext
  match a with
  | ⟨0, _⟩ => show win0_0.index t (0 : Fin 2) * 1024 + 1 * r.val = 1024 * (t.val / 8) + r.val; rw [e0]; omega
  | ⟨1, _⟩ => show win0_0.index t (1 : Fin 2) * 128 + 1 * d.val = d.val; rw [e1]; omega

theorem iblk1_apply (c : Dev nD) (t : Fin cfg0.N) (k : Fin 1024) (d : Fin 128) (h : 1024 * (t.val % 8) + k.val < 8192) :
    (iblk V c 1 t : S1024x128.Idx → Elt F .f32) (ix2 k d) = (V c main_arg0 : S8192x128.Idx → Elt F .f32) (ix2 ⟨1024 * (t.val % 8) + k.val, h⟩ d) := by
  obtain ⟨-, -, e0, e1, -⟩ := idx_facts t
  unfold iblk
  rw [View.read_apply]
  show V c main_arg0 _ = V c main_arg0 _
  congr 1
  funext a
  apply Fin.ext
  match a with
  | ⟨0, _⟩ => show win0_1.index t (0 : Fin 2) * 1024 + 1 * k.val = 1024 * (t.val % 8) + k.val; rw [e0]; omega
  | ⟨1, _⟩ => show win0_1.index t (1 : Fin 2) * 128 + 1 * d.val = d.val; rw [e1]; omega

theorem iblk2_apply (c : Dev nD) (t : Fin cfg0.N) (r : Fin 1024) (h : 1024 * (t.val / 8) + r.val < 8192) :
    (iblk V c 2 t : S1024x1.Idx → Elt F .i32) (ix2 r 0) = (V c main_v0 : S8192x1.Idx → Elt F .i32) (ix2 ⟨1024 * (t.val / 8) + r.val, h⟩ 0) := by
  obtain ⟨-, -, -, -, e0, e1, -⟩ := idx_facts t
  unfold iblk
  rw [View.read_apply]
  show V c main_v0 _ = V c main_v0 _
  congr 1
  funext a
  apply Fin.ext
  match a with
  | ⟨0, _⟩ => show win0_2.index t (0 : Fin 2) * 1024 + 1 * r.val = 1024 * (t.val / 8) + r.val; rw [e0]; omega
  | ⟨1, _⟩ => show win0_2.index t (1 : Fin 2) * 1 + 1 * 0 = 0; rw [e1]

theorem iblk3_apply (c : Dev nD) (t : Fin cfg0.N) (k : Fin 1024) (h : 1024 * (t.val % 8) + k.val < 8192) :
    (iblk V c 3 t : S1x1024.Idx → Elt F .i32) (ix2 0 k) = (V c main_v1 : S1x8192.Idx → Elt F .i32) (ix2 0 ⟨1024 * (t.val % 8) + k.val, h⟩) := by
  obtain ⟨-, -, -, -, -, -, e0, e1, -⟩ := idx_facts t
  unfold iblk
  rw [View.read_apply]
  show V c main_v1 _ = V c main_v1 _
  congr 1
  funext a
  apply Fin.ext
  match a with
  | ⟨0, _⟩ => show win0_3.index t (0 : Fin 2) * 1 + 1 * 0 = 0; rw [e0]
  | ⟨1, _⟩ => show win0_3.index t (1 : Fin 2) * 1024 + 1 * k.val = 1024 * (t.val % 8) + k.val; rw [e1]; omega

end Region

/-! ## The result array from its eight blocks -/

/-- A property of every index of a column of 1024 entries is one of every row. -/
theorem forall_col1024 {P : S1024x1.Idx → Prop} (h : ∀ r : Fin 1024, P (ix2 r 0)) (j : S1024x1.Idx) : P j := by
  have e : j = ix2 (j 0) 0 := by
    funext a
    match a with
    | ⟨0, _⟩ => rfl
    | ⟨1, _⟩ => exact Fin.ext (by have h := idx2_lt1 j; show (j 1).val = 0; omega)
  rw [e]
  exact h _

/-- An index of the result array is in point t's block iff each coordinate is in the block's range on its axis. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v2).slice (win0_4.rect t)).set ↔ _
  rw [View.set_slice_whole, Rect.mem_set_unit]
  exact Iff.rfl

/-- Row R of the result is written back by the last point of the row of the grid that works on R's block of 1024 rows. -/
theorem cover4 (i : S8192x1.Idx) : ∃ t : Fin cfg0.N, (cfg0.win 4).flush t = true ∧ i ∈ ((cfg0.win 4).blk t).view.set := by
  have hN : cfg0.N = 64 := N_0
  have hi0 : (i 0).val < 8192 := (i 0).isLt
  have hi1 : (i 1).val < 1 := (i 1).isLt
  have ht : 8 * ((i 0).val / 1024) + 7 < cfg0.N := by omega
  refine ⟨⟨8 * ((i 0).val / 1024) + 7, ht⟩, (flush0_4 _).mpr (by show (8 * ((i 0).val / 1024) + 7) % 8 = 7; omega), ?_⟩
  rw [mem_blk4]
  obtain ⟨-, -, -, -, -, -, -, -, e0, e1⟩ := idx_facts ⟨8 * ((i 0).val / 1024) + 7, ht⟩
  have e0' : win0_4.index ⟨8 * ((i 0).val / 1024) + 7, ht⟩ (0 : Fin 2) = (i 0).val / 1024 := by rw [e0]; show (8 * ((i 0).val / 1024) + 7) / 8 = _; omega
  intro a
  match a with
  | ⟨0, _⟩ =>
    show win0_4.index ⟨8 * ((i 0).val / 1024) + 7, ht⟩ (0 : Fin 2) * 1024 ≤ (i 0).val ∧ (i 0).val < win0_4.index ⟨8 * ((i 0).val / 1024) + 7, ht⟩ (0 : Fin 2) * 1024 + 1024
    rw [e0']; omega
  | ⟨1, _⟩ =>
    show win0_4.index ⟨8 * ((i 0).val / 1024) + 7, ht⟩ (1 : Fin 2) * 1 ≤ (i 1).val ∧ (i 1).val < win0_4.index ⟨8 * ((i 0).val / 1024) + 7, ht⟩ (1 : Fin 2) * 1 + 1
    rw [e1]; omega

section Region
variable {F : FTy → Type} [FloatOps F] [Named F]
variable (V : (c : Dev nD) → (b : Ref sig .tc) → Buf (Elt F) ((c : Thread nD τ).loc b))

/-- Where a row of the block written back at point t sits in the result array. -/
theorem emb4 (t : Fin cfg0.N) (p : Fin 1024) (h : 1024 * (t.val / 8) + p.val < 8192) :
    (((cfg0.win 4).blk t).view.emb (ix2 p 0) : S8192x1.Idx) = ix2 ⟨1024 * (t.val / 8) + p.val, h⟩ 0 := by
  obtain ⟨-, -, -, -, -, -, -, -, e0, e1⟩ := idx_facts t
  funext a
  apply Fin.ext
  match a with
  | ⟨0, _⟩ => show win0_4.index t (0 : Fin 2) * 1024 + 1 * p.val = 1024 * (t.val / 8) + p.val; rw [e0]; omega
  | ⟨1, _⟩ => show win0_4.index t (1 : Fin 2) * 1 + 1 * 0 = 0; rw [e1]

/-- If the block the last point of each row of the grid leaves in the result's window is the matching block of rows of G, the
    result array ends holding G: the eight blocks written back tile it. -/
theorem arr4_of_blocks (c : Dev nD) (G : S8192x1.Idx → Elt F .f32)
    (hG : ∀ (t : Fin cfg0.N), t.val % 8 = 7 → ∀ (r : Fin 1024) (h : 1024 * (t.val / 8) + r.val < 8192),
      ((accAt V c t.val t.isLt).1 : S1024x1.Idx → Elt F .f32) (ix2 r 0) = G (ix2 ⟨1024 * (t.val / 8) + r.val, h⟩ 0)) :
    (dat V c).arrAt 4 cfg0.N = G := by
  refine (dat V c).arrAt_eq_of_cover 4 G (fun t hf => ?_) cover4
  have h7 : t.val % 8 = 7 := (flush0_4 t).mp hf
  have hN : t.val < 64 := lt_of_lt_of_eq t.isLt (show cfg0.N = 64 from N_0)
  show (cfg0.win 4).cut (grid0.coords t) ((dat V c).after 4 t) = _
  rw [after4]
  refine funext (forall_col1024 (P := fun j => ((accAt V c t.val t.isLt).1 : S1024x1.Idx → Elt F .f32) j = G (((cfg0.win 4).blk t).view.emb j)) fun r => ?_)
  have hr : 1024 * (t.val / 8) + r.val < 8192 := by have := r.isLt; omega
  show ((accAt V c t.val t.isLt).1 : S1024x1.Idx → Elt F .f32) (ix2 r 0) = G (((cfg0.win 4).blk t).view.emb (ix2 r 0))
  rw [emb4 t r hr]
  exact hG t h7 r hr

end Region

/-! ## The two running columns along a row of the grid -/

open Cert.Margin in
/-- Row 1024 i + r's least similarity to a positive among the columns of block j'. -/
def gMin (x0 : S8192x128.Idx → EReal) (y : Fin 8192 → BitVec 32) (i : Fin 8) (r : Fin 1024) : Fin 8 → EReal :=
  fun j' => Finset.univ.inf fun k : Fin 1024 => posTerm (tab x0) y ⟨1024 * i.val + r.val, by omega⟩ (col j' k)
open Cert.Margin in
/-- Row 1024 i + r's greatest similarity to a negative among the columns of block j'. -/
def gMax (x0 : S8192x128.Idx → EReal) (y : Fin 8192 → BitVec 32) (i : Fin 8) (r : Fin 1024) : Fin 8 → EReal :=
  fun j' => Finset.univ.sup fun k : Fin 1024 => negTerm (tab x0) y ⟨1024 * i.val + r.val, by omega⟩ (col j' k)

section Summands
open Cert.Margin
variable (x0 : S8192x128.Idx → EReal) (y : Fin 8192 → BitVec 32)

/-- The inner product of two rows of blocks that hold rows R and C of the table is the similarity of R and C. -/
theorem sim_rows (x2 x3 : Vec Ideal S1024x128 .f32) (r k : Fin 1024) (R C : Fin 8192)
    (h2 : ∀ d : Fin 128, x2 (ix2 r d) = x0 (ix2 R d)) (h3 : ∀ d : Fin 128, x3 (ix2 k d) = x0 (ix2 C d)) :
    (∑ d : Fin 128, x2 (ix2 r d) * x3 (ix2 k d)) = sim (tab x0) R C := by
  unfold sim tab
  exact Finset.sum_congr rfl fun d _ => by rw [h2, h3]

/-- The summand of the block's minimum over the positives is the specification's. -/
theorem pos_summand (x2 x3 : Vec Ideal S1024x128 .f32) (x4 : Vec Ideal S1024x1 .i32) (x5 : Vec Ideal S1x1024 .i32) (r k : Fin 1024) (a b : ℕ) (R C : Fin 8192)
    (h2 : ∀ d : Fin 128, x2 (ix2 r d) = x0 (ix2 R d)) (h3 : ∀ d : Fin 128, x3 (ix2 k d) = x0 (ix2 C d))
    (h4 : x4 (ix2 r 0) = y R) (h5 : x5 (ix2 0 k) = y C) (ha : 1024 * a + r.val = R.val) (hb : 1024 * b + k.val = C.val) :
    (if x4 (ix2 r 0) = x5 (ix2 0 k) ∧ 1024 * a + r.val ≠ 1024 * b + k.val then ∑ d : Fin 128, x2 (ix2 r d) * x3 (ix2 k d) else ⊤) = posTerm (tab x0) y R C := by
  rw [sim_rows x0 x2 x3 r k R C h2 h3, h4, h5, ha, hb]
  unfold posTerm IsPos
  exact if_congr (and_congr_right fun _ => not_congr Fin.ext_iff.symm) rfl rfl

/-- The summand of the block's maximum over the negatives is the specification's. -/
theorem neg_summand (x2 x3 : Vec Ideal S1024x128 .f32) (x4 : Vec Ideal S1024x1 .i32) (x5 : Vec Ideal S1x1024 .i32) (r k : Fin 1024) (R C : Fin 8192)
    (h2 : ∀ d : Fin 128, x2 (ix2 r d) = x0 (ix2 R d)) (h3 : ∀ d : Fin 128, x3 (ix2 k d) = x0 (ix2 C d))
    (h4 : x4 (ix2 r 0) = y R) (h5 : x5 (ix2 0 k) = y C) :
    (if x4 (ix2 r 0) ≠ x5 (ix2 0 k) then ∑ d : Fin 128, x2 (ix2 r d) * x3 (ix2 k d) else ⊥) = negTerm (tab x0) y R C := by
  rw [sim_rows x0 x2 x3 r k R C h2 h3, h4, h5]
  unfold negTerm IsNeg
  exact if_congr Iff.rfl rfl rfl

end Summands

section Value
open Cert.Margin
variable (V : (c : Dev nD) → (b : Ref sig .tc) → Buf (Elt Ideal) ((c : Thread nD τ).loc b)) (c : Dev nD)
variable (x0 : S8192x128.Idx → EReal) (y : Fin 8192 → BitVec 32)
variable (hx : ∀ (r : Fin 8192) (d : Fin 128), V c main_arg0 (ix2 r d) = x0 (ix2 r d))
variable (hr : ∀ r : Fin 8192, V c main_v0 (ix2 r 0) = y r) (hc : ∀ r : Fin 8192, V c main_v1 (ix2 0 r) = y r)

include hx in
theorem tab_rows (t : Fin cfg0.N) (r : Fin 1024) (i : Fin 8) (hi : t.val / 8 = i.val) (d : Fin 128) :
    (iblk V c 0 t : S1024x128.Idx → EReal) (ix2 r d) = x0 (ix2 (⟨1024 * i.val + r.val, by omega⟩ : Fin 8192) d) := by
  have hR : 1024 * (t.val / 8) + r.val < 8192 := by omega
  rw [iblk0_apply V c t r d hR, hx]
  exact congrArg (fun R : Fin 8192 => x0 (ix2 R d)) (Fin.ext (by show 1024 * (t.val / 8) + r.val = 1024 * i.val + r.val; omega))

include hx in
theorem tab_cols (t : Fin cfg0.N) (k : Fin 1024) (j : Fin 8) (hj : t.val % 8 = j.val) (d : Fin 128) :
    (iblk V c 1 t : S1024x128.Idx → EReal) (ix2 k d) = x0 (ix2 (col j k) d) := by
  have hK : 1024 * (t.val % 8) + k.val < 8192 := by omega
  rw [iblk1_apply V c t k d hK, hx]
  exact congrArg (fun R : Fin 8192 => x0 (ix2 R d)) (Fin.ext (by show 1024 * (t.val % 8) + k.val = 1024 * j.val + k.val; omega))

include hr in
theorem lab_rows (t : Fin cfg0.N) (r : Fin 1024) (i : Fin 8) (hi : t.val / 8 = i.val) :
    (iblk V c 2 t : S1024x1.Idx → BitVec 32) (ix2 r 0) = y ⟨1024 * i.val + r.val, by omega⟩ := by
  have hR : 1024 * (t.val / 8) + r.val < 8192 := by omega
  rw [iblk2_apply V c t r hR, hr]
  exact congrArg y (Fin.ext (by show 1024 * (t.val / 8) + r.val = 1024 * i.val + r.val; omega))

include hc in
theorem lab_cols (t : Fin cfg0.N) (k : Fin 1024) (j : Fin 8) (hj : t.val % 8 = j.val) :
    (iblk V c 3 t : S1x1024.Idx → BitVec 32) (ix2 0 k) = y (col j k) := by
  have hK : 1024 * (t.val % 8) + k.val < 8192 := by omega
  rw [iblk3_apply V c t k hK, hc]
  exact congrArg y (Fin.ext (by show 1024 * (t.val % 8) + k.val = 1024 * j.val + k.val; omega))

include hx hr hc in
/-- The block's row minimum over the positives, on the windows' blocks at point t = 8 i + j. -/
theorem pay8_blocks (t : Fin cfg0.N) (r : Fin 1024) (i j : Fin 8) (hi : t.val / 8 = i.val) (hj : t.val % 8 = j.val) :
    k0_pay8 (F := Ideal) (grid0.coords t) (iblk V c 0 t) (iblk V c 1 t) (iblk V c 2 t) (iblk V c 3 t) (ix2 r 0) = gMin x0 y i r j := by
  refine (pay8_apply (grid0.coords t) _ _ _ _ r).trans ?_
  obtain ⟨g0, g1⟩ := coords_facts t
  unfold gMin
  refine Finset.inf_congr rfl fun k _ => ?_
  exact pos_summand x0 y (iblk V c 0 t) (iblk V c 1 t) (iblk V c 2 t) (iblk V c 3 t) r k _ _ ⟨1024 * i.val + r.val, by omega⟩ (col j k)
    (tab_rows V c x0 hx t r i hi) (tab_cols V c x0 hx t k j hj) (lab_rows V c y hr t r i hi) (lab_cols V c y hc t k j hj)
    (by show 1024 * (grid0.coords t 0).val + r.val = 1024 * i.val + r.val; rw [g0, hi])
    (by show 1024 * (grid0.coords t 1).val + k.val = 1024 * j.val + k.val; rw [g1, hj])

include hx hr hc in
/-- The block's row maximum over the negatives, on the windows' blocks at point t = 8 i + j. -/
theorem pay9_blocks (t : Fin cfg0.N) (r : Fin 1024) (i j : Fin 8) (hi : t.val / 8 = i.val) (hj : t.val % 8 = j.val) :
    k0_pay9 (F := Ideal) (iblk V c 0 t) (iblk V c 1 t) (iblk V c 2 t) (iblk V c 3 t) (ix2 r 0) = gMax x0 y i r j := by
  refine (pay9_apply _ _ _ _ r).trans ?_
  unfold gMax
  refine Finset.sup_congr rfl fun k _ => ?_
  exact neg_summand x0 y (iblk V c 0 t) (iblk V c 1 t) (iblk V c 2 t) (iblk V c 3 t) r k ⟨1024 * i.val + r.val, by omega⟩ (col j k)
    (tab_rows V c x0 hx t r i hi) (tab_cols V c x0 hx t k j hj) (lab_rows V c y hr t r i hi) (lab_cols V c y hc t k j hj)

end Value

section Run
open Cert.Margin
variable (V : (c : Dev nD) → (b : Ref sig .tc) → Buf (Elt Ideal) ((c : Thread nD τ).loc b)) (c : Dev nD)
variable (x0 : S8192x128.Idx → EReal) (y : Fin 8192 → BitVec 32)
variable (hx : ∀ (r : Fin 8192) (d : Fin 128), V c main_arg0 (ix2 r d) = x0 (ix2 r d))
variable (hr : ∀ r : Fin 8192, V c main_v0 (ix2 r 0) = y r) (hc : ∀ r : Fin 8192, V c main_v1 (ix2 0 r) = y r)

include hx hr hc in
/-- Along the i-th row of the grid, after the point at position j the two columns hold, at row r, the running minimum over the
    positives and the running maximum over the negatives among the columns of blocks 0 … j. -/
theorem cols_at (i : Fin 8) (r : Fin 1024) : ∀ (j : ℕ) (hj : j < 8) (t : Fin cfg0.N) (ht : t.val = 8 * i.val + j),
    ((accAt V c t.val t.isLt).2.1 : S1024x1.Idx → EReal) (ix2 r 0) = runMin (gMin x0 y i r) j
    ∧ ((accAt V c t.val t.isLt).2.2 : S1024x1.Idx → EReal) (ix2 r 0) = runMax (gMax x0 y i r) j := by
  intro j
  induction j with
  | zero =>
    intro hj t ht
    have h0 : t.val % 8 = 0 := by omega
    have h1 : ¬t.val % 8 = 7 := by omega
    have hi : t.val / 8 = i.val := by omega
    rw [accAt_first V c t h0 h1]
    constructor
    · dsimp only
      rw [s7First_eq V c t]
      refine (pay1_apply _ _ r).trans ?_
      rw [pay4_apply r, pay8_blocks V c x0 y hx hr hc t r i 0 hi (by show t.val % 8 = 0; exact h0)]
      rfl
    · dsimp only
      rw [s8First_eq V c t]
      refine (pay2_apply _ _ r).trans ?_
      rw [pay5_apply r, pay9_blocks V c x0 y hx hr hc t r i 0 hi (by show t.val % 8 = 0; exact h0)]
      rfl
  | succ j ih =>
    intro hj t ht
    have h0 : ¬t.val % 8 = 0 := by omega
    have hi : t.val / 8 = i.val := by omega
    have hjm : t.val % 8 = (⟨(j + 1) % 8, Nat.mod_lt _ (by decide)⟩ : Fin 8).val := by show t.val % 8 = (j + 1) % 8; omega
    have hprev := ih (by omega) ⟨t.val - 1, Nat.lt_of_le_of_lt (Nat.sub_le _ _) t.isLt⟩ (by show t.val - 1 = 8 * i.val + j; omega)
    have hp7 : (prev7 V c t : S1024x1.Idx → EReal) (ix2 r 0) = runMin (gMin x0 y i r) j := hprev.1
    have hp8 : (prev8 V c t : S1024x1.Idx → EReal) (ix2 r 0) = runMax (gMax x0 y i r) j := hprev.2
    by_cases h1 : t.val % 8 = 7
    · rw [accAt_last V c t h0 h1]
      constructor
      · dsimp only
        rw [s7Last_eq V c t]
        refine (pay1_apply _ _ r).trans ?_
        rw [hp7, pay8_blocks V c x0 y hx hr hc t r i _ hi hjm]
        rfl
      · dsimp only
        rw [s8Last_eq V c t]
        refine (pay2_apply _ _ r).trans ?_
        rw [hp8, pay9_blocks V c x0 y hx hr hc t r i _ hi hjm]
        rfl
    · rw [accAt_mid V c t h0 h1]
      constructor
      · dsimp only
        rw [s7Mid_eq V c t]
        refine (pay1_apply _ _ r).trans ?_
        rw [hp7, pay8_blocks V c x0 y hx hr hc t r i _ hi hjm]
        rfl
      · dsimp only
        rw [s8Mid_eq V c t]
        refine (pay2_apply _ _ r).trans ?_
        rw [hp8, pay9_blocks V c x0 y hx hr hc t r i _ hi hjm]
        rfl

/-- The infimum over the 8 blocks of a row's block minima is its least similarity to a positive. -/
theorem inf_gMin (i : Fin 8) (r : Fin 1024) : Finset.univ.inf (gMin x0 y i r) = minPos (tab x0) y ⟨1024 * i.val + r.val, by omega⟩ :=
  inf_blocks (posTerm (tab x0) y ⟨1024 * i.val + r.val, by omega⟩)
/-- The supremum over the 8 blocks of a row's block maxima is its greatest similarity to a negative. -/
theorem sup_gMax (i : Fin 8) (r : Fin 1024) : Finset.univ.sup (gMax x0 y i r) = maxNeg (tab x0) y ⟨1024 * i.val + r.val, by omega⟩ :=
  sup_blocks (negTerm (tab x0) y ⟨1024 * i.val + r.val, by omega⟩)

include hx hr hc in
/-- The block of losses the last point of a row of the grid stores is the row losses of its 1024 rows. -/
theorem block_loss (hfin : Finite (tab x0)) (t : Fin cfg0.N) (h7 : t.val % 8 = 7) (r : Fin 1024) (hR : 1024 * (t.val / 8) + r.val < 8192) :
    ((accAt V c t.val t.isLt).1 : S1024x1.Idx → EReal) (ix2 r 0) = rowLoss (tab x0) y ⟨1024 * (t.val / 8) + r.val, hR⟩ := by
  have hN : t.val < 64 := lt_of_lt_of_eq t.isLt (show cfg0.N = 64 from N_0)
  have h0 : ¬t.val % 8 = 0 := by omega
  have hcols := cols_at V c x0 y hx hr hc ⟨t.val / 8, by omega⟩ r 7 (by omega) t (by show t.val = 8 * (t.val / 8) + 7; omega)
  rw [accAt_last V c t h0 h7] at hcols
  dsimp only at hcols
  obtain ⟨hc7', hc8'⟩ := hcols
  rw [s7Last_eq V c t, runMin_seven, inf_gMin] at hc7'
  rw [s8Last_eq V c t, runMax_seven, sup_gMax] at hc8'
  rw [accAt_last V c t h0 h7]
  dsimp only
  rw [o6Last_eq V c t]
  refine (pay3_apply _ _ r).trans ?_
  rw [hc7', hc8']
  exact rowLoss_eq_guarded_of_decidable hfin y _

include hx hr hc in
/-- THE RESULT ARRAY: row r of the kernel's result is the loss of row r. -/
theorem out_rows (hfin : Cert.Margin.Finite (Cert.Margin.tab x0)) (r : Fin 8192) :
    (dat (F := Ideal) V c).arrAt 4 cfg0.N (ix2 r 0) = Cert.Margin.rowLoss (Cert.Margin.tab x0) y r :=
  congrFun (arr4_of_blocks V c (fun idx : S8192x1.Idx => rowLoss (tab x0) y (idx 0))
    (fun t h7 p hp => block_loss V c x0 y hx hr hc hfin t h7 p hp)) (ix2 r 0)

end Run

end Cert.KernelIdeal.Hand

end
-- ==== Proof.KernelIdealResult.lean ====
/-
  The kernel's result. After the region @main reshapes the kernel's [8192, 1] array of row losses to [8192], sums it from 0 and divides by
  8192; the labels reach the region as a column [8192, 1] and as a row [1, 8192], both reshapes of the one label array, and the table
  reaches it as launched.
-/
import proofs.«167502_j24584392802985_1_alg».proof.Proof.KernelIdealFrame
import proofs.«167502_j24584392802985_1_alg».proof.Proof.KernelIdealValue
import proofs.«167502_j24584392802985_1_alg».proof.Proof.LibKeepdims
import proofs.«167502_j24584392802985_1_alg».proof.Proof.MarginLaws
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Idealize.ShloMosaic.StableHlo

local notation "𝕄" => MT nD τ sig Unit (Elt Ideal) ℕ (UR sig nD τ) ℕ

variable (m : (ℓ : Loc nD τ sig) → Buf (Elt Ideal) ℓ) (ρ : Dev nD → PrngReg)

/-- An [a, 1] column cast to [a] reads, at i, the column's entry (i, 0). -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The host operations after the region, as one function of the vector of row losses: the sum from 0, divided by 8192. -/
def tail (v : FVec Ideal S8192 .f32) : FVec Ideal S_ .f32 :=
  Host.divf (F := Ideal) (Host.reduceAdd (F := Ideal) v (constant (F := Ideal) S_ .f32 0x00000000#32) reducesTo_S8192_S_d0 h_S_) (constant (F := Ideal) S_ .f32 0x46000000#32)

theorem W3_v5 (c : Dev nD) : W3 (F := Ideal) m ρ c (Proc.devRef .tc main_v5)
    = tail (shapeCast S8192 (W2 (F := Ideal) m ρ c (Proc.devRef .tc main_v2)) shapeCasts_S8192x1_S8192) := by
  show StableHlo.after hostOps1 (W2 m ρ c) (Proc.devRef .tc main_v5) = _
  after_results
  rfl

theorem V1_v0 (c : Dev nD) : V1 (F := Ideal) m ρ c main_v0 = shapeCast S8192x1 (m ((c : Thread nD τ).loc main_arg1)) shapeCasts_S8192_S8192x1 := by
  show StableHlo.after hostOps0 (W0 m ρ c) (Proc.devRef .tc main_v0) = _
  after_results
  rfl

theorem V1_v1 (c : Dev nD) : V1 (F := Ideal) m ρ c main_v1 = shapeCast S1x8192 (m ((c : Thread nD τ).loc main_arg1)) shapeCasts_S8192_S1x8192 := by
  show StableHlo.after hostOps0 (W0 m ρ c) (Proc.devRef .tc main_v1) = _
  after_results
  rfl

theorem V1_arg0 (c : Dev nD) : V1 (F := Ideal) m ρ c main_arg0 = m ((c : Thread nD τ).loc main_arg0) := by
  show StableHlo.after hostOps0 (W0 m ρ c) (Proc.devRef .tc main_arg0) = _
  after_results

/-- THE KERNEL'S RESULT: with every entry of the table a real, @main's result is the sum of the row losses from 0 divided by 8192. -/
theorem result_eq (c : Dev nD) (hfin : Cert.Margin.Finite (Cert.Margin.tab (m ((c : Thread nD τ).loc main_arg0)))) :
    W3 (F := Ideal) m ρ c (Proc.devRef .tc main_v5)
      = tail (Cert.Margin.lossVec (m ((c : Thread nD τ).loc main_arg0)) (m ((c : Thread nD τ).loc main_arg1))) := by
  rw [W3_v5, W2_v2]
  refine congrArg tail (funext fun i => ?_)
  obtain ⟨r, rfl⟩ : ∃ r : Fin 8192, i = ix1 r := ⟨i 0, eq_ix1 i⟩
  rw [shapeCast_a1_a_apply]
  rw [out_rows (V1 m ρ) c (m ((c : Thread nD τ).loc main_arg0)) (Cert.Margin.lab (m ((c : Thread nD τ).loc main_arg1)))
    (fun r d => by rw [V1_arg0])
    (fun r => by rw [V1_v0]; exact Keepdims.shapeCast_a_a1_apply _ _ r 0)
    (fun r => by rw [V1_v1]; exact shapeCast_a_1a_apply _ _ 0 r) hfin r]
  exact (Cert.Margin.lossVec_ix1 _ _ r).symm

end Cert.KernelIdeal.Hand

end
-- ==== Proof.RefValue.lean ====
/-
  The reference's value is the shared specification.

  The reference computes, for each row `r`, the least similarity to a positive (or `0` when the row has no positive) plus the
  greatest similarity to a negative (or `0` when it has none) plus `1`, clamped below at `0`; the result is the sum of these row
  losses divided by `8192`. Read at row `r`, every stage of the reference is the corresponding piece of the specification:
  the similarity matrix at `(r, c)` is the inner product of rows `r` and `c`; the two masks at `(r, c)` are the words `1` exactly
  when `c` is a positive, respectively a negative, for `r`; a reduction along the columns is a fold over the 8192 columns, so
  the "any" reductions are `1` exactly when some column is a positive (negative), and the minimum (maximum) reductions are the
  infimum (supremum) over all columns of the similarity where the mask holds and `⊤` (`⊥`) where it does not.
-/
import proofs.«167502_j24584392802985_1_alg».proof.Proof.RefReadP
import proofs.«167502_j24584392802985_1_alg».proof.Proof.MarginLaws

noncomputable section

namespace Cert.ReferenceIdeal.RefValue

open Cert.ReferenceIdeal Cert.ReferenceIdeal.Gen Cert.ReferenceIdeal.ReadP Idealize.ShloMosaic Idealize.ShloMosaic.ValueIdx Cert.Margin
open scoped BigOperators

/-- The table of floats, an array of shape [8192, 128]. -/
abbrev Tab := (⟨S8192x128, .f32⟩ : BufTy).Contents (Elt Ideal)
/-- The labels, an array of shape [8192]. -/
abbrev Lab := (⟨S8192, .i32⟩ : BufTy).Contents (Elt Ideal)

/-! ## A reduction along the columns, read at a row -/

theorem reduces_cols : S8192x8192.Reduces [1] S8192 := by decide

/-- A reduction of an [8192, 8192] array along its columns with a commutative associative body is, at row `r`, the fold of the body from
    the initial value over the 8192 entries of row `r`. -/
theorem reduce_row {α : Type} (f : α → α → α) [Std.Commutative f] [Std.Associative f] (x : S8192x8192.Idx → α) (init : S_.Idx → α)
    (r : Fin 8192) :
    Host.reduce f x init reducesTo_S8192x8192_S8192_d1 h_S_ (ix1 r)
      = (Finset.univ : Finset (Fin 8192)).fold f (init (Shape.Idx.first h_S_)) (fun c => x (ix2 r c)) := by
  rw [Host.reduce_eq_fold_single f x init reducesTo_S8192x8192_S8192_d1 reduces_cols h_S_ (ix1 r)]
  have e : (x ∘ reduces_cols.lift (ix1 r)) = fun c : Fin 8192 => x (ix2 r c) := by
    funext c
    show x (reduces_cols.lift (ix1 r) c) = x (ix2 r c)
    congr 1
    funext a
    match a with
    | ⟨0, _⟩ => exact Fin.ext rfl
    | ⟨1, _⟩ => exact Fin.ext rfl
  rw [e]
  rfl

/-! ## The stages read at coordinates -/

/-- The similarity matrix at `(r, c)` is the inner product of rows `r` and `c`. -/
theorem sim_apply (x0 : Tab) (r c : Fin 8192) : val_main_v1 (F := Ideal) x0 (ix2 r c) = sim (tab x0) r c := by
  rw [val_main_v1_apply]
  unfold sim tab
  refine Finset.sum_congr rfl fun k _ => ?_
  rw [val_main_v0_apply]
  have el : lidx_main_v1 (ix2 r c) k = ix2 r k := by
    funext a
    match a with
    | ⟨0, _⟩ => rfl
    | ⟨1, _⟩ => rfl
  have er : idx_main_v0 (ridx_main_v1 (ix2 r c) k) = ix2 c k := by
    funext a
    match a with
    | ⟨0, _⟩ => rfl
    | ⟨1, _⟩ => rfl
  rw [el, er]

/-- Words of two row numbers are equal exactly when the rows are. -/
theorem ofNat_eq_iff (r c : Fin 8192) : BitVec.ofNat 32 r.val = BitVec.ofNat 32 c.val ↔ r = c := by
  constructor
  · intro h
    have h' := congrArg BitVec.toNat h
    simp only [BitVec.toNat_ofNat] at h'
    have hr := r.isLt
    have hc := c.isLt
    rw [Nat.mod_eq_of_lt (by omega), Nat.mod_eq_of_lt (by omega)] at h'
    exact Fin.ext h'
  · rintro rfl; rfl

/-- The "same label" matrix at `(r, c)`: the word `1` exactly when rows `r` and `c` carry the same label. -/
theorem eq_apply (x1 : Lab) (r c : Fin 8192) :
    val_main_v6 (F := Ideal) x1 (ix2 r c) = if lab x1 r = lab x1 c then 1#1 else 0#1 := by
  rw [val_main_v6_apply, val_main_v4_apply, val_main_v2_apply, val_main_v5_apply, val_main_v3_apply]
  have e1 : idx_main_v2 (idx_main_v4 (ix2 r c)) = ix1 r := by
    funext a
    match a with
    | ⟨0, _⟩ => rfl
  have e2 : idx_main_v3 (idx_main_v5 (ix2 r c)) = ix1 c := by
    funext a
    match a with
    | ⟨0, _⟩ => rfl
  rw [e1, e2]
  unfold lab IntOp.cmpi
  by_cases h : x1 (ix1 r) = x1 (ix1 c)
  · simp [h]
  · simp [h, beq_false_of_ne h]

/-- The "another row" matrix at `(r, c)`: the word `1` exactly when `r ≠ c`. -/
theorem ne_apply (r c : Fin 8192) :
    val_main_v12 (F := Ideal) (ix2 r c) = if r ≠ c then 1#1 else 0#1 := by
  rw [val_main_v12_apply, val_main_v11_apply, val_main_v10_apply, val_main_v7_apply, val_main_v8_apply, val_main_v9_apply,
    val_main_c_apply]
  show ~~~(IntOp.cmpi .eq (IntOp.addi (BitVec.ofNat 32 r.val) 0#32) (BitVec.ofNat 32 c.val)) = _
  unfold IntOp.cmpi IntOp.addi
  rw [BitVec.add_zero]
  by_cases h : r = c
  · subst h; simp
  · have h' : ¬ BitVec.ofNat 32 r.val = BitVec.ofNat 32 c.val := fun e => h ((ofNat_eq_iff r c).mp e)
    simp [h, beq_false_of_ne h']

/-- The mask of the positives at `(r, c)`: the word `1` exactly when `c` is a positive for `r`. -/
theorem pos_apply (x1 : Lab) (r c : Fin 8192) :
    val_main_v13 (F := Ideal) x1 (ix2 r c) = if IsPos (lab x1) r c then 1#1 else 0#1 := by
  rw [val_main_v13_apply, eq_apply, ne_apply]
  unfold IsPos IntOp.andi
  by_cases h1 : lab x1 r = lab x1 c <;> by_cases h2 : r = c <;> simp [h1, h2]

/-- The mask of the negatives at `(r, c)`: the word `1` exactly when `c` is a negative for `r`. -/
theorem neg_apply (x1 : Lab) (r c : Fin 8192) :
    val_main_v14 (F := Ideal) x1 (ix2 r c) = if IsNeg (lab x1) r c then 1#1 else 0#1 := by
  rw [val_main_v14_apply, eq_apply]
  unfold IsNeg
  by_cases h1 : lab x1 r = lab x1 c <;> simp [h1]

/-! ## The constants -/

theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]
theorem ofBits_one : Ideal.ofBits .f32 0x3F800000#32 = 1 := by simp [Ideal.ofBits, Ideal.ieee, -EReal.coe_mul]; norm_num

/-- A select on the word of a proposition is the `if` on the proposition. -/
theorem select_ite {α : Type} (P : Prop) [Decidable P] (a b : α) :
    Scalar.select (if P then 1#1 else 0#1) a b = if P then a else b := by
  by_cases h : P
  · rw [if_pos h, if_pos h]; exact select_one a b
  · rw [if_neg h, if_neg h]; exact select_zero a b

/-- A fold of "or" from `0` over the words of a family of propositions is the word of "some member holds". -/
theorem fold_or_ite (P : Fin 8192 → Prop) [DecidablePred P] :
    (Finset.univ : Finset (Fin 8192)).fold IntOp.ori 0#1 (fun c => if P c then 1#1 else 0#1) = if ∃ c, P c then 1#1 else 0#1 := by
  by_cases h : ∃ c, P c
  · rw [if_pos h]
    obtain ⟨c, hc⟩ := h
    exact (fold_or_eq_one_iff _ _).mpr ⟨c, Finset.mem_univ _, if_pos hc⟩
  · rw [if_neg h]
    apply eq_zero_of_ne_one
    intro h1
    obtain ⟨c, _, hc⟩ := (fold_or_eq_one_iff _ _).mp h1
    apply h
    refine ⟨c, ?_⟩
    by_contra hn
    rw [if_neg hn] at hc
    exact absurd hc (by decide)

/-! ## The four reductions at a row -/

/-- "Some column is a positive for row `r`". -/
theorem anyPos_apply (x1 : Lab) (r : Fin 8192) :
    val_main_v17 (F := Ideal) x1 (ix1 r) = if ∃ c, IsPos (lab x1) r c then 1#1 else 0#1 := by
  unfold val_main_v17
  rw [reduce_row, val_main_c_1_apply]
  have e : (fun c => val_main_v13 (F := Ideal) x1 (ix2 r c)) = fun c => if IsPos (lab x1) r c then 1#1 else 0#1 :=
    funext fun c => pos_apply x1 r c
  rw [e]
  exact fold_or_ite _

/-- "Some column is a negative for row `r`". -/
theorem anyNeg_apply (x1 : Lab) (r : Fin 8192) :
    val_main_v22 (F := Ideal) x1 (ix1 r) = if ∃ c, IsNeg (lab x1) r c then 1#1 else 0#1 := by
  unfold val_main_v22
  rw [reduce_row, val_main_c_5_apply]
  have e : (fun c => val_main_v14 (F := Ideal) x1 (ix2 r c)) = fun c => if IsNeg (lab x1) r c then 1#1 else 0#1 :=
    funext fun c => neg_apply x1 r c
  rw [e]
  exact fold_or_ite _

/-- The least similarity of row `r` to a positive. -/
theorem min_apply (x0 : Tab) (x1 : Lab) (r : Fin 8192) :
    val_main_v16 (F := Ideal) x0 x1 (ix1 r) = minPos (tab x0) (lab x1) r := by
  unfold val_main_v16
  rw [reduce_row, val_main_cst_0_apply, Ideal.ofBits_def, ofBits_top]
  have e : (fun c => val_main_v15 (F := Ideal) x0 x1 (ix2 r c)) = posTerm (tab x0) (lab x1) r := funext fun c => by
    rw [val_main_v15_apply, pos_apply, sim_apply, val_main_call0_v0_apply, val_main_cst_apply, Ideal.ofBits_def, ofBits_top, select_ite]
    rfl
  rw [e]
  exact fold_min_eq_inf _ _

/-- The greatest similarity of row `r` to a negative. -/
theorem max_apply (x0 : Tab) (x1 : Lab) (r : Fin 8192) :
    val_main_v21 (F := Ideal) x0 x1 (ix1 r) = maxNeg (tab x0) (lab x1) r := by
  unfold val_main_v21
  rw [reduce_row, val_main_cst_4_apply, Ideal.ofBits_def, ofBits_bot]
  have e : (fun c => val_main_v20 (F := Ideal) x0 x1 (ix2 r c)) = negTerm (tab x0) (lab x1) r := funext fun c => by
    rw [val_main_v20_apply, neg_apply, sim_apply, val_main_call2_v0_apply, val_main_v19_apply, val_main_cst_3_apply, Ideal.ofBits_def,
      ofBits_top, Ideal.hostNegf_def, Ideal.negf_def, EReal.neg_top, select_ite]
    rfl
  rw [e]
  exact fold_max_eq_sup _ _

/-! ## The row loss, the vector of row losses, and the result -/

/-- The reference's loss of row `r` is the specification's. -/
theorem row_apply (x0 : Tab) (x1 : Lab) (r : Fin 8192) :
    val_main_v28 (F := Ideal) x0 x1 (ix1 r) = rowLoss (tab x0) (lab x1) r := by
  rw [val_main_v28_apply, val_main_v27_apply, val_main_cst_8_apply, val_main_v26_apply, val_main_v25_apply, val_main_cst_7_apply,
    val_main_v24_apply, val_main_v18_apply, val_main_v23_apply, anyPos_apply, anyNeg_apply, min_apply, max_apply,
    val_main_call1_v1_apply, val_main_call1_v0_apply, val_main_cst_2_apply, val_main_call3_v1_apply, val_main_call3_v0_apply,
    val_main_cst_6_apply, select_ite, select_ite]
  simp only [Ideal.ofBits_def, Ideal.addf_def, Ideal.maximumf_def, Ideal.ofBits_zero_f32, ofBits_one]
  unfold rowLoss
  by_cases hp : ∃ c, IsPos (lab x1) r c <;> by_cases hn : ∃ c, IsNeg (lab x1) r c
  · simp only [if_pos hp, if_pos hn]
  · simp only [if_pos hp, if_neg hn]
  · simp only [if_neg hp, if_pos hn]
  · simp only [if_neg hp, if_neg hn]

/-- The reference's vector of row losses is the specification's. -/
theorem lossVec_eq (x0 : Tab) (x1 : Lab) : val_main_v28 (F := Ideal) x0 x1 = lossVec x0 x1 := by
  funext i
  obtain ⟨r, rfl⟩ : ∃ r, i = ix1 r := ⟨i 0, eq_ix1 i⟩
  exact row_apply x0 x1 r

/-- THE REFERENCE'S RESULT: the term the reference's run states for its result, over any table `x0` and labels `x1`, is the sum of the
    specification's row losses (from `0`) divided by `8192`. -/
theorem result_eq (x0 : (⟨S8192x128, .f32⟩ : BufTy).Contents (Elt Ideal)) (x1 : (⟨S8192, .i32⟩ : BufTy).Contents (Elt Ideal)) :
    Host.divf (F := Ideal) (Host.reduceAdd (F := Ideal) (maximumf (F := Ideal) (broadcastInDim S8192 ![] bcast_S_S8192 (constant S_ .f32 0x00000000#32)) (addf (addf (select (Host.reduce IntOp.ori (andi (cmpi .eq (broadcastInDim S8192x8192 ![0, 1] bcast_S8192x1_S8192x8192_0_1 (broadcastInDim S8192x1 ![0] bcast_S8192_S8192x1_0 (x1))) (broadcastInDim S8192x8192 ![0, 1] bcast_S1x8192_S8192x8192_0_1 (broadcastInDim S1x8192 ![1] bcast_S8192_S1x8192_1 (x1)))) (noti (cmpi .eq (addi (iotaInDim S8192x8192 32 0) (broadcastInDim S8192x8192 ![] bcast_S_S8192x8192 (constantI S_ 32 0#32))) (iotaInDim S8192x8192 32 1)))) (constantI S_ 1 0#1) reducesTo_S8192x8192_S8192_d1 h_S_) (Host.reduce FloatOps.minimumf (select (andi (cmpi .eq (broadcastInDim S8192x8192 ![0, 1] bcast_S8192x1_S8192x8192_0_1 (broadcastInDim S8192x1 ![0] bcast_S8192_S8192x1_0 (x1))) (broadcastInDim S8192x8192 ![0, 1] bcast_S1x8192_S8192x8192_0_1 (broadcastInDim S1x8192 ![1] bcast_S8192_S1x8192_1 (x1)))) (noti (cmpi .eq (addi (iotaInDim S8192x8192 32 0) (broadcastInDim S8192x8192 ![] bcast_S_S8192x8192 (constantI S_ 32 0#32))) (iotaInDim S8192x8192 32 1)))) (Host.dotGeneral (F := Ideal) (φ₁ := .f32) (φ₂ := .f32) dot_S8192x128_S128x8192_S8192x8192_1_0_0_1_n_n none (x0) (transpose S128x8192 [1, 0] (x0) transposes_S8192x128_S128x8192_1_0)) (broadcastInDim S8192x8192 ![] bcast_S_S8192x8192 (constant S_ .f32 0x7F800000#32))) (constant S_ .f32 0x7F800000#32) reducesTo_S8192x8192_S8192_d1 h_S_) (broadcastInDim S8192 ![] bcast_S_S8192 (id (constant S_ .f32 0x00000000#32)))) (select (Host.reduce IntOp.ori (noti (cmpi .eq (broadcastInDim S8192x8192 ![0, 1] bcast_S8192x1_S8192x8192_0_1 (broadcastInDim S8192x1 ![0] bcast_S8192_S8192x1_0 (x1))) (broadcastInDim S8192x8192 ![0, 1] bcast_S1x8192_S8192x8192_0_1 (broadcastInDim S1x8192 ![1] bcast_S8192_S1x8192_1 (x1))))) (constantI S_ 1 0#1) reducesTo_S8192x8192_S8192_d1 h_S_) (Host.reduce FloatOps.maximumf (select (noti (cmpi .eq (broadcastInDim S8192x8192 ![0, 1] bcast_S8192x1_S8192x8192_0_1 (broadcastInDim S8192x1 ![0] bcast_S8192_S8192x1_0 (x1))) (broadcastInDim S8192x8192 ![0, 1] bcast_S1x8192_S8192x8192_0_1 (broadcastInDim S1x8192 ![1] bcast_S8192_S1x8192_1 (x1))))) (Host.dotGeneral (F := Ideal) (φ₁ := .f32) (φ₂ := .f32) dot_S8192x128_S128x8192_S8192x8192_1_0_0_1_n_n none (x0) (transpose S128x8192 [1, 0] (x0) transposes_S8192x128_S128x8192_1_0)) (broadcastInDim S8192x8192 ![] bcast_S_S8192x8192 (Host.negf (constant S_ .f32 0x7F800000#32)))) (constant S_ .f32 0xFF800000#32) reducesTo_S8192x8192_S8192_d1 h_S_) (broadcastInDim S8192 ![] bcast_S_S8192 (id (constant S_ .f32 0x00000000#32))))) (broadcastInDim S8192 ![] bcast_S_S8192 (constant S_ .f32 0x3F800000#32)))) (constant S_ .f32 0x00000000#32) reducesTo_S8192_S_d0 h_S_) (constant S_ .f32 0x46000000#32)
      = Host.divf (F := Ideal) (Host.reduceAdd (F := Ideal) (Cert.Margin.lossVec x0 x1) (constant (F := Ideal) S_ .f32 0x00000000#32) reducesTo_S8192_S_d0 h_S_) (constant (F := Ideal) S_ .f32 0x46000000#32) := by
  refine (val_main_v30_eq (F := Ideal) x0 x1).trans ?_
  unfold val_main_v30 val_main_v29 val_main_cst_9 val_main_cst_10
  rw [lossVec_eq]

end Cert.ReferenceIdeal.RefValue

end
-- ==== Proof.FiniteInputs.lean ====
/-
  The precondition decoded: "every float input is finite" says that the conjunction, over all 8192 × 128 entries of the table, of
  |x| < +∞ is true; so each entry's absolute value max x (−x) is below the top element, the entry is neither infinity, and it is a real.
-/
import proofs.«167502_j24584392802985_1_alg».proof.Pre_finite_inputs
import proofs.«167502_j24584392802985_1_alg».proof.Proof.MarginLaws
import Idealize.ShloMosaic.Lib.ReduceAll
import Idealize.ShloMosaic.Lib.ValueIdx

noncomputable section

namespace Cert.Margin

open Idealize.ShloMosaic Idealize.ShloMosaic.ValueIdx

instance : Subsingleton Cert.Pre_finite_inputs.S_.Idx := ⟨fun a b => funext fun d => d.elim0⟩

/-- An extended real whose absolute value is below the top element is a real. -/
theorem real_of_abs_lt_top (a : EReal) (h : max a (-a) < ⊤) : ∃ x : ℝ, a = (x : EReal) := by
  induction a using EReal.rec with
  | bot => simp at h
  | coe x => exact ⟨x, rfl⟩
  | top => simp at h

/-- Under the precondition every entry of the table is a real. -/
theorem finite_of_pre [Cert.Pre_finite_inputs.Facts] (x0 : FVec Ideal Cert.Pre_finite_inputs.S8192x128 .f32) (x1 : IVec Cert.Pre_finite_inputs.S8192 32)
    (h : Cert.Pre_finite_inputs.fn (F := Ideal) x0 x1 = fun _ => 1#1) : Cert.Margin.Finite (tab x0) := by
  intro r k
  have h0 := congrFun h ValueIdx.ix0
  dsimp only [Cert.Pre_finite_inputs.fn] at h0
  have he := Host.reduce_andi_all _ _ _ _ _ h0 (ix2 r k)
  refine real_of_abs_lt_top (x0 (ix2 r k)) ?_
  have hc : Ideal.cmp .olt (max (x0 (ix2 r k)) (-(x0 (ix2 r k)))) (Ideal.ofBits .f32 0x7F800000#32) = 1#1 := he
  have htop : Ideal.ofBits .f32 0x7F800000#32 = ⊤ := by simp [Ideal.ofBits, Ideal.ieee]
  rw [htop] at hc
  by_contra hn
  have hz : Ideal.cmp .olt (max (x0 (ix2 r k)) (-(x0 (ix2 r k)))) ⊤ = 0#1 := by
    unfold Ideal.cmp; dsimp only; rw [decide_eq_false hn]; rfl
  rw [hz] at hc
  exact absurd hc (by decide)

end Cert.Margin

end
-- ==== Proof.lean ====
/-
  A margin loss over 8192 rows of 128 floats with an integer label per row. With sim = P·Pᵀ, row r's loss is max(0, a + b + 1), where a is
  the least similarity of r to another row of the same label (0 if there is none) and b the greatest similarity to a row of another label
  (0 if there is none); the result is the mean of the 8192 losses.

  The kernel tiles the 8192 × 8192 similarities in 8 × 8 blocks of 1024 × 1024. For each block of rows it keeps, per row, a running minimum
  over the positives and a running maximum over the negatives across the eight blocks of columns, started at a large finite number and its
  negative, and at the last block of columns turns them into losses, taking "the running value is still (nearly) the start value" for
  "there was none". The reference computes the two row reductions over all 8192 columns at once, from +∞ and −∞, and tests "there is
  none" directly. Read on the extended reals, with the kernel's four large constants named as ±∞, the two agree for a table of reals:
  the minimum over all columns is the minimum over the blocks of the blocks' minima; a similarity of real rows is real, so the minimum
  over the positives is below +∞ exactly when there is a positive (and dually); and from there on both programs are the same expression.
  That a row's entries are reals is the precondition (every float input finite), and it is used: with an infinite similarity the
  kernel's test and the reference's would part.

  The claims: the three programs run to the end with their arguments unchanged; the idealized kernel is the kernel with its four large
  constants read as ±∞ (one statement per constant site); the idealized kernel and the idealized reference end with equal results.
-/
import proofs.«167502_j24584392802985_1_alg».proof.Defs
import proofs.«167502_j24584392802985_1_alg».proof.Proof.Gen.Kernel
import proofs.«167502_j24584392802985_1_alg».proof.Proof.Gen.KernelIdeal
import proofs.«167502_j24584392802985_1_alg».proof.Proof.Gen.ReferenceIdeal
import proofs.«167502_j24584392802985_1_alg».proof.Proof.Gen.Pre_finite_inputs
import proofs.«167502_j24584392802985_1_alg».proof.Proof.KernelFrame
import proofs.«167502_j24584392802985_1_alg».proof.Proof.KernelIdealResult
import proofs.«167502_j24584392802985_1_alg».proof.Proof.RefValue
import proofs.«167502_j24584392802985_1_alg».proof.Proof.FiniteInputs
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The kernel, on machine words: it runs to the end and leaves the table and the labels as they were. -/
theorem frame_k : Cert.frame_Kernel := fun m ρ _ => Cert.Kernel.Hand.frame (F := Bits) m ρ

/-- The idealized kernel likewise. -/
theorem frame_ki : Cert.frame_KernelIdeal := fun m ρ _ => Cert.KernelIdeal.Hand.frame (F := Ideal) m ρ

/-- The idealized reference likewise: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Each of the six sites of a large constant — 1e30 and −1e30 as the start and the fill of the running minimum and maximum, 0.99e30 and
    −0.99e30 as the thresholds of the two "there was none" tests — is, on the extended reals, the infinity the table of names gives it. -/
theorem preserves : Cert.preserves_Kernel_KernelIdeal :=
  ⟨IdealRules.named_const.statement Cert.KernelIdeal.κ "pos_big" .f32 0x7149F2CA#32 ⊤ rfl,
   IdealRules.named_const.statement Cert.KernelIdeal.κ "neg_big" .f32 0xF149F2CA#32 ⊥ rfl,
   IdealRules.named_const.statement Cert.KernelIdeal.κ "pos_big" .f32 0x7149F2CA#32 ⊤ rfl,
   IdealRules.named_const.statement Cert.KernelIdeal.κ "neg_big" .f32 0xF149F2CA#32 ⊥ rfl,
   IdealRules.named_const.statement Cert.KernelIdeal.κ "pos_big_2" .f32 0x7147EDCD#32 ⊤ rfl,
   IdealRules.named_const.statement Cert.KernelIdeal.κ "neg_big_2" .f32 0xF147EDCD#32 ⊥ rfl⟩

/-- On the extended reals, from a table of reals, both programs end at the sum of the 8192 row losses, from 0, divided by 8192. -/
theorem algebraic : Cert.algebraic_KernelIdeal_ReferenceIdeal := by
  intro m ρ m' ρ' hpre hagree
  refine ⟨fun c => Cert.KernelIdeal.Hand.tail (Cert.Margin.lossVec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · refine (θ_run Cert.KernelIdeal.defs _ _).mono (fun r h c => ⟨?_, ?_, ?_⟩) (Cert.KernelIdeal.Hand.run_main (F := Ideal) m ρ)
    · exact (h c _ (Cert.KernelIdeal.Hand.mem_uc Cert.KernelIdeal.main_v5 (by decide))).trans
        (Cert.KernelIdeal.Hand.result_eq m ρ c (Cert.Margin.finite_of_pre _ _ (hpre c)))
    · exact (h c _ (Cert.KernelIdeal.Hand.mem_uc Cert.KernelIdeal.main_arg0 (by decide))).trans
        (Cert.KernelIdeal.Hand.W3_arg m ρ c Cert.KernelIdeal.main_arg0 (.inl rfl))
    · exact (h c _ (Cert.KernelIdeal.Hand.mem_uc Cert.KernelIdeal.main_arg1 (by decide))).trans
        (Cert.KernelIdeal.Hand.W3_arg m ρ c Cert.KernelIdeal.main_arg1 (.inr rfl))
  · refine (θ_run Cert.ReferenceIdeal.defs _ _).mono (fun _ h c => ⟨(h c).1.trans ?_, (h c).2⟩)
      (Cert.ReferenceIdeal.ValueP.run (F := Ideal) m' ρ')
    rw [(hagree c).1, (hagree c).2]
    exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
